-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x500000 : Shape := ⟨2, ![2, 500000]⟩
abbrev S50000x256 : Shape := ⟨2, ![50000, 256]⟩
abbrev S2x256x256 : Shape := ⟨3, ![2, 256, 256]⟩
abbrev S2x256 : Shape := ⟨2, ![2, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S512x256 .f32) (main_arg9 : FVec F S256 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S2x256 .f32) (main_arg6 : FVec F S512x512 .f32) (main_arg7 : FVec F S512 .f32) (main_arg8 : FVec F S512x256 .f32) (main_arg9 : FVec F S256 .f32) (main_arg10 : FVec F S256x128 .f32) (main_arg11 : FVec F S128 .f32) (main_arg12 : FVec F S128x1 .f32) (main_arg13 : FVec F S1 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S2x500000 32) (main_arg1 : FVec F S50000x256 .f32) (main_arg2 : FVec F S2x256x256 .f32) (main_arg3 : FVec F S2x256 .f32) (main_arg4 : FVec F S2x256 .f32) (main_arg5 : FVec F S2x256 .f32) (main_arg6 : FVec F S512x512 .f32) (main_arg7 : FVec F S512 .f32) (main_arg8 : FVec F S512x256 .f32) (main_arg9 : FVec F S256 .f32) (main_arg10 : FVec F S256x128 .f32) (main_arg11 : FVec F S128 .f32) (main_arg12 : FVec F S128x1 .f32) (main_arg13 : FVec F S1 .f32) : IVec S_ 1 :=
  let main_v0 : FVec F S50000x256 .f32 := Host.absf main_arg1
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x256x256 .f32 := Host.absf main_arg2
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256 .f32 := Host.absf main_arg4
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg5 main_arg6 main_arg7 main_arg8 main_arg9 main_arg10 main_arg11 main_arg12 main_arg13 main_v13 main_v16
-- ==== Kernel.lean ====
abbrev S2x500000 : Shape := ⟨2, ![2, 500000]⟩
abbrev S50000x256 : Shape := ⟨2, ![50000, 256]⟩
abbrev S2x256x256 : Shape := ⟨3, ![2, 256, 256]⟩
abbrev S2x256 : Shape := ⟨2, ![2, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S1x256x256 : Shape := ⟨3, ![1, 256, 256]⟩
abbrev S256x256 : Shape := ⟨2, ![256, 256]⟩
abbrev S5000x256 : Shape := ⟨2, ![5000, 256]⟩
abbrev S550000x256 : Shape := ⟨2, ![550000, 256]⟩
abbrev S1x256 : Shape := ⟨2, ![1, 256]⟩
abbrev S500000x1 : Shape := ⟨2, ![500000, 1]⟩
abbrev S500000x256 : Shape := ⟨2, ![500000, 256]⟩
abbrev S256x512 : Shape := ⟨2, ![256, 512]⟩
abbrev S4000x256 : Shape := ⟨2, ![4000, 256]⟩
abbrev S4000x1 : Shape := ⟨2, ![4000, 1]⟩
abbrev S4000x512 : Shape := ⟨2, ![4000, 512]⟩
abbrev S1x512 : Shape := ⟨2, ![1, 512]⟩
abbrev S4000x128 : Shape := ⟨2, ![4000, 128]⟩
abbrev S1x128 : Shape := ⟨2, ![1, 128]⟩
abbrev S1x1 : Shape := ⟨2, ![1, 1]⟩

abbrev nBuf : Space → Nat
  | .hbm => 197
  | .vmem => 25
  | .smem => 0
  | _ => 0

abbrev hbmTy0_0 (i : Nat) : BufTy := match i % 128 with
  | 0 => ⟨S2x500000, .i32⟩
  | 1 => ⟨S50000x256, .f32⟩
  | 2 => ⟨S2x256x256, .f32⟩
  | 3 => ⟨S2x256, .f32⟩
  | 4 => ⟨S2x256, .f32⟩
  | 5 => ⟨S2x256, .f32⟩
  | 6 => ⟨S512x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x1, .f32⟩
  | 13 => ⟨S1, .f32⟩
  | 14 => ⟨S1x500000, .i32⟩
  | 15 => ⟨S500000, .i32⟩
  | 16 => ⟨S1x500000, .i32⟩
  | 17 => ⟨S500000, .i32⟩
  | 18 => ⟨S50000, .i32⟩
  | 19 => ⟨S550000, .i32⟩
  | 20 => ⟨S550000, .i32⟩
  | 21 => ⟨S_, .f32⟩
  | 22 => ⟨S550000, .f32⟩
  | 23 => ⟨S_, .f32⟩
  | 24 => ⟨S50000, .f32⟩
  | 25 => ⟨S550000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S_, .i32⟩
  | 45 => ⟨S550000, .i32⟩
  | 46 => ⟨S550000, .i1⟩
  | 47 => ⟨S_, .i32⟩
  | 48 => ⟨S550000, .i32⟩
  | 49 => ⟨S550000, .i32⟩
  | 50 => ⟨S550000, .i32⟩
  | 51 => ⟨S550000x1, .i32⟩
  | 52 => ⟨S550000, .f32⟩
  | 53 => ⟨S550000, .f32⟩
  | 54 => ⟨S550000x1, .f32⟩
  | 55 => ⟨S1x256x256, .f32⟩
  | 56 => ⟨S256x256, .f32⟩
  | 57 => ⟨S50000x256, .f32⟩
  | 58 => ⟨S_, .i32⟩
  | 59 => ⟨S550000, .i32⟩
  | 60 => ⟨S550000, .i1⟩
  | 61 => ⟨S_, .i32⟩
  | 62 => ⟨S550000, .i32⟩
  | 63 => ⟨S550000, .i32⟩
  | 64 => ⟨S550000, .i32⟩
  | 65 => ⟨S550000x1, .i32⟩
  | 66 => ⟨S550000x256, .f32⟩
  | 67 => ⟨S550000x256, .f32⟩
  | 68 => ⟨S550000x256, .f32⟩
  | 69 => ⟨S_, .f32⟩
  | 70 => ⟨S50000x256, .f32⟩
  | 71 => ⟨S550000x1, .i32⟩
  | 72 => ⟨S50000x256, .f32⟩
  | 73 => ⟨S1x256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S50000x256, .f32⟩
  | 85 => ⟨S50000x256, .f32⟩
  | 86 => ⟨S50000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S50000x256, .f32⟩
  | 94 => ⟨S50000x256, .f32⟩
  | 95 => ⟨S_, .f32⟩
  | 96 => ⟨S256, .f32⟩
  | 97 => ⟨S256, .f32⟩
  | 98 => ⟨S256, .f32⟩
  | 99 => ⟨S1x256, .f32⟩
  | 100 => ⟨S50000x256, .f32⟩
  | 101 => ⟨S50000x256, .f32⟩
  | 102 => ⟨S1x256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S1x256x256, .f32⟩
  | 116 => ⟨S256x256, .f32⟩
  | 117 => ⟨S50000x256, .f32⟩
  | 118 => ⟨S_, .i32⟩
  | 119 => ⟨S550000, .i32⟩
  | 120 => ⟨S550000, .i1⟩
  | 121 => ⟨S_, .i32⟩
  | 122 => ⟨S550000, .i32⟩
  | 123 => ⟨S550000, .i32⟩
  | 124 => ⟨S550000, .i32⟩
  | 125 => ⟨S550000x1, .i32⟩
  | 126 => ⟨S550000x256, .f32⟩
  | 127 => ⟨S550000x256, .f32⟩
  | _ => ⟨S2x500000, .i32⟩

abbrev hbmTy0_1 (i : Nat) : BufTy := match i % 128 with
  | 0 => ⟨S550000x256, .f32⟩
  | 1 => ⟨S_, .f32⟩
  | 2 => ⟨S50000x256, .f32⟩
  | 3 => ⟨S550000x1, .i32⟩
  | 4 => ⟨S50000x256, .f32⟩
  | 5 => ⟨S1x256, .f32⟩
  | 6 => ⟨S256, .f32⟩
  | 7 => ⟨S1x256, .f32⟩
  | 8 => ⟨S50000x256, .f32⟩
  | 9 => ⟨S50000x256, .f32⟩
  | 10 => ⟨S_, .f32⟩
  | 11 => ⟨S256, .f32⟩
  | 12 => ⟨S_, .f32⟩
  | 13 => ⟨S256, .f32⟩
  | 14 => ⟨S256, .f32⟩
  | 15 => ⟨S1x256, .f32⟩
  | 16 => ⟨S50000x256, .f32⟩
  | 17 => ⟨S50000x256, .f32⟩
  | 18 => ⟨S50000x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S50000x256, .f32⟩
  | 26 => ⟨S50000x256, .f32⟩
  | 27 => ⟨S_, .f32⟩
  | 28 => ⟨S256, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S50000x256, .bf16⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x256, .bf16⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x256, .bf16⟩
  | 66 => ⟨S256x512, .f32⟩
  | 67 => ⟨S256x512, .f32⟩
  | 68 => ⟨S500000x1, .f32⟩
  | _ => ⟨S2x500000, .i32⟩

abbrev hbmTy (i : Nat) : BufTy := match i / 128 with
  | 0 => hbmTy0_0 i
  | 1 => hbmTy0_1 i
  | _ => ⟨S2x500000, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S4000x256, .bf16⟩
  | .local _ .vmem, ⟨11, _⟩ => ⟨S4000x256, .bf16⟩
  | .local _ .vmem, ⟨12, _⟩ => ⟨S4000x256, .bf16⟩
  | .local _ .vmem, ⟨13, _⟩ => ⟨S4000x256, .bf16⟩
  | .local _ .vmem, ⟨14, _⟩ => ⟨S256x512, .f32⟩
  | .local _ .vmem, ⟨15, _⟩ => ⟨S256x512, .f32⟩
  | .local _ .vmem, ⟨16, _⟩ => ⟨S512, .f32⟩
  | .local _ .vmem, ⟨17, _⟩ => ⟨S512x256, .f32⟩
  | .local _ .vmem, ⟨18, _⟩ => ⟨S256, .f32⟩
  | .local _ .vmem, ⟨19, _⟩ => ⟨S256x128, .f32⟩
  | .local _ .vmem, ⟨20, _⟩ => ⟨S128, .f32⟩
  | .local _ .vmem, ⟨21, _⟩ => ⟨S128x1, .f32⟩
  | .local _ .vmem, ⟨22, _⟩ => ⟨S1, .f32⟩
  | .local _ .vmem, ⟨23, _⟩ => ⟨S4000x1, .f32⟩
  | .local _ .vmem, ⟨24, _⟩ => ⟨S4000x1, .f32⟩
  | _, _ => ⟨S2x500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_cst : Ref sig .tc := ⟨.hbm, 112, rfl⟩
abbrev main_call1_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_14 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_16 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_17 : Ref sig .tc := ⟨.hbm, 138, rfl⟩
abbrev main_v101 : Ref sig .tc := ⟨.hbm, 139, rfl⟩
abbrev main_cst_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_19 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_21 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_call2_cst : Ref sig .tc := ⟨.hbm, 172, rfl⟩
abbrev main_call2_v0 : Ref sig .tc := ⟨.hbm, 173, rfl⟩
abbrev main_v130 : Ref sig .tc := ⟨.hbm, 174, rfl⟩
abbrev main_v131 : Ref sig .tc := ⟨.hbm, 175, rfl⟩
abbrev main_c_22 : Ref sig .tc := ⟨.hbm, 176, rfl⟩
abbrev main_v132 : Ref sig .tc := ⟨.hbm, 177, rfl⟩
abbrev main_v133 : Ref sig .tc := ⟨.hbm, 178, rfl⟩
abbrev main_c_23 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_c_24 : Ref sig .tc := ⟨.hbm, 185, rfl⟩
abbrev main_v139 : Ref sig .tc := ⟨.hbm, 186, rfl⟩
abbrev main_v140 : Ref sig .tc := ⟨.hbm, 187, rfl⟩
abbrev main_c_25 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg11_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem11_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  slices_S2x256x256_S1x256x256_0_0_0 : S2x256x256.Slices ![0, 0, 0] S1x256x256
  shapeCasts_S1x256x256_S256x256 : S1x256x256.ShapeCasts S256x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  slices_S2x256x256_S1x256x256_1_0_0 : S2x256x256.Slices ![1, 0, 0] S1x256x256
  shapeCasts_S5000x256_S5000x256 : S5000x256.ShapeCasts S5000x256
  slices_S2x256_S1x256_1_0 : S2x256.Slices ![1, 0] S1x256
  bcast_S_S500000 : S_.BroadcastsInDim S500000 (![] : Fin 0 → Fin S500000.rank)
  bcast_S500000_S500000x1_0 : S500000.BroadcastsInDim S500000x1 (![0] : Fin 1 → Fin S500000x1.rank)
  slices_S512x512_S256x512_0_0 : S512x512.Slices ![0, 0] S256x512
  slices_S512x512_S256x512_256_0 : S512x512.Slices ![256, 0] S256x512
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S4000x512 : S1x512.Broadcasts S4000x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x256_S256x256_S5000x256_1_0_0_1_n_n_wf : DotDims.WF S5000x256 S256x256 S5000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  gather_S50000x256_S500000x1_S500000x256_1_0_n_n_0_1_1256_wf : GatherDims.WF S50000x256 S500000x1 S500000x256 [1] [0] [] [0] [] 1 ![1, 256]
  dot_S4000x256_S256x512_S4000x512_1_0_0_1_n_n_wf : DotDims.WF S4000x256 S256x512 S4000x512 [1] [0] [0] [1] [] []
  dot_S4000x512_S512x256_S4000x256_1_0_0_1_n_n_wf : DotDims.WF S4000x512 S512x256 S4000x256 [1] [0] [0] [1] [] []
  dot_S4000x256_S256x128_S4000x128_1_0_0_1_n_n_wf : DotDims.WF S4000x256 S256x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S500000x256.size a
  hwx2_0 : ∀ i : grid2.Coords, EltTy.bits .bf16 = 32 ∨ (Rect.block (s := S500000x256) S4000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S500000x256.size a
  hwx2_1 : ∀ i : grid2.Coords, EltTy.bits .bf16 = 32 ∨ (Rect.block (s := S500000x256) S4000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S512x256.size a
  hwx2_5 : ∀ i : grid2.Coords, EltTy.bits .f32 = 32 ∨ (Rect.block (s := S512x256) S512x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1.size a ≤ S1.size a
  hwx2_10 : ∀ i : grid2.Coords, EltTy.bits .f32 = 32 ∨ (Rect.block (s := S1) S1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x1.size a ≤ S500000x1.size a
  hwx2_11 : ∀ i : grid2.Coords, EltTy.bits .f32 = 32 ∨ (Rect.block (s := S500000x1) S4000x1.size (cc2_transform_11 i) (hinb2_11 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v80) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v138) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v145) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v146) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v147) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S512x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg13) S1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v148) S4000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S2x500000 : Shape := ⟨2, ![2, 500000]⟩
abbrev S50000x256 : Shape := ⟨2, ![50000, 256]⟩
abbrev S2x256x256 : Shape := ⟨3, ![2, 256, 256]⟩
abbrev S2x256 : Shape := ⟨2, ![2, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S1x256x256 : Shape := ⟨3, ![1, 256, 256]⟩
abbrev S256x256 : Shape := ⟨2, ![256, 256]⟩
abbrev S550000x256 : Shape := ⟨2, ![550000, 256]⟩
abbrev S1x256 : Shape := ⟨2, ![1, 256]⟩
abbrev S500000x1 : Shape := ⟨2, ![500000, 1]⟩
abbrev S500000x256 : Shape := ⟨2, ![500000, 256]⟩
abbrev S500000x512 : Shape := ⟨2, ![500000, 512]⟩
abbrev S1x512 : Shape := ⟨2, ![1, 512]⟩
abbrev S500000x128 : Shape := ⟨2, ![500000, 128]⟩
abbrev S1x128 : Shape := ⟨2, ![1, 128]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S2x500000, .i32⟩
  | 1 => ⟨S50000x256, .f32⟩
  | 2 => ⟨S2x256x256, .f32⟩
  | 3 => ⟨S2x256, .f32⟩
  | 4 => ⟨S2x256, .f32⟩
  | 5 => ⟨S2x256, .f32⟩
  | 6 => ⟨S512x512, .f32⟩
  | 7 => ⟨S512, .f32⟩
  | 8 => ⟨S512x256, .f32⟩
  | 9 => ⟨S256, .f32⟩
  | 10 => ⟨S256x128, .f32⟩
  | 11 => ⟨S128, .f32⟩
  | 12 => ⟨S128x1, .f32⟩
  | 13 => ⟨S1, .f32⟩
  | 14 => ⟨S1x500000, .i32⟩
  | 15 => ⟨S500000, .i32⟩
  | 16 => ⟨S1x500000, .i32⟩
  | 17 => ⟨S500000, .i32⟩
  | 18 => ⟨S50000, .i32⟩
  | 19 => ⟨S550000, .i32⟩
  | 20 => ⟨S550000, .i32⟩
  | 21 => ⟨S_, .f32⟩
  | 22 => ⟨S550000, .f32⟩
  | 23 => ⟨S_, .f32⟩
  | 24 => ⟨S50000, .f32⟩
  | 25 => ⟨S550000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S_, .i32⟩
  | 45 => ⟨S550000, .i32⟩
  | 46 => ⟨S550000, .i1⟩
  | 47 => ⟨S_, .i32⟩
  | 48 => ⟨S550000, .i32⟩
  | 49 => ⟨S550000, .i32⟩
  | 50 => ⟨S550000, .i32⟩
  | 51 => ⟨S550000x1, .i32⟩
  | 52 => ⟨S550000, .f32⟩
  | 53 => ⟨S550000, .f32⟩
  | 54 => ⟨S550000x1, .f32⟩
  | 55 => ⟨S1x256x256, .f32⟩
  | 56 => ⟨S256x256, .f32⟩
  | 57 => ⟨S50000x256, .f32⟩
  | 58 => ⟨S_, .i32⟩
  | 59 => ⟨S550000, .i32⟩
  | 60 => ⟨S550000, .i1⟩
  | 61 => ⟨S_, .i32⟩
  | 62 => ⟨S550000, .i32⟩
  | 63 => ⟨S550000, .i32⟩
  | 64 => ⟨S550000, .i32⟩
  | 65 => ⟨S550000x1, .i32⟩
  | 66 => ⟨S550000x256, .f32⟩
  | 67 => ⟨S550000x256, .f32⟩
  | 68 => ⟨S550000x256, .f32⟩
  | 69 => ⟨S_, .f32⟩
  | 70 => ⟨S50000x256, .f32⟩
  | 71 => ⟨S550000x1, .i32⟩
  | 72 => ⟨S50000x256, .f32⟩
  | 73 => ⟨S1x256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S50000x256, .f32⟩
  | 85 => ⟨S50000x256, .f32⟩
  | 86 => ⟨S50000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S50000x256, .f32⟩
  | 94 => ⟨S50000x256, .f32⟩
  | 95 => ⟨S_, .f32⟩
  | 96 => ⟨S256, .f32⟩
  | 97 => ⟨S256, .f32⟩
  | 98 => ⟨S256, .f32⟩
  | 99 => ⟨S1x256, .f32⟩
  | 100 => ⟨S50000x256, .f32⟩
  | 101 => ⟨S50000x256, .f32⟩
  | 102 => ⟨S1x256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S1x256x256, .f32⟩
  | 116 => ⟨S256x256, .f32⟩
  | 117 => ⟨S50000x256, .f32⟩
  | 118 => ⟨S_, .i32⟩
  | 119 => ⟨S550000, .i32⟩
  | 120 => ⟨S550000, .i1⟩
  | 121 => ⟨S_, .i32⟩
  | 122 => ⟨S550000, .i32⟩
  | 123 => ⟨S550000, .i32⟩
  | 124 => ⟨S550000, .i32⟩
  | 125 => ⟨S550000x1, .i32⟩
  | 126 => ⟨S550000x256, .f32⟩
  | 127 => ⟨S550000x256, .f32⟩
  | _ => ⟨S2x500000, .i32⟩

abbrev hbmTy0_1 (i : Nat) : BufTy := match i % 128 with
  | 0 => ⟨S550000x256, .f32⟩
  | 1 => ⟨S_, .f32⟩
  | 2 => ⟨S50000x256, .f32⟩
  | 3 => ⟨S550000x1, .i32⟩
  | 4 => ⟨S50000x256, .f32⟩
  | 5 => ⟨S1x256, .f32⟩
  | 6 => ⟨S256, .f32⟩
  | 7 => ⟨S1x256, .f32⟩
  | 8 => ⟨S50000x256, .f32⟩
  | 9 => ⟨S50000x256, .f32⟩
  | 10 => ⟨S_, .f32⟩
  | 11 => ⟨S256, .f32⟩
  | 12 => ⟨S_, .f32⟩
  | 13 => ⟨S256, .f32⟩
  | 14 => ⟨S256, .f32⟩
  | 15 => ⟨S1x256, .f32⟩
  | 16 => ⟨S50000x256, .f32⟩
  | 17 => ⟨S50000x256, .f32⟩
  | 18 => ⟨S50000x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S50000x256, .f32⟩
  | 26 => ⟨S50000x256, .f32⟩
  | 27 => ⟨S_, .f32⟩
  | 28 => ⟨S256, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x256, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x256, .f32⟩
  | 65 => ⟨S500000x512, .f32⟩
  | 66 => ⟨S500000x512, .f32⟩
  | 67 => ⟨S1x512, .f32⟩
  | 68 => ⟨S500000x512, .f32⟩
  | 69 => ⟨S500000x512, .f32⟩
  | 70 => ⟨S_, .f32⟩
  | 71 => ⟨S500000x512, .f32⟩
  | 72 => ⟨S500000x512, .f32⟩
  | 73 => ⟨S500000x256, .f32⟩
  | 74 => ⟨S1x256, .f32⟩
  | 75 => ⟨S500000x256, .f32⟩
  | 76 => ⟨S500000x256, .f32⟩
  | 77 => ⟨S_, .f32⟩
  | 78 => ⟨S500000x256, .f32⟩
  | 79 => ⟨S500000x256, .f32⟩
  | 80 => ⟨S500000x128, .f32⟩
  | 81 => ⟨S1x128, .f32⟩
  | 82 => ⟨S500000x128, .f32⟩
  | 83 => ⟨S500000x128, .f32⟩
  | 84 => ⟨S_, .f32⟩
  | 85 => ⟨S500000x128, .f32⟩
  | 86 => ⟨S500000x128, .f32⟩
  | 87 => ⟨S500000x1, .f32⟩
  | 88 => ⟨S1x1, .f32⟩
  | 89 => ⟨S500000x1, .f32⟩
  | 90 => ⟨S500000x1, .f32⟩
  | _ => ⟨S2x500000, .i32⟩

abbrev hbmTy (i : Nat) : BufTy := match i / 128 with
  | 0 => hbmTy0_0 i
  | 1 => hbmTy0_1 i
  | _ => ⟨S2x500000, .i32⟩

abbrev bufTy : (tb : Table) → Fin (tcTables nBuf tb) → BufTy
  | .hbm, ⟨i, _⟩ => hbmTy i
  | _, _ => ⟨S2x500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_cst : Ref sig .tc := ⟨.hbm, 112, rfl⟩
abbrev main_call1_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_14 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_16 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_17 : Ref sig .tc := ⟨.hbm, 138, rfl⟩
abbrev main_v101 : Ref sig .tc := ⟨.hbm, 139, rfl⟩
abbrev main_cst_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_19 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_21 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_call2_cst : Ref sig .tc := ⟨.hbm, 172, rfl⟩
abbrev main_call2_v0 : Ref sig .tc := ⟨.hbm, 173, rfl⟩
abbrev main_v130 : Ref sig .tc := ⟨.hbm, 174, rfl⟩
abbrev main_c_22 : Ref sig .tc := ⟨.hbm, 175, rfl⟩
abbrev main_v131 : Ref sig .tc := ⟨.hbm, 176, rfl⟩
abbrev main_v132 : Ref sig .tc := ⟨.hbm, 177, rfl⟩
abbrev main_c_23 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_c_24 : Ref sig .tc := ⟨.hbm, 184, rfl⟩
abbrev main_v138 : Ref sig .tc := ⟨.hbm, 185, rfl⟩
abbrev main_v139 : Ref sig .tc := ⟨.hbm, 186, rfl⟩
abbrev main_c_25 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_call3_cst : Ref sig .tc := ⟨.hbm, 198, rfl⟩
abbrev main_call3_v0 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_call4_cst : Ref sig .tc := ⟨.hbm, 205, rfl⟩
abbrev main_call4_v0 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_call5_cst : Ref sig .tc := ⟨.hbm, 212, rfl⟩
abbrev main_call5_v0 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  slices_S2x256x256_S1x256x256_0_0_0 : S2x256x256.Slices ![0, 0, 0] S1x256x256
  shapeCasts_S1x256x256_S256x256 : S1x256x256.ShapeCasts S256x256
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  slices_S2x256x256_S1x256x256_1_0_0 : S2x256x256.Slices ![1, 0, 0] S1x256x256
  slices_S2x256_S1x256_1_0 : S2x256.Slices ![1, 0] S1x256
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x256_S256x256_S50000x256_1_0_0_1_n_n_wf : DotDims.WF S50000x256 S256x256 S50000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  gather_S50000x256_S500000x1_S500000x256_1_0_n_n_0_1_1256_wf : GatherDims.WF S50000x256 S500000x1 S500000x256 [1] [0] [] [0] [] 1 ![1, 256]
  dot_S500000x512_S512x512_S500000x512_1_0_0_1_n_n_wf : DotDims.WF S500000x512 S512x512 S500000x512 [1] [0] [0] [1] [] []
  dot_S500000x512_S512x256_S500000x256_1_0_0_1_n_n_wf : DotDims.WF S500000x512 S512x256 S500000x256 [1] [0] [0] [1] [] []
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x512_S512x512_S500000x512_1_0_0_1_n_n : DotDims S500000x512 S512x512 S500000x512 where
  lhsContracting := [1]
  rhsContracting := [0]
  lhsNonContracting := [0]
  rhsNonContracting := [1]
  lhsBatch := []
  rhsBatch := []
  wf := dot_S500000x512_S512x512_S500000x512_1_0_0_1_n_n_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KRun.lean ====
/-
  The idealized kernel's run with its result named.

  From any memory with zero counters, every weakly fair execution of @main terminates without a fault; in every final
  state the result buffer (the edge predictor's output array, written back block by block by the third pipeline) holds
  what the fold of @main's twelve segments leaves there — the nine stretches of host operations, each a pure fold over
  the buffer contents, and the three pipelines, each leaving its arrays at what its write-backs sum to — and the
  fourteen argument arrays are as launched. This is the frame's own launch over the segments with the final thread
  state read at one more buffer: the last thread state holds EVERY unscoped buffer at the fold's contents, so the
  result buffer is read off exactly as each argument is.
-/
import proofs.«163565_j59923383714097_2_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, with the result buffer at the fold's
    contents and the arguments unchanged. -/
theorem kernel_run : θ_run defs (onTc (τ := τ) (main (F := F))) ⟨m, fun _ => 0, ρ⟩ (fun r => ∀ c : Dev nD,
      r.2.mem ((c.tc : Thread nD τ).loc main_v148) = W12 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v148 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.Bridge

end
-- ==== Proof.Stages.lean ====
/-
  The host side of the program, stage by stage, as pure functions of the arrays each stage reads.

  Both programs spell the graph convolution the same way around their dense products. From the edge list come the
  source and target endpoint of every edge, the same with one self-loop per node appended, and the symmetric
  normalisation coefficient of every edge. A layer takes the dense product xw of the node features with its weight
  matrix, gathers xw at the sources, scales by the coefficients, sums into the targets, adds its bias, normalises every
  column over the nodes (batch statistics), applies gamma and beta, and takes the maximum with 0. The edge predictor
  reads the final node features at both endpoints of every edge.
  Each definition below is one such stage, written operation by operation in the order the programs apply them; a
  stage that is read several times downstream (a layer's pre-normalisation value is read six times) is named once
  here, which is what keeps the composed value of the whole program small.
-/
import proofs.«163565_j59923383714097_2_alg».proof.Proof.Gen.KernelIdeal

noncomputable section

namespace Cert.Bridge

open Idealize.ShloMosaic Cert.KernelIdeal Cert.KernelIdeal.Gen

variable {F : FTy → Type} [FloatOps F]

/-- The source endpoint of every edge: row 0 of the edge list, as a flat [500000] vector. -/
def srcT (arg0 : (⟨S2x500000, .i32⟩ : BufTy).Contents (Elt F)) :
    (⟨S500000, .i32⟩ : BufTy).Contents (Elt F) :=
  have v0 : (⟨S1x500000, .i32⟩ : BufTy).Contents (Elt F) := ((extractStridedSlice S1x500000 ![0, 0] · slices_S2x500000_S1x500000_0_0) : (⟨S2x500000, .i32⟩ : BufTy).Contents (Elt F) → (⟨S1x500000, .i32⟩ : BufTy).Contents (Elt F)) arg0
  shapeCast _ v0 shapeCasts_S1x500000_S500000

/-- The target endpoint of every edge: row 1 of the edge list, as a flat [500000] vector. -/
def dstT (arg0 : (⟨S2x500000, .i32⟩ : BufTy).Contents (Elt F)) :
    (⟨S500000, .i32⟩ : BufTy).Contents (Elt F) :=
  have v2 : (⟨S1x500000, .i32⟩ : BufTy).Contents (Elt F) := ((extractStridedSlice S1x500000 ![1, 0] · slices_S2x500000_S1x500000_1_0) : (⟨S2x500000, .i32⟩ : BufTy).Contents (Elt F) → (⟨S1x500000, .i32⟩ : BufTy).Contents (Elt F)) arg0
  shapeCast _ v2 shapeCasts_S1x500000_S500000

/-- The sources with one self-loop per node appended: [500000 + 50000]. -/
def srcLoopsT (v1 : (⟨S500000, .i32⟩ : BufTy).Contents (Elt F)) :
    (⟨S550000, .i32⟩ : BufTy).Contents (Elt F) :=
  have v4 : (⟨S50000, .i32⟩ : BufTy).Contents (Elt F) := iotaInDim S50000 32 0
  ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)) v1 v4

/-- The targets with one self-loop per node appended: [500000 + 50000]. -/
def dstLoopsT (v3 : (⟨S500000, .i32⟩ : BufTy).Contents (Elt F)) :
    (⟨S550000, .i32⟩ : BufTy).Contents (Elt F) :=
  have v4 : (⟨S50000, .i32⟩ : BufTy).Contents (Elt F) := iotaInDim S50000 32 0
  ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)) v3 v4

/-- The symmetric normalisation coefficient of every edge (self-loops included), as a column [550000, 1]: with deg the number of edges into a node and dis = rsqrt deg where deg > 0 and 0 elsewhere, the coefficient of an edge is dis[source] · dis[target], the source and target read with negative indices wrapped. -/
def coefT (v5 : (⟨S550000, .i32⟩ : BufTy).Contents (Elt F)) (v6 : (⟨S550000, .i32⟩ : BufTy).Contents (Elt F)) :
    (⟨S550000x1, .f32⟩ : BufTy).Contents (Elt F) :=
  have cst : (⟨S_, .f32⟩ : BufTy).Contents (Elt F) := constant (F := F) S_ .f32 0x3F800000#32
  have v7 : (⟨S550000, .f32⟩ : BufTy).Contents (Elt F) := (broadcastInDim S550000 ![] bcast_S_S550000 : (⟨S_, .f32⟩ : BufTy).Contents (Elt F) → (⟨S550000, .f32⟩ : BufTy).Contents (Elt F)) cst
  have cst_0 : (⟨S_, .f32⟩ : BufTy).Contents (Elt F) := constant (F := F) S_ .f32 0x00000000#32
  have v8 : (⟨S50000, .f32⟩ : BufTy).Contents (Elt F) := (broadcastInDim S50000 ![] bcast_S_S50000 : (⟨S_, .f32⟩ : BufTy).Contents (Elt F) → (⟨S50000, .f32⟩ : BufTy).Contents (Elt F)) cst_0
  have v9 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v10 : (⟨S50000, .f32⟩ : BufTy).Contents (Elt F) := ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)) v8 v9 v7
  have cst_1 : (⟨S_, .f32⟩ : BufTy).Contents (Elt F) := constant (F := F) S_ .f32 0x00000000#32
  have v11 : (⟨S50000, .f32⟩ : BufTy).Contents (Elt F) := (broadcastInDim S50000 ![] bcast_S_S50000 : (⟨S_, .f32⟩ : BufTy).Contents (Elt F) → (⟨S50000, .f32⟩ : BufTy).Contents (Elt F)) cst_1
  have v12 : (⟨S50000, .i1⟩ : BufTy).Contents (Elt F) := (cmpf .ogt : (⟨S50000, .f32⟩ : BufTy).Contents (Elt F) → (⟨S50000, .f32⟩ : BufTy).Contents (Elt F) → (⟨S50000, .i1⟩ : BufTy).Contents (Elt F)) v10 v11
  have v13 : (⟨S50000, .f32⟩ : BufTy).Contents (Elt F) := (Host.rsqrt : (⟨S50000, .f32⟩ : BufTy).Contents (Elt F) → (⟨S50000, .f32⟩ : BufTy).Contents (Elt F)) v10
  have cst_2 : (⟨S_, .f32⟩ : BufTy).Contents (Elt F) := constant (F := F) S_ .f32 0x00000000#32
  have call0_v0 : (⟨S_, .f32⟩ : BufTy).Contents (Elt F) := id cst_2
  have call0_v1 : (⟨S50000, .f32⟩ : BufTy).Contents (Elt F) := (broadcastInDim S50000 ![] bcast_S_S50000) call0_v0
  have v14 : (⟨S50000, .f32⟩ : BufTy).Contents (Elt F) := select v12 v13 call0_v1
  have c : (⟨S_, .i32⟩ : BufTy).Contents (Elt F) := constantI S_ 32 0#32
  have v15 : (⟨S550000, .i32⟩ : BufTy).Contents (Elt F) := (broadcastInDim S550000 ![] bcast_S_S550000 : (⟨S_, .i32⟩ : BufTy).Contents (Elt F) → (⟨S550000, .i32⟩ : BufTy).Contents (Elt F)) c
  have v16 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v15
  have c_3 : (⟨S_, .i32⟩ : BufTy).Contents (Elt F) := constantI S_ 32 50000#32
  have v17 : (⟨S550000, .i32⟩ : BufTy).Contents (Elt F) := (broadcastInDim S550000 ![] bcast_S_S550000 : (⟨S_, .i32⟩ : BufTy).Contents (Elt F) → (⟨S550000, .i32⟩ : BufTy).Contents (Elt F)) c_3
  have v18 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v17
  have v19 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v16 v18 v5
  have v20 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v19
  have v21 : (⟨S550000, .f32⟩ : BufTy).Contents (Elt F) := ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)) v14 v20
  have c_4 : (⟨S_, .i32⟩ : BufTy).Contents (Elt F) := constantI S_ 32 0#32
  have v22 : (⟨S550000, .i32⟩ : BufTy).Contents (Elt F) := (broadcastInDim S550000 ![] bcast_S_S550000 : (⟨S_, .i32⟩ : BufTy).Contents (Elt F) → (⟨S550000, .i32⟩ : BufTy).Contents (Elt F)) c_4
  have v23 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v6 v22
  have c_5 : (⟨S_, .i32⟩ : BufTy).Contents (Elt F) := constantI S_ 32 50000#32
  have v24 : (⟨S550000, .i32⟩ : BufTy).Contents (Elt F) := (broadcastInDim S550000 ![] bcast_S_S550000 : (⟨S_, .i32⟩ : BufTy).Contents (Elt F) → (⟨S550000, .i32⟩ : BufTy).Contents (Elt F)) c_5
  have v25 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v6 v24
  have v26 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v23 v25 v6
  have v27 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v26
  have v28 : (⟨S550000, .f32⟩ : BufTy).Contents (Elt F) := ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)) v14 v27
  have v29 : (⟨S550000, .f32⟩ : BufTy).Contents (Elt F) := (mulf : (⟨S550000, .f32⟩ : BufTy).Contents (Elt F) → (⟨S550000, .f32⟩ : BufTy).Contents (Elt F) → (⟨S550000, .f32⟩ : BufTy).Contents (Elt F)) v21 v28
  (broadcastInDim S550000x1 ![0] bcast_S550000_S550000x1_0 : (⟨S550000, .f32⟩ : BufTy).Contents (Elt F) → (⟨S550000x1, .f32⟩ : BufTy).Contents (Elt F)) v29

/-- The first layer's weight matrix: slab 0 of the [2, 256, 256] weights. -/
def ws0T (arg2 : (⟨S2x256x256, .f32⟩ : BufTy).Contents (Elt F)) :
    (⟨S256x256, .f32⟩ : BufTy).Contents (Elt F) :=
  have v31 : (⟨S1x256x256, .f32⟩ : BufTy).Contents (Elt F) := ((extractStridedSlice S1x256x256 ![0, 0, 0] · slices_S2x256x256_S1x256x256_0_0_0) : (⟨S2x256x256, .f32⟩ : BufTy).Contents (Elt F) → (⟨S1x256x256, .f32⟩ : BufTy).Contents (Elt F)) arg2
  shapeCast _ v31 shapeCasts_S1x256x256_S256x256

/-- The first layer after its dense product xw: gather xw at the (wrapped) sources, scale by the coefficients, sum into the targets, add the bias row 0, normalise every column over the 50000 nodes (mean, then variance as the mean of squared deviations, times rsqrt (var + eps)), scale and shift by rows 0 of gamma and beta, and take the maximum with 0. -/
def layer0T (v33 : (⟨S50000x256, .f32⟩ : BufTy).Contents (Elt F)) (v5 : (⟨S550000, .i32⟩ : BufTy).Contents (Elt F)) (v6 : (⟨S550000, .i32⟩ : BufTy).Contents (Elt F)) (v30 : (⟨S550000x1, .f32⟩ : BufTy).Contents (Elt F)) (arg3 : (⟨S2x256, .f32⟩ : BufTy).Contents (Elt F)) (arg4 : (⟨S2x256, .f32⟩ : BufTy).Contents (Elt F)) (arg5 : (⟨S2x256, .f32⟩ : BufTy).Contents (Elt F)) :
    (⟨S50000x256, .f32⟩ : BufTy).Contents (Elt F) :=
  have c_6 : (⟨S_, .i32⟩ : BufTy).Contents (Elt F) := constantI S_ 32 0#32
  have v34 : (⟨S550000, .i32⟩ : BufTy).Contents (Elt F) := (broadcastInDim S550000 ![] bcast_S_S550000 : (⟨S_, .i32⟩ : BufTy).Contents (Elt F) → (⟨S550000, .i32⟩ : BufTy).Contents (Elt F)) c_6
  have v35 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v34
  have c_7 : (⟨S_, .i32⟩ : BufTy).Contents (Elt F) := constantI S_ 32 50000#32
  have v36 : (⟨S550000, .i32⟩ : BufTy).Contents (Elt F) := (broadcastInDim S550000 ![] bcast_S_S550000 : (⟨S_, .i32⟩ : BufTy).Contents (Elt F) → (⟨S550000, .i32⟩ : BufTy).Contents (Elt F)) c_7
  have v37 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v36
  have v38 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v35 v37 v5
  have v39 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v38
  have v40 : (⟨S550000x256, .f32⟩ : BufTy).Contents (Elt F) := ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)) v33 v39
  have v41 : (⟨S550000x256, .f32⟩ : BufTy).Contents (Elt F) := (broadcastInDim S550000x256 ![0, 1] bcast_S550000x1_S550000x256_0_1 : (⟨S550000x1, .f32⟩ : BufTy).Contents (Elt F) → (⟨S550000x256, .f32⟩ : BufTy).Contents (Elt F)) v30
  have v42 : (⟨S550000x256, .f32⟩ : BufTy).Contents (Elt F) := (mulf : (⟨S550000x256, .f32⟩ : BufTy).Contents (Elt F) → (⟨S550000x256, .f32⟩ : BufTy).Contents (Elt F) → (⟨S550000x256, .f32⟩ : BufTy).Contents (Elt F)) v40 v41
  have cst_8 : (⟨S_, .f32⟩ : BufTy).Contents (Elt F) := constant (F := F) S_ .f32 0x00000000#32
  have v43 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_8
  have v44 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v45 : (⟨S50000x256, .f32⟩ : BufTy).Contents (Elt F) := ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)) v43 v44 v42
  have v46 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg3
  have v47 : (⟨S256, .f32⟩ : BufTy).Contents (Elt F) := shapeCast _ v46 shapeCasts_S1x256_S256
  have v48 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v47
  have v49 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v48
  have v50 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v45 v49
  have cst_9 : (⟨S_, .f32⟩ : BufTy).Contents (Elt F) := constant (F := F) S_ .f32 0x00000000#32
  have v51 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v50 cst_9
  have cst_10 : (⟨S_, .f32⟩ : BufTy).Contents (Elt F) := constant (F := F) S_ .f32 0x47435000#32
  have v52 : (⟨S256, .f32⟩ : BufTy).Contents (Elt F) := (broadcastInDim S256 ![] bcast_S_S256 : (⟨S_, .f32⟩ : BufTy).Contents (Elt F) → (⟨S256, .f32⟩ : BufTy).Contents (Elt F)) cst_10
  have v53 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v51 v52
  have v54 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v53
  have v55 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v54
  have v56 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v50 v55
  have v57 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v56 v56
  have cst_11 : (⟨S_, .f32⟩ : BufTy).Contents (Elt F) := constant (F := F) S_ .f32 0x00000000#32
  have v58 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v57 cst_11
  have cst_12 : (⟨S_, .f32⟩ : BufTy).Contents (Elt F) := constant (F := F) S_ .f32 0x47435000#32
  have v59 : (⟨S256, .f32⟩ : BufTy).Contents (Elt F) := (broadcastInDim S256 ![] bcast_S_S256 : (⟨S_, .f32⟩ : BufTy).Contents (Elt F) → (⟨S256, .f32⟩ : BufTy).Contents (Elt F)) cst_12
  have v60 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v58 v59
  have v61 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v53
  have v62 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v61
  have v63 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v50 v62
  have cst_13 : (⟨S_, .f32⟩ : BufTy).Contents (Elt F) := constant (F := F) S_ .f32 0x3727C5AC#32
  have v64 : (⟨S256, .f32⟩ : BufTy).Contents (Elt F) := (broadcastInDim S256 ![] bcast_S_S256 : (⟨S_, .f32⟩ : BufTy).Contents (Elt F) → (⟨S256, .f32⟩ : BufTy).Contents (Elt F)) cst_13
  have v65 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v60 v64
  have v66 : (⟨S256, .f32⟩ : BufTy).Contents (Elt F) := (Host.rsqrt : (⟨S256, .f32⟩ : BufTy).Contents (Elt F) → (⟨S256, .f32⟩ : BufTy).Contents (Elt F)) v65
  have v67 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v66
  have v68 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v67
  have v69 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v63 v68
  have v70 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg4
  have v71 : (⟨S256, .f32⟩ : BufTy).Contents (Elt F) := shapeCast _ v70 shapeCasts_S1x256_S256
  have v72 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v71
  have v73 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v72
  have v74 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v69 v73
  have v75 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg5
  have v76 : (⟨S256, .f32⟩ : BufTy).Contents (Elt F) := shapeCast _ v75 shapeCasts_S1x256_S256
  have v77 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v76
  have v78 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v77
  have v79 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v74 v78
  have call1_cst : (⟨S_, .f32⟩ : BufTy).Contents (Elt F) := constant (F := F) S_ .f32 0x00000000#32
  have call1_v0 : (⟨S50000x256, .f32⟩ : BufTy).Contents (Elt F) := (broadcastInDim S50000x256 ![] bcast_S_S50000x256) call1_cst
  maximumf v79 call1_v0

/-- The second layer's weight matrix: slab 1 of the [2, 256, 256] weights. -/
def ws1T (arg2 : (⟨S2x256x256, .f32⟩ : BufTy).Contents (Elt F)) :
    (⟨S256x256, .f32⟩ : BufTy).Contents (Elt F) :=
  have v81 : (⟨S1x256x256, .f32⟩ : BufTy).Contents (Elt F) := ((extractStridedSlice S1x256x256 ![1, 0, 0] · slices_S2x256x256_S1x256x256_1_0_0) : (⟨S2x256x256, .f32⟩ : BufTy).Contents (Elt F) → (⟨S1x256x256, .f32⟩ : BufTy).Contents (Elt F)) arg2
  shapeCast _ v81 shapeCasts_S1x256x256_S256x256

/-- The second layer after its dense product: the same steps as the first with rows 1 of the bias, gamma and beta. -/
def layer1T (v83 : (⟨S50000x256, .f32⟩ : BufTy).Contents (Elt F)) (v5 : (⟨S550000, .i32⟩ : BufTy).Contents (Elt F)) (v6 : (⟨S550000, .i32⟩ : BufTy).Contents (Elt F)) (v30 : (⟨S550000x1, .f32⟩ : BufTy).Contents (Elt F)) (arg3 : (⟨S2x256, .f32⟩ : BufTy).Contents (Elt F)) (arg4 : (⟨S2x256, .f32⟩ : BufTy).Contents (Elt F)) (arg5 : (⟨S2x256, .f32⟩ : BufTy).Contents (Elt F)) :
    (⟨S50000x256, .f32⟩ : BufTy).Contents (Elt F) :=
  have c_14 : (⟨S_, .i32⟩ : BufTy).Contents (Elt F) := constantI S_ 32 0#32
  have v84 : (⟨S550000, .i32⟩ : BufTy).Contents (Elt F) := (broadcastInDim S550000 ![] bcast_S_S550000 : (⟨S_, .i32⟩ : BufTy).Contents (Elt F) → (⟨S550000, .i32⟩ : BufTy).Contents (Elt F)) c_14
  have v85 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v84
  have c_15 : (⟨S_, .i32⟩ : BufTy).Contents (Elt F) := constantI S_ 32 50000#32
  have v86 : (⟨S550000, .i32⟩ : BufTy).Contents (Elt F) := (broadcastInDim S550000 ![] bcast_S_S550000 : (⟨S_, .i32⟩ : BufTy).Contents (Elt F) → (⟨S550000, .i32⟩ : BufTy).Contents (Elt F)) c_15
  have v87 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v86
  have v88 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v85 v87 v5
  have v89 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v88
  have v90 : (⟨S550000x256, .f32⟩ : BufTy).Contents (Elt F) := ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)) v83 v89
  have v91 : (⟨S550000x256, .f32⟩ : BufTy).Contents (Elt F) := (broadcastInDim S550000x256 ![0, 1] bcast_S550000x1_S550000x256_0_1 : (⟨S550000x1, .f32⟩ : BufTy).Contents (Elt F) → (⟨S550000x256, .f32⟩ : BufTy).Contents (Elt F)) v30
  have v92 : (⟨S550000x256, .f32⟩ : BufTy).Contents (Elt F) := (mulf : (⟨S550000x256, .f32⟩ : BufTy).Contents (Elt F) → (⟨S550000x256, .f32⟩ : BufTy).Contents (Elt F) → (⟨S550000x256, .f32⟩ : BufTy).Contents (Elt F)) v90 v91
  have cst_16 : (⟨S_, .f32⟩ : BufTy).Contents (Elt F) := constant (F := F) S_ .f32 0x00000000#32
  have v93 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_16
  have v94 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v95 : (⟨S50000x256, .f32⟩ : BufTy).Contents (Elt F) := ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)) v93 v94 v92
  have v96 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg3
  have v97 : (⟨S256, .f32⟩ : BufTy).Contents (Elt F) := shapeCast _ v96 shapeCasts_S1x256_S256
  have v98 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v97
  have v99 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v98
  have v100 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v95 v99
  have cst_17 : (⟨S_, .f32⟩ : BufTy).Contents (Elt F) := constant (F := F) S_ .f32 0x00000000#32
  have v101 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v100 cst_17
  have cst_18 : (⟨S_, .f32⟩ : BufTy).Contents (Elt F) := constant (F := F) S_ .f32 0x47435000#32
  have v102 : (⟨S256, .f32⟩ : BufTy).Contents (Elt F) := (broadcastInDim S256 ![] bcast_S_S256 : (⟨S_, .f32⟩ : BufTy).Contents (Elt F) → (⟨S256, .f32⟩ : BufTy).Contents (Elt F)) cst_18
  have v103 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v101 v102
  have v104 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v103
  have v105 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v104
  have v106 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v100 v105
  have v107 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v106 v106
  have cst_19 : (⟨S_, .f32⟩ : BufTy).Contents (Elt F) := constant (F := F) S_ .f32 0x00000000#32
  have v108 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v107 cst_19
  have cst_20 : (⟨S_, .f32⟩ : BufTy).Contents (Elt F) := constant (F := F) S_ .f32 0x47435000#32
  have v109 : (⟨S256, .f32⟩ : BufTy).Contents (Elt F) := (broadcastInDim S256 ![] bcast_S_S256 : (⟨S_, .f32⟩ : BufTy).Contents (Elt F) → (⟨S256, .f32⟩ : BufTy).Contents (Elt F)) cst_20
  have v110 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v108 v109
  have v111 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v103
  have v112 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v111
  have v113 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v100 v112
  have cst_21 : (⟨S_, .f32⟩ : BufTy).Contents (Elt F) := constant (F := F) S_ .f32 0x3727C5AC#32
  have v114 : (⟨S256, .f32⟩ : BufTy).Contents (Elt F) := (broadcastInDim S256 ![] bcast_S_S256 : (⟨S_, .f32⟩ : BufTy).Contents (Elt F) → (⟨S256, .f32⟩ : BufTy).Contents (Elt F)) cst_21
  have v115 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v110 v114
  have v116 : (⟨S256, .f32⟩ : BufTy).Contents (Elt F) := (Host.rsqrt : (⟨S256, .f32⟩ : BufTy).Contents (Elt F) → (⟨S256, .f32⟩ : BufTy).Contents (Elt F)) v115
  have v117 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v116
  have v118 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v117
  have v119 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v113 v118
  have v120 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg4
  have v121 : (⟨S256, .f32⟩ : BufTy).Contents (Elt F) := shapeCast _ v120 shapeCasts_S1x256_S256
  have v122 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v121
  have v123 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v122
  have v124 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v119 v123
  have v125 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg5
  have v126 : (⟨S256, .f32⟩ : BufTy).Contents (Elt F) := shapeCast _ v125 shapeCasts_S1x256_S256
  have v127 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v126
  have v128 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v127
  have v129 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v124 v128
  have call2_cst : (⟨S_, .f32⟩ : BufTy).Contents (Elt F) := constant (F := F) S_ .f32 0x00000000#32
  have call2_v0 : (⟨S50000x256, .f32⟩ : BufTy).Contents (Elt F) := (broadcastInDim S50000x256 ![] bcast_S_S50000x256) call2_cst
  maximumf v129 call2_v0

/-- The features of every edge's source node (indices wrapped), [500000, 256], after the change of float format. -/
def xsT (v130 : (⟨S50000x256, .f32⟩ : BufTy).Contents (Elt F)) (v1 : (⟨S500000, .i32⟩ : BufTy).Contents (Elt F)) :
    (⟨S500000x256, .bf16⟩ : BufTy).Contents (Elt F) :=
  have v131 : (⟨S50000x256, .bf16⟩ : BufTy).Contents (Elt F) := ((truncf .bf16 · bitsLt_bf16_f32) : (⟨S50000x256, .f32⟩ : BufTy).Contents (Elt F) → (⟨S50000x256, .bf16⟩ : BufTy).Contents (Elt F)) v130
  have c_22 : (⟨S_, .i32⟩ : BufTy).Contents (Elt F) := constantI S_ 32 0#32
  have v132 : (⟨S500000, .i32⟩ : BufTy).Contents (Elt F) := (broadcastInDim S500000 ![] bcast_S_S500000 : (⟨S_, .i32⟩ : BufTy).Contents (Elt F) → (⟨S500000, .i32⟩ : BufTy).Contents (Elt F)) c_22
  have v133 : (⟨S500000, .i1⟩ : BufTy).Contents (Elt F) := (cmpi .slt : (⟨S500000, .i32⟩ : BufTy).Contents (Elt F) → (⟨S500000, .i32⟩ : BufTy).Contents (Elt F) → (⟨S500000, .i1⟩ : BufTy).Contents (Elt F)) v1 v132
  have c_23 : (⟨S_, .i32⟩ : BufTy).Contents (Elt F) := constantI S_ 32 50000#32
  have v134 : (⟨S500000, .i32⟩ : BufTy).Contents (Elt F) := (broadcastInDim S500000 ![] bcast_S_S500000 : (⟨S_, .i32⟩ : BufTy).Contents (Elt F) → (⟨S500000, .i32⟩ : BufTy).Contents (Elt F)) c_23
  have v135 : (⟨S500000, .i32⟩ : BufTy).Contents (Elt F) := (addi : (⟨S500000, .i32⟩ : BufTy).Contents (Elt F) → (⟨S500000, .i32⟩ : BufTy).Contents (Elt F) → (⟨S500000, .i32⟩ : BufTy).Contents (Elt F)) v1 v134
  have v136 : (⟨S500000, .i32⟩ : BufTy).Contents (Elt F) := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) v133 v135 v1
  have v137 : (⟨S500000x1, .i32⟩ : BufTy).Contents (Elt F) := (broadcastInDim S500000x1 ![0] bcast_S500000_S500000x1_0 : (⟨S500000, .i32⟩ : BufTy).Contents (Elt F) → (⟨S500000x1, .i32⟩ : BufTy).Contents (Elt F)) v136
  ((fun x i => Host.gather gather_S50000x256_S500000x1_S500000x256_1_0_n_n_0_1_1256 x i) : (⟨S50000x256, .bf16⟩ : BufTy).Contents (Elt F) → (⟨S500000x1, .i32⟩ : BufTy).Contents (Elt F) → (⟨S500000x256, .bf16⟩ : BufTy).Contents (Elt F)) v131 v137

/-- The features of every edge's target node (indices wrapped), [500000, 256], after the change of float format. -/
def xdT (v130 : (⟨S50000x256, .f32⟩ : BufTy).Contents (Elt F)) (v3 : (⟨S500000, .i32⟩ : BufTy).Contents (Elt F)) :
    (⟨S500000x256, .bf16⟩ : BufTy).Contents (Elt F) :=
  have v131 : (⟨S50000x256, .bf16⟩ : BufTy).Contents (Elt F) := ((truncf .bf16 · bitsLt_bf16_f32) : (⟨S50000x256, .f32⟩ : BufTy).Contents (Elt F) → (⟨S50000x256, .bf16⟩ : BufTy).Contents (Elt F)) v130
  have c_24 : (⟨S_, .i32⟩ : BufTy).Contents (Elt F) := constantI S_ 32 0#32
  have v139 : (⟨S500000, .i32⟩ : BufTy).Contents (Elt F) := (broadcastInDim S500000 ![] bcast_S_S500000 : (⟨S_, .i32⟩ : BufTy).Contents (Elt F) → (⟨S500000, .i32⟩ : BufTy).Contents (Elt F)) c_24
  have v140 : (⟨S500000, .i1⟩ : BufTy).Contents (Elt F) := (cmpi .slt : (⟨S500000, .i32⟩ : BufTy).Contents (Elt F) → (⟨S500000, .i32⟩ : BufTy).Contents (Elt F) → (⟨S500000, .i1⟩ : BufTy).Contents (Elt F)) v3 v139
  have c_25 : (⟨S_, .i32⟩ : BufTy).Contents (Elt F) := constantI S_ 32 50000#32
  have v141 : (⟨S500000, .i32⟩ : BufTy).Contents (Elt F) := (broadcastInDim S500000 ![] bcast_S_S500000 : (⟨S_, .i32⟩ : BufTy).Contents (Elt F) → (⟨S500000, .i32⟩ : BufTy).Contents (Elt F)) c_25
  have v142 : (⟨S500000, .i32⟩ : BufTy).Contents (Elt F) := (addi : (⟨S500000, .i32⟩ : BufTy).Contents (Elt F) → (⟨S500000, .i32⟩ : BufTy).Contents (Elt F) → (⟨S500000, .i32⟩ : BufTy).Contents (Elt F)) v3 v141
  have v143 : (⟨S500000, .i32⟩ : BufTy).Contents (Elt F) := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) v140 v142 v3
  have v144 : (⟨S500000x1, .i32⟩ : BufTy).Contents (Elt F) := (broadcastInDim S500000x1 ![0] bcast_S500000_S500000x1_0 : (⟨S500000, .i32⟩ : BufTy).Contents (Elt F) → (⟨S500000x1, .i32⟩ : BufTy).Contents (Elt F)) v143
  ((fun x i => Host.gather gather_S50000x256_S500000x1_S500000x256_1_0_n_n_0_1_1256 x i) : (⟨S50000x256, .bf16⟩ : BufTy).Contents (Elt F) → (⟨S500000x1, .i32⟩ : BufTy).Contents (Elt F) → (⟨S500000x256, .bf16⟩ : BufTy).Contents (Elt F)) v131 v144

/-- The first 256 rows of the first predictor weight. -/
def w1aT (arg6 : (⟨S512x512, .f32⟩ : BufTy).Contents (Elt F)) :
    (⟨S256x512, .f32⟩ : BufTy).Contents (Elt F) :=
  ((extractStridedSlice S256x512 ![0, 0] · slices_S512x512_S256x512_0_0) : (⟨S512x512, .f32⟩ : BufTy).Contents (Elt F) → (⟨S256x512, .f32⟩ : BufTy).Contents (Elt F)) arg6

/-- The last 256 rows of the first predictor weight. -/
def w1bT (arg6 : (⟨S512x512, .f32⟩ : BufTy).Contents (Elt F)) :
    (⟨S256x512, .f32⟩ : BufTy).Contents (Elt F) :=
  ((extractStridedSlice S256x512 ![256, 0] · slices_S512x512_S256x512_256_0) : (⟨S512x512, .f32⟩ : BufTy).Contents (Elt F) → (⟨S256x512, .f32⟩ : BufTy).Contents (Elt F)) arg6

end Cert.Bridge

end
-- ==== Proof.KStage0.lean ====
/-
  The host operations before the first dense product, read at the buffers later stages use.

  From any buffer contents V, after the stretch every buffer it computes holds the corresponding stage of the edge list
  (the endpoints, the endpoints with self-loops, the normalisation coefficients) or of the weights (slab 0), and every
  argument array is untouched: the stretch writes fresh buffers only.
-/
import proofs.«163565_j59923383714097_2_alg».proof.Proof.Gen.KernelIdeal.Launch
import proofs.«163565_j59923383714097_2_alg».proof.Proof.Stages
import Idealize.ShloMosaic.Lib.StableHlo.Run

set_option maxRecDepth 16384

noncomputable section

namespace Cert.Bridge

open Idealize.ShloMosaic Idealize.ShloMosaic.StableHlo Cert.KernelIdeal Cert.KernelIdeal.Gen

variable {F : FTy → Type} [FloatOps F]

theorem k0_v1 (V : Valuation τ sig (Elt F)) :
    after hostOps0_2 (after hostOps0_1 (after hostOps0 V)) (Proc.devRef .tc main_v1)
      = srcT (V (Proc.devRef .tc main_arg0)) := by
  simp only [hostOps0, hostOps0_1, hostOps0_2]
  after_results_simp <;> rfl
theorem k0_v3 (V : Valuation τ sig (Elt F)) :
    after hostOps0_2 (after hostOps0_1 (after hostOps0 V)) (Proc.devRef .tc main_v3)
      = dstT (V (Proc.devRef .tc main_arg0)) := by
  simp only [hostOps0, hostOps0_1, hostOps0_2]
  after_results_simp <;> rfl
theorem k0_v5 (V : Valuation τ sig (Elt F)) :
    after hostOps0_2 (after hostOps0_1 (after hostOps0 V)) (Proc.devRef .tc main_v5)
      = srcLoopsT (srcT (V (Proc.devRef .tc main_arg0))) := by
  simp only [hostOps0, hostOps0_1, hostOps0_2]
  after_results_simp <;> rfl
theorem k0_v6 (V : Valuation τ sig (Elt F)) :
    after hostOps0_2 (after hostOps0_1 (after hostOps0 V)) (Proc.devRef .tc main_v6)
      = dstLoopsT (dstT (V (Proc.devRef .tc main_arg0))) := by
  simp only [hostOps0, hostOps0_1, hostOps0_2]
  after_results_simp <;> rfl
theorem k0_v30 (V : Valuation τ sig (Elt F)) :
    after hostOps0_2 (after hostOps0_1 (after hostOps0 V)) (Proc.devRef .tc main_v30)
      = coefT (srcLoopsT (srcT (V (Proc.devRef .tc main_arg0)))) (dstLoopsT (dstT (V (Proc.devRef .tc main_arg0)))) := by
  simp only [hostOps0, hostOps0_1, hostOps0_2]
  after_results_simp <;> rfl
theorem k0_v32 (V : Valuation τ sig (Elt F)) :
    after hostOps0_2 (after hostOps0_1 (after hostOps0 V)) (Proc.devRef .tc main_v32)
      = ws0T (V (Proc.devRef .tc main_arg2)) := by
  simp only [hostOps0, hostOps0_1, hostOps0_2]
  after_results_simp <;> rfl
theorem k0_arg1 (V : Valuation τ sig (Elt F)) :
    after hostOps0_2 (after hostOps0_1 (after hostOps0 V)) (Proc.devRef .tc main_arg1)
      = V (Proc.devRef .tc main_arg1) := by
  simp only [hostOps0, hostOps0_1, hostOps0_2]
  after_results_simp <;> rfl
theorem k0_arg2 (V : Valuation τ sig (Elt F)) :
    after hostOps0_2 (after hostOps0_1 (after hostOps0 V)) (Proc.devRef .tc main_arg2)
      = V (Proc.devRef .tc main_arg2) := by
  simp only [hostOps0, hostOps0_1, hostOps0_2]
  after_results_simp <;> rfl
theorem k0_arg3 (V : Valuation τ sig (Elt F)) :
    after hostOps0_2 (after hostOps0_1 (after hostOps0 V)) (Proc.devRef .tc main_arg3)
      = V (Proc.devRef .tc main_arg3) := by
  simp only [hostOps0, hostOps0_1, hostOps0_2]
  after_results_simp <;> rfl
theorem k0_arg4 (V : Valuation τ sig (Elt F)) :
    after hostOps0_2 (after hostOps0_1 (after hostOps0 V)) (Proc.devRef .tc main_arg4)
      = V (Proc.devRef .tc main_arg4) := by
  simp only [hostOps0, hostOps0_1, hostOps0_2]
  after_results_simp <;> rfl
theorem k0_arg5 (V : Valuation τ sig (Elt F)) :
    after hostOps0_2 (after hostOps0_1 (after hostOps0 V)) (Proc.devRef .tc main_arg5)
      = V (Proc.devRef .tc main_arg5) := by
  simp only [hostOps0, hostOps0_1, hostOps0_2]
  after_results_simp <;> rfl
theorem k0_arg6 (V : Valuation τ sig (Elt F)) :
    after hostOps0_2 (after hostOps0_1 (after hostOps0 V)) (Proc.devRef .tc main_arg6)
      = V (Proc.devRef .tc main_arg6) := by
  simp only [hostOps0, hostOps0_1, hostOps0_2]
  after_results_simp <;> rfl
theorem k0_arg7 (V : Valuation τ sig (Elt F)) :
    after hostOps0_2 (after hostOps0_1 (after hostOps0 V)) (Proc.devRef .tc main_arg7)
      = V (Proc.devRef .tc main_arg7) := by
  simp only [hostOps0, hostOps0_1, hostOps0_2]
  after_results_simp <;> rfl
theorem k0_arg8 (V : Valuation τ sig (Elt F)) :
    after hostOps0_2 (after hostOps0_1 (after hostOps0 V)) (Proc.devRef .tc main_arg8)
      = V (Proc.devRef .tc main_arg8) := by
  simp only [hostOps0, hostOps0_1, hostOps0_2]
  after_results_simp <;> rfl
theorem k0_arg9 (V : Valuation τ sig (Elt F)) :
    after hostOps0_2 (after hostOps0_1 (after hostOps0 V)) (Proc.devRef .tc main_arg9)
      = V (Proc.devRef .tc main_arg9) := by
  simp only [hostOps0, hostOps0_1, hostOps0_2]
  after_results_simp <;> rfl
theorem k0_arg10 (V : Valuation τ sig (Elt F)) :
    after hostOps0_2 (after hostOps0_1 (after hostOps0 V)) (Proc.devRef .tc main_arg10)
      = V (Proc.devRef .tc main_arg10) := by
  simp only [hostOps0, hostOps0_1, hostOps0_2]
  after_results_simp <;> rfl
theorem k0_arg11 (V : Valuation τ sig (Elt F)) :
    after hostOps0_2 (after hostOps0_1 (after hostOps0 V)) (Proc.devRef .tc main_arg11)
      = V (Proc.devRef .tc main_arg11) := by
  simp only [hostOps0, hostOps0_1, hostOps0_2]
  after_results_simp <;> rfl
theorem k0_arg12 (V : Valuation τ sig (Elt F)) :
    after hostOps0_2 (after hostOps0_1 (after hostOps0 V)) (Proc.devRef .tc main_arg12)
      = V (Proc.devRef .tc main_arg12) := by
  simp only [hostOps0, hostOps0_1, hostOps0_2]
  after_results_simp <;> rfl
theorem k0_arg13 (V : Valuation τ sig (Elt F)) :
    after hostOps0_2 (after hostOps0_1 (after hostOps0 V)) (Proc.devRef .tc main_arg13)
      = V (Proc.devRef .tc main_arg13) := by
  simp only [hostOps0, hostOps0_1, hostOps0_2]
  after_results_simp <;> rfl

end Cert.Bridge

end
-- ==== Proof.KStage1.lean ====
/-
  The host operations between the two dense products, read at the buffers later stages use.

  From any buffer contents V, after the stretch the layer's output buffer holds the first layer of the first product's
  buffer, the second weight buffer holds slab 1 of the weights, and the edge-list stages and the argument arrays are
  untouched.
-/
import proofs.«163565_j59923383714097_2_alg».proof.Proof.Gen.KernelIdeal.Launch
import proofs.«163565_j59923383714097_2_alg».proof.Proof.Stages
import Idealize.ShloMosaic.Lib.StableHlo.Run

set_option maxRecDepth 16384

noncomputable section

namespace Cert.Bridge

open Idealize.ShloMosaic Idealize.ShloMosaic.StableHlo Cert.KernelIdeal Cert.KernelIdeal.Gen

variable {F : FTy → Type} [FloatOps F]

theorem k1_v80 (V : Valuation τ sig (Elt F)) :
    after hostOps1_2 (after hostOps1_1 (after hostOps1 V)) (Proc.devRef .tc main_v80)
      = layer0T (V (Proc.devRef .tc main_v33)) (V (Proc.devRef .tc main_v5)) (V (Proc.devRef .tc main_v6)) (V (Proc.devRef .tc main_v30)) (V (Proc.devRef .tc main_arg3)) (V (Proc.devRef .tc main_arg4)) (V (Proc.devRef .tc main_arg5)) := by
  simp only [hostOps1, hostOps1_1, hostOps1_2]
  after_results_simp <;> rfl
theorem k1_v82 (V : Valuation τ sig (Elt F)) :
    after hostOps1_2 (after hostOps1_1 (after hostOps1 V)) (Proc.devRef .tc main_v82)
      = ws1T (V (Proc.devRef .tc main_arg2)) := by
  simp only [hostOps1, hostOps1_1, hostOps1_2]
  after_results_simp <;> rfl
theorem k1_v1 (V : Valuation τ sig (Elt F)) :
    after hostOps1_2 (after hostOps1_1 (after hostOps1 V)) (Proc.devRef .tc main_v1)
      = V (Proc.devRef .tc main_v1) := by
  simp only [hostOps1, hostOps1_1, hostOps1_2]
  after_results_simp <;> rfl
theorem k1_v3 (V : Valuation τ sig (Elt F)) :
    after hostOps1_2 (after hostOps1_1 (after hostOps1 V)) (Proc.devRef .tc main_v3)
      = V (Proc.devRef .tc main_v3) := by
  simp only [hostOps1, hostOps1_1, hostOps1_2]
  after_results_simp <;> rfl
theorem k1_v5 (V : Valuation τ sig (Elt F)) :
    after hostOps1_2 (after hostOps1_1 (after hostOps1 V)) (Proc.devRef .tc main_v5)
      = V (Proc.devRef .tc main_v5) := by
  simp only [hostOps1, hostOps1_1, hostOps1_2]
  after_results_simp <;> rfl
theorem k1_v6 (V : Valuation τ sig (Elt F)) :
    after hostOps1_2 (after hostOps1_1 (after hostOps1 V)) (Proc.devRef .tc main_v6)
      = V (Proc.devRef .tc main_v6) := by
  simp only [hostOps1, hostOps1_1, hostOps1_2]
  after_results_simp <;> rfl
theorem k1_v30 (V : Valuation τ sig (Elt F)) :
    after hostOps1_2 (after hostOps1_1 (after hostOps1 V)) (Proc.devRef .tc main_v30)
      = V (Proc.devRef .tc main_v30) := by
  simp only [hostOps1, hostOps1_1, hostOps1_2]
  after_results_simp <;> rfl
theorem k1_arg3 (V : Valuation τ sig (Elt F)) :
    after hostOps1_2 (after hostOps1_1 (after hostOps1 V)) (Proc.devRef .tc main_arg3)
      = V (Proc.devRef .tc main_arg3) := by
  simp only [hostOps1, hostOps1_1, hostOps1_2]
  after_results_simp <;> rfl
theorem k1_arg4 (V : Valuation τ sig (Elt F)) :
    after hostOps1_2 (after hostOps1_1 (after hostOps1 V)) (Proc.devRef .tc main_arg4)
      = V (Proc.devRef .tc main_arg4) := by
  simp only [hostOps1, hostOps1_1, hostOps1_2]
  after_results_simp <;> rfl
theorem k1_arg5 (V : Valuation τ sig (Elt F)) :
    after hostOps1_2 (after hostOps1_1 (after hostOps1 V)) (Proc.devRef .tc main_arg5)
      = V (Proc.devRef .tc main_arg5) := by
  simp only [hostOps1, hostOps1_1, hostOps1_2]
  after_results_simp <;> rfl
theorem k1_arg6 (V : Valuation τ sig (Elt F)) :
    after hostOps1_2 (after hostOps1_1 (after hostOps1 V)) (Proc.devRef .tc main_arg6)
      = V (Proc.devRef .tc main_arg6) := by
  simp only [hostOps1, hostOps1_1, hostOps1_2]
  after_results_simp <;> rfl
theorem k1_arg7 (V : Valuation τ sig (Elt F)) :
    after hostOps1_2 (after hostOps1_1 (after hostOps1 V)) (Proc.devRef .tc main_arg7)
      = V (Proc.devRef .tc main_arg7) := by
  simp only [hostOps1, hostOps1_1, hostOps1_2]
  after_results_simp <;> rfl
theorem k1_arg8 (V : Valuation τ sig (Elt F)) :
    after hostOps1_2 (after hostOps1_1 (after hostOps1 V)) (Proc.devRef .tc main_arg8)
      = V (Proc.devRef .tc main_arg8) := by
  simp only [hostOps1, hostOps1_1, hostOps1_2]
  after_results_simp <;> rfl
theorem k1_arg9 (V : Valuation τ sig (Elt F)) :
    after hostOps1_2 (after hostOps1_1 (after hostOps1 V)) (Proc.devRef .tc main_arg9)
      = V (Proc.devRef .tc main_arg9) := by
  simp only [hostOps1, hostOps1_1, hostOps1_2]
  after_results_simp <;> rfl
theorem k1_arg10 (V : Valuation τ sig (Elt F)) :
    after hostOps1_2 (after hostOps1_1 (after hostOps1 V)) (Proc.devRef .tc main_arg10)
      = V (Proc.devRef .tc main_arg10) := by
  simp only [hostOps1, hostOps1_1, hostOps1_2]
  after_results_simp <;> rfl
theorem k1_arg11 (V : Valuation τ sig (Elt F)) :
    after hostOps1_2 (after hostOps1_1 (after hostOps1 V)) (Proc.devRef .tc main_arg11)
      = V (Proc.devRef .tc main_arg11) := by
  simp only [hostOps1, hostOps1_1, hostOps1_2]
  after_results_simp <;> rfl
theorem k1_arg12 (V : Valuation τ sig (Elt F)) :
    after hostOps1_2 (after hostOps1_1 (after hostOps1 V)) (Proc.devRef .tc main_arg12)
      = V (Proc.devRef .tc main_arg12) := by
  simp only [hostOps1, hostOps1_1, hostOps1_2]
  after_results_simp <;> rfl
theorem k1_arg13 (V : Valuation τ sig (Elt F)) :
    after hostOps1_2 (after hostOps1_1 (after hostOps1 V)) (Proc.devRef .tc main_arg13)
      = V (Proc.devRef .tc main_arg13) := by
  simp only [hostOps1, hostOps1_1, hostOps1_2]
  after_results_simp <;> rfl

end Cert.Bridge

end
-- ==== Proof.KStage2.lean ====
/-
  The host operations between the second dense product and the edge predictor, read at the predictor's operands.

  From any buffer contents V, after the stretch the two endpoint-feature buffers hold the second layer of the second
  product's buffer gathered at the sources and at the targets, the two weight buffers hold the two halves of the first
  predictor weight, and the remaining predictor arguments are untouched.
-/
import proofs.«163565_j59923383714097_2_alg».proof.Proof.Gen.KernelIdeal.Launch
import proofs.«163565_j59923383714097_2_alg».proof.Proof.Stages
import Idealize.ShloMosaic.Lib.StableHlo.Run

set_option maxRecDepth 16384

noncomputable section

namespace Cert.Bridge

open Idealize.ShloMosaic Idealize.ShloMosaic.StableHlo Cert.KernelIdeal Cert.KernelIdeal.Gen

variable {F : FTy → Type} [FloatOps F]

theorem k2_v138 (V : Valuation τ sig (Elt F)) :
    after hostOps2_2 (after hostOps2_1 (after hostOps2 V)) (Proc.devRef .tc main_v138)
      = xsT (layer1T (V (Proc.devRef .tc main_v83)) (V (Proc.devRef .tc main_v5)) (V (Proc.devRef .tc main_v6)) (V (Proc.devRef .tc main_v30)) (V (Proc.devRef .tc main_arg3)) (V (Proc.devRef .tc main_arg4)) (V (Proc.devRef .tc main_arg5))) (V (Proc.devRef .tc main_v1)) := by
  simp only [hostOps2, hostOps2_1, hostOps2_2]
  after_results_simp <;> rfl
theorem k2_v145 (V : Valuation τ sig (Elt F)) :
    after hostOps2_2 (after hostOps2_1 (after hostOps2 V)) (Proc.devRef .tc main_v145)
      = xdT (layer1T (V (Proc.devRef .tc main_v83)) (V (Proc.devRef .tc main_v5)) (V (Proc.devRef .tc main_v6)) (V (Proc.devRef .tc main_v30)) (V (Proc.devRef .tc main_arg3)) (V (Proc.devRef .tc main_arg4)) (V (Proc.devRef .tc main_arg5))) (V (Proc.devRef .tc main_v3)) := by
  simp only [hostOps2, hostOps2_1, hostOps2_2]
  after_results_simp <;> rfl
theorem k2_v146 (V : Valuation τ sig (Elt F)) :
    after hostOps2_2 (after hostOps2_1 (after hostOps2 V)) (Proc.devRef .tc main_v146)
      = w1aT (V (Proc.devRef .tc main_arg6)) := by
  simp only [hostOps2, hostOps2_1, hostOps2_2]
  after_results_simp <;> rfl
theorem k2_v147 (V : Valuation τ sig (Elt F)) :
    after hostOps2_2 (after hostOps2_1 (after hostOps2 V)) (Proc.devRef .tc main_v147)
      = w1bT (V (Proc.devRef .tc main_arg6)) := by
  simp only [hostOps2, hostOps2_1, hostOps2_2]
  after_results_simp <;> rfl
theorem k2_arg7 (V : Valuation τ sig (Elt F)) :
    after hostOps2_2 (after hostOps2_1 (after hostOps2 V)) (Proc.devRef .tc main_arg7)
      = V (Proc.devRef .tc main_arg7) := by
  simp only [hostOps2, hostOps2_1, hostOps2_2]
  after_results_simp <;> rfl
theorem k2_arg8 (V : Valuation τ sig (Elt F)) :
    after hostOps2_2 (after hostOps2_1 (after hostOps2 V)) (Proc.devRef .tc main_arg8)
      = V (Proc.devRef .tc main_arg8) := by
  simp only [hostOps2, hostOps2_1, hostOps2_2]
  after_results_simp <;> rfl
theorem k2_arg9 (V : Valuation τ sig (Elt F)) :
    after hostOps2_2 (after hostOps2_1 (after hostOps2 V)) (Proc.devRef .tc main_arg9)
      = V (Proc.devRef .tc main_arg9) := by
  simp only [hostOps2, hostOps2_1, hostOps2_2]
  after_results_simp <;> rfl
theorem k2_arg10 (V : Valuation τ sig (Elt F)) :
    after hostOps2_2 (after hostOps2_1 (after hostOps2 V)) (Proc.devRef .tc main_arg10)
      = V (Proc.devRef .tc main_arg10) := by
  simp only [hostOps2, hostOps2_1, hostOps2_2]
  after_results_simp <;> rfl
theorem k2_arg11 (V : Valuation τ sig (Elt F)) :
    after hostOps2_2 (after hostOps2_1 (after hostOps2 V)) (Proc.devRef .tc main_arg11)
      = V (Proc.devRef .tc main_arg11) := by
  simp only [hostOps2, hostOps2_1, hostOps2_2]
  after_results_simp <;> rfl
theorem k2_arg12 (V : Valuation τ sig (Elt F)) :
    after hostOps2_2 (after hostOps2_1 (after hostOps2 V)) (Proc.devRef .tc main_arg12)
      = V (Proc.devRef .tc main_arg12) := by
  simp only [hostOps2, hostOps2_1, hostOps2_2]
  after_results_simp <;> rfl
theorem k2_arg13 (V : Valuation τ sig (Elt F)) :
    after hostOps2_2 (after hostOps2_1 (after hostOps2 V)) (Proc.devRef .tc main_arg13)
      = V (Proc.devRef .tc main_arg13) := by
  simp only [hostOps2, hostOps2_1, hostOps2_2]
  after_results_simp <;> rfl

end Cert.Bridge

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«163565_j59923383714097_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.Spec.lean ====
/-
  What the three tiled computations of the program amount to, as whole-array functions on the extended reals.

  * `mmT x w`: the product of a [50000, 256] matrix with a [256, 256] matrix: entry (r, e) is ∑ k, x[r, k] · w[k, e].
    A tile of 5000 consecutive rows of the product depends on the same 5000 rows of x only, so ten tiles computed
    one after the other fill in exactly this function.
  * `mlpRow`: the edge predictor on ONE edge. Its two endpoint feature rows xs, xd ∈ EReal^256 go through
    h₁ = relu (xs·W1a + xd·W1b + b₁), h₂ = relu (h₁·W₂ + b₂), h₃ = relu (h₂·W₃ + b₃), out = h₃·W₄ + b₄,
    with relu the entrywise maximum with 0.
  * `mlpT`: the [500000, 1] column whose row e is `mlpRow` of rows e of the two endpoint matrices.
  Rows, row-times-matrix, bias and relu are the row vocabulary of `Cert.LibDenseRows`.
-/
import Idealize.ShloMosaic.Lib.ValueIdx
import proofs.«163565_j59923383714097_2_alg».proof.Proof.LibDenseRows

noncomputable section

namespace Cert.Bridge

open Idealize.ShloMosaic Idealize.ShloMosaic.ValueIdx Cert.LibDenseRows

/-- The whole [50000, 256] × [256, 256] product: entry (r, e) is ∑ k, x[r, k] · w[k, e]. -/
def mmT (x : (⟨2, ![50000, 256]⟩ : Shape).Idx → EReal) (w : (⟨2, ![256, 256]⟩ : Shape).Idx → EReal) :
    (⟨2, ![50000, 256]⟩ : Shape).Idx → EReal :=
  fun i => ∑ k : Fin 256, x (ix2 (i 0) k) * w (ix2 k (i 1))

theorem mmT_apply (x : (⟨2, ![50000, 256]⟩ : Shape).Idx → EReal) (w : (⟨2, ![256, 256]⟩ : Shape).Idx → EReal)
    (r : Fin 50000) (e : Fin 256) : mmT x w (ix2 r e) = ∑ k : Fin 256, x (ix2 r k) * w (ix2 k e) := rfl

/-- The edge predictor on one edge: from the two endpoint rows to the one output entry. -/
def mlpRow (W1a W1b : Fin 256 → Fin 512 → EReal) (b1 : Fin 512 → EReal) (W2 : Fin 512 → Fin 256 → EReal)
    (b2 : Fin 256 → EReal) (W3 : Fin 256 → Fin 128 → EReal) (b3 : Fin 128 → EReal) (W4 : Fin 128 → Fin 1 → EReal)
    (b4 : Fin 1 → EReal) (xs xd : Fin 256 → EReal) : Fin 1 → EReal :=
  dense W4 b4 (relu (dense W3 b3 (relu (dense W2 b2 (relu (fun j => matvec W1a xs j + matvec W1b xd j + b1 j))))))

/-- The edge predictor on all 500000 edges: row e of the result is `mlpRow` of rows e of xs and xd. -/
def mlpT (xs xd : (⟨2, ![500000, 256]⟩ : Shape).Idx → EReal) (w1a w1b : (⟨2, ![256, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 128]⟩ : Shape).Idx → EReal)
    (b3 : (⟨1, ![128]⟩ : Shape).Idx → EReal) (w4 : (⟨2, ![128, 1]⟩ : Shape).Idx → EReal)
    (b4 : (⟨1, ![1]⟩ : Shape).Idx → EReal) : (⟨2, ![500000, 1]⟩ : Shape).Idx → EReal :=
  fun i => mlpRow (rows w1a) (rows w1b) (vec b1) (rows w2) (vec b2) (rows w3) (vec b3) (rows w4) (vec b4)
    (rows xs (i 0)) (rows xd (i 0)) (i 1)

theorem mlpT_apply (xs xd : (⟨2, ![500000, 256]⟩ : Shape).Idx → EReal) (w1a w1b : (⟨2, ![256, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 128]⟩ : Shape).Idx → EReal)
    (b3 : (⟨1, ![128]⟩ : Shape).Idx → EReal) (w4 : (⟨2, ![128, 1]⟩ : Shape).Idx → EReal)
    (b4 : (⟨1, ![1]⟩ : Shape).Idx → EReal) (r : Fin 500000) (z : Fin 1) :
    mlpT xs xd w1a w1b b1 w2 b2 w3 b3 w4 b4 (ix2 r z)
      = mlpRow (rows w1a) (rows w1b) (vec b1) (rows w2) (vec b2) (rows w3) (vec b3) (rows w4) (vec b4)
          (rows xs r) (rows xd r) z := rfl

end Cert.Bridge

end
-- ==== Proof.RefStages.lean ====
/-
  The reference's host stages as pure functions of the arrays each reads: the same stages, operation by operation, as
  the idealized kernel's program applies around its pipelines (the edge list's endpoint vectors, the self-loops, the
  normalisation coefficients, the weight slabs, a layer after its dense product), and the reference's reading of the
  final node features at both endpoints of every edge — the rows of the [50000, 256] features at the source and at the
  target of every edge, a negative index first wrapped by the number of nodes.
-/
import proofs.«163565_j59923383714097_2_alg».proof.Proof.Gen.ReferenceIdeal

noncomputable section

namespace Cert.Bridge

open Idealize.ShloMosaic Cert.ReferenceIdeal Cert.ReferenceIdeal.Gen

variable {F : FTy → Type} [FloatOps F]

/-- The source endpoint of every edge: row 0 of the edge list, as a flat [500000] vector. -/
def srcRT (arg0 : (⟨S2x500000, .i32⟩ : BufTy).Contents (Elt F)) :
    (⟨S500000, .i32⟩ : BufTy).Contents (Elt F) :=
  have v0 : (⟨S1x500000, .i32⟩ : BufTy).Contents (Elt F) := ((extractStridedSlice S1x500000 ![0, 0] · slices_S2x500000_S1x500000_0_0) : (⟨S2x500000, .i32⟩ : BufTy).Contents (Elt F) → (⟨S1x500000, .i32⟩ : BufTy).Contents (Elt F)) arg0
  shapeCast _ v0 shapeCasts_S1x500000_S500000

/-- The target endpoint of every edge: row 1 of the edge list, as a flat [500000] vector. -/
def dstRT (arg0 : (⟨S2x500000, .i32⟩ : BufTy).Contents (Elt F)) :
    (⟨S500000, .i32⟩ : BufTy).Contents (Elt F) :=
  have v2 : (⟨S1x500000, .i32⟩ : BufTy).Contents (Elt F) := ((extractStridedSlice S1x500000 ![1, 0] · slices_S2x500000_S1x500000_1_0) : (⟨S2x500000, .i32⟩ : BufTy).Contents (Elt F) → (⟨S1x500000, .i32⟩ : BufTy).Contents (Elt F)) arg0
  shapeCast _ v2 shapeCasts_S1x500000_S500000

/-- The sources with one self-loop per node appended: [500000 + 50000]. -/
def srcLoopsRT (v1 : (⟨S500000, .i32⟩ : BufTy).Contents (Elt F)) :
    (⟨S550000, .i32⟩ : BufTy).Contents (Elt F) :=
  have v4 : (⟨S50000, .i32⟩ : BufTy).Contents (Elt F) := iotaInDim S50000 32 0
  ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)) v1 v4

/-- The targets with one self-loop per node appended: [500000 + 50000]. -/
def dstLoopsRT (v3 : (⟨S500000, .i32⟩ : BufTy).Contents (Elt F)) :
    (⟨S550000, .i32⟩ : BufTy).Contents (Elt F) :=
  have v4 : (⟨S50000, .i32⟩ : BufTy).Contents (Elt F) := iotaInDim S50000 32 0
  ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)) v3 v4

/-- The symmetric normalisation coefficient of every edge (self-loops included), as a column [550000, 1]: with deg the number of edges into a node and dis = rsqrt deg where deg > 0 and 0 elsewhere, the coefficient of an edge is dis[source] · dis[target], the source and target read with negative indices wrapped. -/
def coefRT (v5 : (⟨S550000, .i32⟩ : BufTy).Contents (Elt F)) (v6 : (⟨S550000, .i32⟩ : BufTy).Contents (Elt F)) :
    (⟨S550000x1, .f32⟩ : BufTy).Contents (Elt F) :=
  have cst : (⟨S_, .f32⟩ : BufTy).Contents (Elt F) := constant (F := F) S_ .f32 0x3F800000#32
  have v7 : (⟨S550000, .f32⟩ : BufTy).Contents (Elt F) := (broadcastInDim S550000 ![] bcast_S_S550000 : (⟨S_, .f32⟩ : BufTy).Contents (Elt F) → (⟨S550000, .f32⟩ : BufTy).Contents (Elt F)) cst
  have cst_0 : (⟨S_, .f32⟩ : BufTy).Contents (Elt F) := constant (F := F) S_ .f32 0x00000000#32
  have v8 : (⟨S50000, .f32⟩ : BufTy).Contents (Elt F) := (broadcastInDim S50000 ![] bcast_S_S50000 : (⟨S_, .f32⟩ : BufTy).Contents (Elt F) → (⟨S50000, .f32⟩ : BufTy).Contents (Elt F)) cst_0
  have v9 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v10 : (⟨S50000, .f32⟩ : BufTy).Contents (Elt F) := ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)) v8 v9 v7
  have cst_1 : (⟨S_, .f32⟩ : BufTy).Contents (Elt F) := constant (F := F) S_ .f32 0x00000000#32
  have v11 : (⟨S50000, .f32⟩ : BufTy).Contents (Elt F) := (broadcastInDim S50000 ![] bcast_S_S50000 : (⟨S_, .f32⟩ : BufTy).Contents (Elt F) → (⟨S50000, .f32⟩ : BufTy).Contents (Elt F)) cst_1
  have v12 : (⟨S50000, .i1⟩ : BufTy).Contents (Elt F) := (cmpf .ogt : (⟨S50000, .f32⟩ : BufTy).Contents (Elt F) → (⟨S50000, .f32⟩ : BufTy).Contents (Elt F) → (⟨S50000, .i1⟩ : BufTy).Contents (Elt F)) v10 v11
  have v13 : (⟨S50000, .f32⟩ : BufTy).Contents (Elt F) := (Host.rsqrt : (⟨S50000, .f32⟩ : BufTy).Contents (Elt F) → (⟨S50000, .f32⟩ : BufTy).Contents (Elt F)) v10
  have cst_2 : (⟨S_, .f32⟩ : BufTy).Contents (Elt F) := constant (F := F) S_ .f32 0x00000000#32
  have call0_v0 : (⟨S_, .f32⟩ : BufTy).Contents (Elt F) := id cst_2
  have call0_v1 : (⟨S50000, .f32⟩ : BufTy).Contents (Elt F) := (broadcastInDim S50000 ![] bcast_S_S50000) call0_v0
  have v14 : (⟨S50000, .f32⟩ : BufTy).Contents (Elt F) := select v12 v13 call0_v1
  have c : (⟨S_, .i32⟩ : BufTy).Contents (Elt F) := constantI S_ 32 0#32
  have v15 : (⟨S550000, .i32⟩ : BufTy).Contents (Elt F) := (broadcastInDim S550000 ![] bcast_S_S550000 : (⟨S_, .i32⟩ : BufTy).Contents (Elt F) → (⟨S550000, .i32⟩ : BufTy).Contents (Elt F)) c
  have v16 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v15
  have c_3 : (⟨S_, .i32⟩ : BufTy).Contents (Elt F) := constantI S_ 32 50000#32
  have v17 : (⟨S550000, .i32⟩ : BufTy).Contents (Elt F) := (broadcastInDim S550000 ![] bcast_S_S550000 : (⟨S_, .i32⟩ : BufTy).Contents (Elt F) → (⟨S550000, .i32⟩ : BufTy).Contents (Elt F)) c_3
  have v18 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v17
  have v19 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v16 v18 v5
  have v20 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v19
  have v21 : (⟨S550000, .f32⟩ : BufTy).Contents (Elt F) := ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)) v14 v20
  have c_4 : (⟨S_, .i32⟩ : BufTy).Contents (Elt F) := constantI S_ 32 0#32
  have v22 : (⟨S550000, .i32⟩ : BufTy).Contents (Elt F) := (broadcastInDim S550000 ![] bcast_S_S550000 : (⟨S_, .i32⟩ : BufTy).Contents (Elt F) → (⟨S550000, .i32⟩ : BufTy).Contents (Elt F)) c_4
  have v23 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v6 v22
  have c_5 : (⟨S_, .i32⟩ : BufTy).Contents (Elt F) := constantI S_ 32 50000#32
  have v24 : (⟨S550000, .i32⟩ : BufTy).Contents (Elt F) := (broadcastInDim S550000 ![] bcast_S_S550000 : (⟨S_, .i32⟩ : BufTy).Contents (Elt F) → (⟨S550000, .i32⟩ : BufTy).Contents (Elt F)) c_5
  have v25 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v6 v24
  have v26 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v23 v25 v6
  have v27 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v26
  have v28 : (⟨S550000, .f32⟩ : BufTy).Contents (Elt F) := ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)) v14 v27
  have v29 : (⟨S550000, .f32⟩ : BufTy).Contents (Elt F) := (mulf : (⟨S550000, .f32⟩ : BufTy).Contents (Elt F) → (⟨S550000, .f32⟩ : BufTy).Contents (Elt F) → (⟨S550000, .f32⟩ : BufTy).Contents (Elt F)) v21 v28
  (broadcastInDim S550000x1 ![0] bcast_S550000_S550000x1_0 : (⟨S550000, .f32⟩ : BufTy).Contents (Elt F) → (⟨S550000x1, .f32⟩ : BufTy).Contents (Elt F)) v29

/-- The first layer's weight matrix: slab 0 of the [2, 256, 256] weights. -/
def ws0RT (arg2 : (⟨S2x256x256, .f32⟩ : BufTy).Contents (Elt F)) :
    (⟨S256x256, .f32⟩ : BufTy).Contents (Elt F) :=
  have v31 : (⟨S1x256x256, .f32⟩ : BufTy).Contents (Elt F) := ((extractStridedSlice S1x256x256 ![0, 0, 0] · slices_S2x256x256_S1x256x256_0_0_0) : (⟨S2x256x256, .f32⟩ : BufTy).Contents (Elt F) → (⟨S1x256x256, .f32⟩ : BufTy).Contents (Elt F)) arg2
  shapeCast _ v31 shapeCasts_S1x256x256_S256x256

/-- The first layer after its dense product xw: gather xw at the (wrapped) sources, scale by the coefficients, sum into the targets, add the bias row 0, normalise every column over the 50000 nodes (mean, then variance as the mean of squared deviations, times rsqrt (var + eps)), scale and shift by rows 0 of gamma and beta, and take the maximum with 0. -/
def layer0RT (v33 : (⟨S50000x256, .f32⟩ : BufTy).Contents (Elt F)) (v5 : (⟨S550000, .i32⟩ : BufTy).Contents (Elt F)) (v6 : (⟨S550000, .i32⟩ : BufTy).Contents (Elt F)) (v30 : (⟨S550000x1, .f32⟩ : BufTy).Contents (Elt F)) (arg3 : (⟨S2x256, .f32⟩ : BufTy).Contents (Elt F)) (arg4 : (⟨S2x256, .f32⟩ : BufTy).Contents (Elt F)) (arg5 : (⟨S2x256, .f32⟩ : BufTy).Contents (Elt F)) :
    (⟨S50000x256, .f32⟩ : BufTy).Contents (Elt F) :=
  have c_6 : (⟨S_, .i32⟩ : BufTy).Contents (Elt F) := constantI S_ 32 0#32
  have v34 : (⟨S550000, .i32⟩ : BufTy).Contents (Elt F) := (broadcastInDim S550000 ![] bcast_S_S550000 : (⟨S_, .i32⟩ : BufTy).Contents (Elt F) → (⟨S550000, .i32⟩ : BufTy).Contents (Elt F)) c_6
  have v35 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v34
  have c_7 : (⟨S_, .i32⟩ : BufTy).Contents (Elt F) := constantI S_ 32 50000#32
  have v36 : (⟨S550000, .i32⟩ : BufTy).Contents (Elt F) := (broadcastInDim S550000 ![] bcast_S_S550000 : (⟨S_, .i32⟩ : BufTy).Contents (Elt F) → (⟨S550000, .i32⟩ : BufTy).Contents (Elt F)) c_7
  have v37 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v36
  have v38 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v35 v37 v5
  have v39 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v38
  have v40 : (⟨S550000x256, .f32⟩ : BufTy).Contents (Elt F) := ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)) v33 v39
  have v41 : (⟨S550000x256, .f32⟩ : BufTy).Contents (Elt F) := (broadcastInDim S550000x256 ![0, 1] bcast_S550000x1_S550000x256_0_1 : (⟨S550000x1, .f32⟩ : BufTy).Contents (Elt F) → (⟨S550000x256, .f32⟩ : BufTy).Contents (Elt F)) v30
  have v42 : (⟨S550000x256, .f32⟩ : BufTy).Contents (Elt F) := (mulf : (⟨S550000x256, .f32⟩ : BufTy).Contents (Elt F) → (⟨S550000x256, .f32⟩ : BufTy).Contents (Elt F) → (⟨S550000x256, .f32⟩ : BufTy).Contents (Elt F)) v40 v41
  have cst_8 : (⟨S_, .f32⟩ : BufTy).Contents (Elt F) := constant (F := F) S_ .f32 0x00000000#32
  have v43 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_8
  have v44 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v45 : (⟨S50000x256, .f32⟩ : BufTy).Contents (Elt F) := ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)) v43 v44 v42
  have v46 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg3
  have v47 : (⟨S256, .f32⟩ : BufTy).Contents (Elt F) := shapeCast _ v46 shapeCasts_S1x256_S256
  have v48 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v47
  have v49 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v48
  have v50 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v45 v49
  have cst_9 : (⟨S_, .f32⟩ : BufTy).Contents (Elt F) := constant (F := F) S_ .f32 0x00000000#32
  have v51 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v50 cst_9
  have cst_10 : (⟨S_, .f32⟩ : BufTy).Contents (Elt F) := constant (F := F) S_ .f32 0x47435000#32
  have v52 : (⟨S256, .f32⟩ : BufTy).Contents (Elt F) := (broadcastInDim S256 ![] bcast_S_S256 : (⟨S_, .f32⟩ : BufTy).Contents (Elt F) → (⟨S256, .f32⟩ : BufTy).Contents (Elt F)) cst_10
  have v53 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v51 v52
  have v54 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v53
  have v55 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v54
  have v56 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v50 v55
  have v57 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v56 v56
  have cst_11 : (⟨S_, .f32⟩ : BufTy).Contents (Elt F) := constant (F := F) S_ .f32 0x00000000#32
  have v58 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v57 cst_11
  have cst_12 : (⟨S_, .f32⟩ : BufTy).Contents (Elt F) := constant (F := F) S_ .f32 0x47435000#32
  have v59 : (⟨S256, .f32⟩ : BufTy).Contents (Elt F) := (broadcastInDim S256 ![] bcast_S_S256 : (⟨S_, .f32⟩ : BufTy).Contents (Elt F) → (⟨S256, .f32⟩ : BufTy).Contents (Elt F)) cst_12
  have v60 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v58 v59
  have v61 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v53
  have v62 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v61
  have v63 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v50 v62
  have cst_13 : (⟨S_, .f32⟩ : BufTy).Contents (Elt F) := constant (F := F) S_ .f32 0x3727C5AC#32
  have v64 : (⟨S256, .f32⟩ : BufTy).Contents (Elt F) := (broadcastInDim S256 ![] bcast_S_S256 : (⟨S_, .f32⟩ : BufTy).Contents (Elt F) → (⟨S256, .f32⟩ : BufTy).Contents (Elt F)) cst_13
  have v65 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v60 v64
  have v66 : (⟨S256, .f32⟩ : BufTy).Contents (Elt F) := (Host.rsqrt : (⟨S256, .f32⟩ : BufTy).Contents (Elt F) → (⟨S256, .f32⟩ : BufTy).Contents (Elt F)) v65
  have v67 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v66
  have v68 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v67
  have v69 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v63 v68
  have v70 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg4
  have v71 : (⟨S256, .f32⟩ : BufTy).Contents (Elt F) := shapeCast _ v70 shapeCasts_S1x256_S256
  have v72 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v71
  have v73 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v72
  have v74 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v69 v73
  have v75 : (⟨S1x256, .f32⟩ : BufTy).Contents (Elt F) := ((extractStridedSlice S1x256 ![0, 0] · slices_S2x256_S1x256_0_0) : (⟨S2x256, .f32⟩ : BufTy).Contents (Elt F) → (⟨S1x256, .f32⟩ : BufTy).Contents (Elt F)) arg5
  have v76 : (⟨S256, .f32⟩ : BufTy).Contents (Elt F) := shapeCast _ v75 shapeCasts_S1x256_S256
  have v77 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v76
  have v78 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v77
  have v79 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v74 v78
  have call1_cst : (⟨S_, .f32⟩ : BufTy).Contents (Elt F) := constant (F := F) S_ .f32 0x00000000#32
  have call1_v0 : (⟨S50000x256, .f32⟩ : BufTy).Contents (Elt F) := (broadcastInDim S50000x256 ![] bcast_S_S50000x256) call1_cst
  maximumf v79 call1_v0

/-- The second layer's weight matrix: slab 1 of the [2, 256, 256] weights. -/
def ws1RT (arg2 : (⟨S2x256x256, .f32⟩ : BufTy).Contents (Elt F)) :
    (⟨S256x256, .f32⟩ : BufTy).Contents (Elt F) :=
  have v81 : (⟨S1x256x256, .f32⟩ : BufTy).Contents (Elt F) := ((extractStridedSlice S1x256x256 ![1, 0, 0] · slices_S2x256x256_S1x256x256_1_0_0) : (⟨S2x256x256, .f32⟩ : BufTy).Contents (Elt F) → (⟨S1x256x256, .f32⟩ : BufTy).Contents (Elt F)) arg2
  shapeCast _ v81 shapeCasts_S1x256x256_S256x256

/-- The second layer after its dense product: the same steps as the first with rows 1 of the bias, gamma and beta. -/
def layer1RT (v83 : (⟨S50000x256, .f32⟩ : BufTy).Contents (Elt F)) (v5 : (⟨S550000, .i32⟩ : BufTy).Contents (Elt F)) (v6 : (⟨S550000, .i32⟩ : BufTy).Contents (Elt F)) (v30 : (⟨S550000x1, .f32⟩ : BufTy).Contents (Elt F)) (arg3 : (⟨S2x256, .f32⟩ : BufTy).Contents (Elt F)) (arg4 : (⟨S2x256, .f32⟩ : BufTy).Contents (Elt F)) (arg5 : (⟨S2x256, .f32⟩ : BufTy).Contents (Elt F)) :
    (⟨S50000x256, .f32⟩ : BufTy).Contents (Elt F) :=
  have c_14 : (⟨S_, .i32⟩ : BufTy).Contents (Elt F) := constantI S_ 32 0#32
  have v84 : (⟨S550000, .i32⟩ : BufTy).Contents (Elt F) := (broadcastInDim S550000 ![] bcast_S_S550000 : (⟨S_, .i32⟩ : BufTy).Contents (Elt F) → (⟨S550000, .i32⟩ : BufTy).Contents (Elt F)) c_14
  have v85 : (⟨S550000, .i1⟩ : BufTy).Contents (Elt F) := (cmpi .slt : (⟨S550000, .i32⟩ : BufTy).Contents (Elt F) → (⟨S550000, .i32⟩ : BufTy).Contents (Elt F) → (⟨S550000, .i1⟩ : BufTy).Contents (Elt F)) v5 v84
  have c_15 : (⟨S_, .i32⟩ : BufTy).Contents (Elt F) := constantI S_ 32 50000#32
  have v86 : (⟨S550000, .i32⟩ : BufTy).Contents (Elt F) := (broadcastInDim S550000 ![] bcast_S_S550000 : (⟨S_, .i32⟩ : BufTy).Contents (Elt F) → (⟨S550000, .i32⟩ : BufTy).Contents (Elt F)) c_15
  have v87 : (⟨S550000, .i32⟩ : BufTy).Contents (Elt F) := (addi : (⟨S550000, .i32⟩ : BufTy).Contents (Elt F) → (⟨S550000, .i32⟩ : BufTy).Contents (Elt F) → (⟨S550000, .i32⟩ : BufTy).Contents (Elt F)) v5 v86
  have v88 : (⟨S550000, .i32⟩ : BufTy).Contents (Elt F) := (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)) v85 v87 v5
  have v89 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v88
  have v90 : (⟨S550000x256, .f32⟩ : BufTy).Contents (Elt F) := ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)) v83 v89
  have v91 : (⟨S550000x256, .f32⟩ : BufTy).Contents (Elt F) := (broadcastInDim S550000x256 ![0, 1] bcast_S550000x1_S550000x256_0_1 : (⟨S550000x1, .f32⟩ : BufTy).Contents (Elt F) → (⟨S550000x256, .f32⟩ : BufTy).Contents (Elt F)) v30
  have v92 : (⟨S550000x256, .f32⟩ : BufTy).Contents (Elt F) := (mulf : (⟨S550000x256, .f32⟩ : BufTy).Contents (Elt F) → (⟨S550000x256, .f32⟩ : BufTy).Contents (Elt F) → (⟨S550000x256, .f32⟩ : BufTy).Contents (Elt F)) v90 v91
  have cst_16 : (⟨S_, .f32⟩ : BufTy).Contents (Elt F) := constant (F := F) S_ .f32 0x00000000#32
  have v93 : (⟨S50000x256, .f32⟩ : BufTy).Contents (Elt F) := (broadcastInDim S50000x256 ![] bcast_S_S50000x256 : (⟨S_, .f32⟩ : BufTy).Contents (Elt F) → (⟨S50000x256, .f32⟩ : BufTy).Contents (Elt F)) cst_16
  have v94 : (⟨S550000x1, .i32⟩ : BufTy).Contents (Elt F) := (broadcastInDim S550000x1 ![0] bcast_S550000_S550000x1_0 : (⟨S550000, .i32⟩ : BufTy).Contents (Elt F) → (⟨S550000x1, .i32⟩ : BufTy).Contents (Elt F)) v6
  have v95 : (⟨S50000x256, .f32⟩ : BufTy).Contents (Elt F) := ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)) v93 v94 v92
  have v96 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg3
  have v97 : (⟨S256, .f32⟩ : BufTy).Contents (Elt F) := shapeCast _ v96 shapeCasts_S1x256_S256
  have v98 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v97
  have v99 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v98
  have v100 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v95 v99
  have cst_17 : (⟨S_, .f32⟩ : BufTy).Contents (Elt F) := constant (F := F) S_ .f32 0x00000000#32
  have v101 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v100 cst_17
  have cst_18 : (⟨S_, .f32⟩ : BufTy).Contents (Elt F) := constant (F := F) S_ .f32 0x47435000#32
  have v102 : (⟨S256, .f32⟩ : BufTy).Contents (Elt F) := (broadcastInDim S256 ![] bcast_S_S256 : (⟨S_, .f32⟩ : BufTy).Contents (Elt F) → (⟨S256, .f32⟩ : BufTy).Contents (Elt F)) cst_18
  have v103 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v101 v102
  have v104 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v103
  have v105 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v104
  have v106 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v100 v105
  have v107 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v106 v106
  have cst_19 : (⟨S_, .f32⟩ : BufTy).Contents (Elt F) := constant (F := F) S_ .f32 0x00000000#32
  have v108 : (⟨S256, .f32⟩ : BufTy).Contents (Elt F) := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) v107 cst_19
  have cst_20 : (⟨S_, .f32⟩ : BufTy).Contents (Elt F) := constant (F := F) S_ .f32 0x47435000#32
  have v109 : (⟨S256, .f32⟩ : BufTy).Contents (Elt F) := (broadcastInDim S256 ![] bcast_S_S256 : (⟨S_, .f32⟩ : BufTy).Contents (Elt F) → (⟨S256, .f32⟩ : BufTy).Contents (Elt F)) cst_20
  have v110 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) v108 v109
  have v111 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v103
  have v112 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v111
  have v113 : (⟨S50000x256, .f32⟩ : BufTy).Contents (Elt F) := (subf : (⟨S50000x256, .f32⟩ : BufTy).Contents (Elt F) → (⟨S50000x256, .f32⟩ : BufTy).Contents (Elt F) → (⟨S50000x256, .f32⟩ : BufTy).Contents (Elt F)) v100 v112
  have cst_21 : (⟨S_, .f32⟩ : BufTy).Contents (Elt F) := constant (F := F) S_ .f32 0x3727C5AC#32
  have v114 : (⟨S256, .f32⟩ : BufTy).Contents (Elt F) := (broadcastInDim S256 ![] bcast_S_S256 : (⟨S_, .f32⟩ : BufTy).Contents (Elt F) → (⟨S256, .f32⟩ : BufTy).Contents (Elt F)) cst_21
  have v115 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) v110 v114
  have v116 : (⟨S256, .f32⟩ : BufTy).Contents (Elt F) := (Host.rsqrt : (⟨S256, .f32⟩ : BufTy).Contents (Elt F) → (⟨S256, .f32⟩ : BufTy).Contents (Elt F)) v115
  have v117 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v116
  have v118 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v117
  have v119 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v113 v118
  have v120 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg4
  have v121 : (⟨S256, .f32⟩ : BufTy).Contents (Elt F) := shapeCast _ v120 shapeCasts_S1x256_S256
  have v122 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v121
  have v123 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v122
  have v124 : (⟨S50000x256, .f32⟩ : BufTy).Contents (Elt F) := (mulf : (⟨S50000x256, .f32⟩ : BufTy).Contents (Elt F) → (⟨S50000x256, .f32⟩ : BufTy).Contents (Elt F) → (⟨S50000x256, .f32⟩ : BufTy).Contents (Elt F)) v119 v123
  have v125 : (⟨S1x256, .f32⟩ : BufTy).Contents (Elt F) := ((extractStridedSlice S1x256 ![1, 0] · slices_S2x256_S1x256_1_0) : (⟨S2x256, .f32⟩ : BufTy).Contents (Elt F) → (⟨S1x256, .f32⟩ : BufTy).Contents (Elt F)) arg5
  have v126 : (⟨S256, .f32⟩ : BufTy).Contents (Elt F) := shapeCast _ v125 shapeCasts_S1x256_S256
  have v127 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) v126
  have v128 : (⟨S50000x256, .f32⟩ : BufTy).Contents (Elt F) := (broadcastInDim S50000x256 ![0, 1] bcast_S1x256_S50000x256_0_1 : (⟨S1x256, .f32⟩ : BufTy).Contents (Elt F) → (⟨S50000x256, .f32⟩ : BufTy).Contents (Elt F)) v127
  have v129 : (⟨S50000x256, .f32⟩ : BufTy).Contents (Elt F) := (addf : (⟨S50000x256, .f32⟩ : BufTy).Contents (Elt F) → (⟨S50000x256, .f32⟩ : BufTy).Contents (Elt F) → (⟨S50000x256, .f32⟩ : BufTy).Contents (Elt F)) v124 v128
  have call2_cst : (⟨S_, .f32⟩ : BufTy).Contents (Elt F) := constant (F := F) S_ .f32 0x00000000#32
  have call2_v0 : (⟨S50000x256, .f32⟩ : BufTy).Contents (Elt F) := (broadcastInDim S50000x256 ![] bcast_S_S50000x256) call2_cst
  maximumf v129 call2_v0

/-- The features of every edge's source node (indices wrapped), [500000, 256]. -/
def xsRT (v130 : (⟨S50000x256, .f32⟩ : BufTy).Contents (Elt F)) (v1 : (⟨S500000, .i32⟩ : BufTy).Contents (Elt F)) :
    (⟨S500000x256, .f32⟩ : BufTy).Contents (Elt F) :=
  have c_22 : (⟨S_, .i32⟩ : BufTy).Contents (Elt F) := constantI S_ 32 0#32
  have v131 : (⟨S500000, .i32⟩ : BufTy).Contents (Elt F) := (broadcastInDim S500000 ![] bcast_S_S500000 : (⟨S_, .i32⟩ : BufTy).Contents (Elt F) → (⟨S500000, .i32⟩ : BufTy).Contents (Elt F)) c_22
  have v132 : (⟨S500000, .i1⟩ : BufTy).Contents (Elt F) := (cmpi .slt : (⟨S500000, .i32⟩ : BufTy).Contents (Elt F) → (⟨S500000, .i32⟩ : BufTy).Contents (Elt F) → (⟨S500000, .i1⟩ : BufTy).Contents (Elt F)) v1 v131
  have c_23 : (⟨S_, .i32⟩ : BufTy).Contents (Elt F) := constantI S_ 32 50000#32
  have v133 : (⟨S500000, .i32⟩ : BufTy).Contents (Elt F) := (broadcastInDim S500000 ![] bcast_S_S500000 : (⟨S_, .i32⟩ : BufTy).Contents (Elt F) → (⟨S500000, .i32⟩ : BufTy).Contents (Elt F)) c_23
  have v134 : (⟨S500000, .i32⟩ : BufTy).Contents (Elt F) := (addi : (⟨S500000, .i32⟩ : BufTy).Contents (Elt F) → (⟨S500000, .i32⟩ : BufTy).Contents (Elt F) → (⟨S500000, .i32⟩ : BufTy).Contents (Elt F)) v1 v133
  have v135 : (⟨S500000, .i32⟩ : BufTy).Contents (Elt F) := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) v132 v134 v1
  have v136 : (⟨S500000x1, .i32⟩ : BufTy).Contents (Elt F) := (broadcastInDim S500000x1 ![0] bcast_S500000_S500000x1_0 : (⟨S500000, .i32⟩ : BufTy).Contents (Elt F) → (⟨S500000x1, .i32⟩ : BufTy).Contents (Elt F)) v135
  ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)) v130 v136

/-- The features of every edge's target node (indices wrapped), [500000, 256]. -/
def xdRT (v130 : (⟨S50000x256, .f32⟩ : BufTy).Contents (Elt F)) (v3 : (⟨S500000, .i32⟩ : BufTy).Contents (Elt F)) :
    (⟨S500000x256, .f32⟩ : BufTy).Contents (Elt F) :=
  have c_24 : (⟨S_, .i32⟩ : BufTy).Contents (Elt F) := constantI S_ 32 0#32
  have v138 : (⟨S500000, .i32⟩ : BufTy).Contents (Elt F) := (broadcastInDim S500000 ![] bcast_S_S500000 : (⟨S_, .i32⟩ : BufTy).Contents (Elt F) → (⟨S500000, .i32⟩ : BufTy).Contents (Elt F)) c_24
  have v139 : (⟨S500000, .i1⟩ : BufTy).Contents (Elt F) := (cmpi .slt : (⟨S500000, .i32⟩ : BufTy).Contents (Elt F) → (⟨S500000, .i32⟩ : BufTy).Contents (Elt F) → (⟨S500000, .i1⟩ : BufTy).Contents (Elt F)) v3 v138
  have c_25 : (⟨S_, .i32⟩ : BufTy).Contents (Elt F) := constantI S_ 32 50000#32
  have v140 : (⟨S500000, .i32⟩ : BufTy).Contents (Elt F) := (broadcastInDim S500000 ![] bcast_S_S500000 : (⟨S_, .i32⟩ : BufTy).Contents (Elt F) → (⟨S500000, .i32⟩ : BufTy).Contents (Elt F)) c_25
  have v141 : (⟨S500000, .i32⟩ : BufTy).Contents (Elt F) := (addi : (⟨S500000, .i32⟩ : BufTy).Contents (Elt F) → (⟨S500000, .i32⟩ : BufTy).Contents (Elt F) → (⟨S500000, .i32⟩ : BufTy).Contents (Elt F)) v3 v140
  have v142 : (⟨S500000, .i32⟩ : BufTy).Contents (Elt F) := (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) v139 v141 v3
  have v143 : (⟨S500000x1, .i32⟩ : BufTy).Contents (Elt F) := (broadcastInDim S500000x1 ![0] bcast_S500000_S500000x1_0 : (⟨S500000, .i32⟩ : BufTy).Contents (Elt F) → (⟨S500000x1, .i32⟩ : BufTy).Contents (Elt F)) v142
  ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)) v130 v143

end Cert.Bridge

end
-- ==== Proof.RefTail.lean ====
/-
  The reference's edge predictor as one term: its last twenty host operations, from the concatenation of the two
  endpoint feature matrices [500000, 256] | [500000, 256] into one [500000, 512] matrix, through three dense layers
  each followed by the entrywise maximum with zero, to the last dense layer that leaves one number per edge.
  Every dense layer is a plain matrix product plus a bias vector broadcast first to one row and then over all rows.
-/
import proofs.«163565_j59923383714097_2_alg».proof.Proof.Gen.ReferenceIdeal
import Idealize.ShloMosaic.PureOps.Ideal

noncomputable section

namespace Cert.Bridge

open Idealize.ShloMosaic Cert.ReferenceIdeal Cert.ReferenceIdeal.Gen

/-- The reference's edge predictor on the two gathered endpoint matrices and the four layers' weights and biases. -/
def refTail (xs xd : FVec Ideal S500000x256 .f32) (W1 : FVec Ideal S512x512 .f32) (b1 : FVec Ideal S512 .f32) (W2 : FVec Ideal S512x256 .f32) (b2 : FVec Ideal S256 .f32) (W3 : FVec Ideal S256x128 .f32) (b3 : FVec Ideal S128 .f32) (W4 : FVec Ideal S128x1 .f32) (b4 : FVec Ideal S1 .f32) : FVec Ideal S500000x1 .f32 :=
  have v145 : FVec Ideal S500000x512 .f32 := concatenate S500000x512 1 [⟨S500000x256, xs⟩, ⟨S500000x256, xd⟩] concatenates_S500000x256_S500000x256_S500000x512_d1
  have v146 : FVec Ideal S500000x512 .f32 := Host.dotGeneral (F := Ideal) dot_S500000x512_S512x512_S500000x512_1_0_0_1_n_n none v145 W1
  have v149 : FVec Ideal S500000x512 .f32 := addf v146 (broadcastInDim S500000x512 ![0, 1] bcast_S1x512_S500000x512_0_1 (broadcastInDim S1x512 ![1] bcast_S512_S1x512_1 b1))
  have v150 : FVec Ideal S500000x512 .f32 := maximumf v149 (broadcastInDim S500000x512 ![] bcast_S_S500000x512 (constant (F := Ideal) S_ .f32 0x00000000#32))
  have v151 : FVec Ideal S500000x256 .f32 := Host.dotGeneral (F := Ideal) dot_S500000x512_S512x256_S500000x256_1_0_0_1_n_n none v150 W2
  have v154 : FVec Ideal S500000x256 .f32 := addf v151 (broadcastInDim S500000x256 ![0, 1] bcast_S1x256_S500000x256_0_1 (broadcastInDim S1x256 ![1] bcast_S256_S1x256_1 b2))
  have v155 : FVec Ideal S500000x256 .f32 := maximumf v154 (broadcastInDim S500000x256 ![] bcast_S_S500000x256 (constant (F := Ideal) S_ .f32 0x00000000#32))
  have v156 : FVec Ideal S500000x128 .f32 := Host.dotGeneral (F := Ideal) dot_S500000x256_S256x128_S500000x128_1_0_0_1_n_n none v155 W3
  have v159 : FVec Ideal S500000x128 .f32 := addf v156 (broadcastInDim S500000x128 ![0, 1] bcast_S1x128_S500000x128_0_1 (broadcastInDim S1x128 ![1] bcast_S128_S1x128_1 b3))
  have v160 : FVec Ideal S500000x128 .f32 := maximumf v159 (broadcastInDim S500000x128 ![] bcast_S_S500000x128 (constant (F := Ideal) S_ .f32 0x00000000#32))
  have v161 : FVec Ideal S500000x1 .f32 := Host.dotGeneral (F := Ideal) dot_S500000x128_S128x1_S500000x1_1_0_0_1_n_n none v160 W4
  addf v161 (broadcastInDim S500000x1 ![0, 1] bcast_S1x1_S500000x1_0_1 (broadcastInDim S1x1 ![1] bcast_S1_S1x1_1 b4))

end Cert.Bridge

end
-- ==== Proof.Compose.lean ====
/-
  The two programs' results as compositions of the stages.

  The node features after two layers, for a given dense product `mm`: the first layer of mm (features, slab 0), then
  the second layer of mm (that, slab 1), both layers over the same edge-list stages. The idealized kernel's result is
  the edge predictor `mlpT` on these features gathered at the sources and at the targets, with the first predictor
  weight cut into its two halves; the reference's result is its own edge predictor on the same two gathers set side
  by side, with the first weight whole. The kernel's dense product is `mmT`, the reference's the host product.
-/
import proofs.«163565_j59923383714097_2_alg».proof.Proof.Spec
import proofs.«163565_j59923383714097_2_alg».proof.Proof.Stages
import proofs.«163565_j59923383714097_2_alg».proof.Proof.RefStages
import proofs.«163565_j59923383714097_2_alg».proof.Proof.RefTail

noncomputable section

namespace Cert.Bridge

open Idealize.ShloMosaic Cert.KernelIdeal Cert.KernelIdeal.Gen

/-- The reference's dense product: the host's contraction of a [50000, 256] matrix with a [256, 256] matrix. -/
def hostProd (x : FVec Ideal Cert.ReferenceIdeal.S50000x256 .f32) (w : FVec Ideal Cert.ReferenceIdeal.S256x256 .f32) :
    FVec Ideal Cert.ReferenceIdeal.S50000x256 .f32 :=
  Host.dotGeneral (F := Ideal) Cert.ReferenceIdeal.dot_S50000x256_S256x256_S50000x256_1_0_0_1_n_n none x w

/-- The node features after the two layers, over a dense product `mm`. -/
def nodeFeat (mm : (⟨S50000x256, .f32⟩ : BufTy).Contents (Elt Ideal) → (⟨S256x256, .f32⟩ : BufTy).Contents (Elt Ideal) → (⟨S50000x256, .f32⟩ : BufTy).Contents (Elt Ideal)) (a0 : (⟨S2x500000, .i32⟩ : BufTy).Contents (Elt Ideal)) (a1 : (⟨S50000x256, .f32⟩ : BufTy).Contents (Elt Ideal)) (a2 : (⟨S2x256x256, .f32⟩ : BufTy).Contents (Elt Ideal)) (a3 : (⟨S2x256, .f32⟩ : BufTy).Contents (Elt Ideal)) (a4 : (⟨S2x256, .f32⟩ : BufTy).Contents (Elt Ideal)) (a5 : (⟨S2x256, .f32⟩ : BufTy).Contents (Elt Ideal)) :
    (⟨S50000x256, .f32⟩ : BufTy).Contents (Elt Ideal) :=
  layer1T (F := Ideal)
    (mm (layer0T (F := Ideal) (mm a1 (ws0T (F := Ideal) a2)) (srcLoopsT (F := Ideal) (srcT (F := Ideal) a0)) (dstLoopsT (F := Ideal) (dstT (F := Ideal) a0))
          (coefT (F := Ideal) (srcLoopsT (F := Ideal) (srcT (F := Ideal) a0)) (dstLoopsT (F := Ideal) (dstT (F := Ideal) a0))) a3 a4 a5)
      (ws1T (F := Ideal) a2))
    (srcLoopsT (F := Ideal) (srcT (F := Ideal) a0)) (dstLoopsT (F := Ideal) (dstT (F := Ideal) a0))
    (coefT (F := Ideal) (srcLoopsT (F := Ideal) (srcT (F := Ideal) a0)) (dstLoopsT (F := Ideal) (dstT (F := Ideal) a0))) a3 a4 a5

/-- The idealized kernel's result array as a function of the fourteen argument arrays. -/
def resultK (a0 : (⟨S2x500000, .i32⟩ : BufTy).Contents (Elt Ideal)) (a1 : (⟨S50000x256, .f32⟩ : BufTy).Contents (Elt Ideal)) (a2 : (⟨S2x256x256, .f32⟩ : BufTy).Contents (Elt Ideal)) (a3 : (⟨S2x256, .f32⟩ : BufTy).Contents (Elt Ideal)) (a4 : (⟨S2x256, .f32⟩ : BufTy).Contents (Elt Ideal)) (a5 : (⟨S2x256, .f32⟩ : BufTy).Contents (Elt Ideal)) (a6 : (⟨S512x512, .f32⟩ : BufTy).Contents (Elt Ideal)) (a7 : (⟨S512, .f32⟩ : BufTy).Contents (Elt Ideal)) (a8 : (⟨S512x256, .f32⟩ : BufTy).Contents (Elt Ideal)) (a9 : (⟨S256, .f32⟩ : BufTy).Contents (Elt Ideal)) (a10 : (⟨S256x128, .f32⟩ : BufTy).Contents (Elt Ideal)) (a11 : (⟨S128, .f32⟩ : BufTy).Contents (Elt Ideal)) (a12 : (⟨S128x1, .f32⟩ : BufTy).Contents (Elt Ideal)) (a13 : (⟨S1, .f32⟩ : BufTy).Contents (Elt Ideal)) : (⟨S500000x1, .f32⟩ : BufTy).Contents (Elt Ideal) :=
  mlpT (xsT (F := Ideal) (nodeFeat (fun x w => mmT x w) a0 a1 a2 a3 a4 a5) (srcT (F := Ideal) a0))
    (xdT (F := Ideal) (nodeFeat (fun x w => mmT x w) a0 a1 a2 a3 a4 a5) (dstT (F := Ideal) a0))
    (w1aT (F := Ideal) a6) (w1bT (F := Ideal) a6) a7 a8 a9 a10 a11 a12 a13

/-- The reference's result array as a function of the fourteen argument arrays. -/
def resultR (a0 : (⟨S2x500000, .i32⟩ : BufTy).Contents (Elt Ideal)) (a1 : (⟨S50000x256, .f32⟩ : BufTy).Contents (Elt Ideal)) (a2 : (⟨S2x256x256, .f32⟩ : BufTy).Contents (Elt Ideal)) (a3 : (⟨S2x256, .f32⟩ : BufTy).Contents (Elt Ideal)) (a4 : (⟨S2x256, .f32⟩ : BufTy).Contents (Elt Ideal)) (a5 : (⟨S2x256, .f32⟩ : BufTy).Contents (Elt Ideal)) (a6 : (⟨S512x512, .f32⟩ : BufTy).Contents (Elt Ideal)) (a7 : (⟨S512, .f32⟩ : BufTy).Contents (Elt Ideal)) (a8 : (⟨S512x256, .f32⟩ : BufTy).Contents (Elt Ideal)) (a9 : (⟨S256, .f32⟩ : BufTy).Contents (Elt Ideal)) (a10 : (⟨S256x128, .f32⟩ : BufTy).Contents (Elt Ideal)) (a11 : (⟨S128, .f32⟩ : BufTy).Contents (Elt Ideal)) (a12 : (⟨S128x1, .f32⟩ : BufTy).Contents (Elt Ideal)) (a13 : (⟨S1, .f32⟩ : BufTy).Contents (Elt Ideal)) : (⟨S500000x1, .f32⟩ : BufTy).Contents (Elt Ideal) :=
  refTail
    (xsRT (F := Ideal) (nodeFeat (fun x w => hostProd x w) a0 a1 a2 a3 a4 a5) (srcT (F := Ideal) a0))
    (xdRT (F := Ideal) (nodeFeat (fun x w => hostProd x w) a0 a1 a2 a3 a4 a5) (dstT (F := Ideal) a0))
    a6 a7 a8 a9 a10 a11 a12 a13

end Cert.Bridge

end
-- ==== Proof.GcnRegion0.lean ====
/-
  The first tiled matrix product of the program computes the whole product.

  The product of a [50000, 256] matrix x with a [256, 256] matrix w is computed in ten steps. Step t reads rows
  5000·t … 5000·t + 4999 of x and the whole of w, and writes rows 5000·t … 5000·t + 4999 of the result; its
  entry (p, e) is ∑ k < 256, x[5000·t + p, k] · w[k, e]. On the extended reals the change of number format on the
  way into the product is the identity, a recast to the same shape is the identity, and a product accumulated into
  the zero matrix is the plain sum of products. So what step t writes is exactly rows 5000·t … 5000·t + 4999 of the
  one function `mmT x w`. Row r of the result lies in the rows written by step r / 5000, so the ten steps together
  write every row, and the result array ends holding `mmT x w`, whatever it held before.

  The order of the lemmas: the body's value at an entry, for any two blocks; `mmT` read at an index whose two
  coordinates are known; the block indices of the three windows at step t (row block t and column block 0 for x and
  for the result, block (0, 0) for w), decided over the ten steps; each input block read as entries of its array;
  what step t writes back; which indices step t's rows are; the cover; the result array.
-/
import proofs.«163565_j59923383714097_2_alg».proof.Proof.Gen.KernelIdeal.Frame
import proofs.«163565_j59923383714097_2_alg».proof.Proof.Spec
import proofs.«163565_j59923383714097_2_alg».proof.Proof.LibPlainMatmul
import Idealize.ShloMosaic.Lib.Pipeline.Value

noncomputable section

namespace Cert.Bridge

open Idealize.ShloMosaic Idealize.ShloMosaic.TcCoe Idealize.ShloMosaic.ValueIdx Cert.KernelIdeal Cert.KernelIdeal.Gen

/-- The body's value at entry (p, e), from a [5000, 256] block and a [256, 256] block: ∑ k, x0[p, k] · x1[k, e]. -/
theorem pay0_apply (x0 : Vec Ideal S5000x256 .f32) (x1 : Vec Ideal S256x256 .f32) (p : Fin 5000) (e : Fin 256) :
    k0_pay1 (F := Ideal) x0 x1 (ix2 p e) = ∑ k : Fin 256, x0 (ix2 p k) * x1 (ix2 k e) := by
  unfold k0_pay1
  rw [shapeCast_self]
  exact matmul_plain_zero_apply dot_S5000x256_S256x256_S5000x256_1_0_0_1_n_n rfl none _ _ p e

/-- `mmT` at an index whose row is r and whose column is e. -/
theorem mmT_at (X : (⟨2, ![50000, 256]⟩ : Shape).Idx → EReal) (W : (⟨2, ![256, 256]⟩ : Shape).Idx → EReal)
    (i : (⟨2, ![50000, 256]⟩ : Shape).Idx) (r : Fin 50000) (e : Fin 256) (h0 : i 0 = r) (h1 : i 1 = e) :
    mmT X W i = ∑ k : Fin 256, X (ix2 r k) * W (ix2 k e) := by
  subst h0 h1; rfl

/-- The pair of zero offsets is the constant zero. -/
theorem zero_offsets : (![0, 0] : Fin 2 → Nat) = fun _ => 0 := funext fun a => by fin_cases a <;> rfl

/-- The block indices at step t: (t, 0) for x and for the result, (0, 0) for w. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of x's block at step t is entry (5000·t + p, k) of x. -/
theorem xblk0_apply (c : Dev nD) (t : Fin cfg0.N) (p : Fin 5000) (k : Fin 256) (r : Fin 50000)
    (hr : r.val = 5000 * t.val + p.val) :
    (iblk0 (F := Ideal) V c 0 t : Vec Ideal S5000x256 .f32) (ix2 p k)
      = (V c main_arg1 : S50000x256.Idx → EReal) (ix2 r k) := by
  obtain ⟨e0, e1, -⟩ := idx_facts0 t
  unfold iblk0
  rw [View.read_apply]
  show (V c main_arg1 : S50000x256.Idx → EReal) _ = V c main_arg1 _
  congr 1
  funext a
  apply Fin.ext
  match a with
  | ⟨0, _⟩ => show win0_0.index t 0 * 5000 + 1 * p.val = r.val; rw [e0, hr]; omega
  | ⟨1, _⟩ => show win0_0.index t 1 * 256 + 1 * k.val = k.val; rw [e1]; omega

/-- Entry (k, e) of w's block at any step is entry (k, e) of w. -/
theorem wblk0_apply (c : Dev nD) (t : Fin cfg0.N) (k : Fin 256) (e : Fin 256) :
    (iblk0 (F := Ideal) V c 1 t : Vec Ideal S256x256 .f32) (ix2 k e)
      = (V c main_v32 : S256x256.Idx → EReal) (ix2 k e) := by
  obtain ⟨-, -, e2, e3, -⟩ := idx_facts0 t
  unfold iblk0
  rw [View.read_apply]
  show (V c main_v32 : S256x256.Idx → EReal) _ = V c main_v32 _
  congr 1
  funext a
  apply Fin.ext
  match a with
  | ⟨0, _⟩ => show win0_1.index t 0 * 256 + 1 * k.val = k.val; rw [e2]; omega
  | ⟨1, _⟩ => show win0_1.index t 1 * 256 + 1 * e.val = e.val; rw [e3]; omega

/-- What step t writes back is rows 5000·t … 5000·t + 4999 of `mmT x w`. -/
theorem flushed0_eq (c : Dev nD) (t : Fin cfg0.N) :
    (dat0 (F := Ideal) V c).flushed 2 t
      = ((cfg0.win 2).blk t).view.read (Elt Ideal) (mmT (V c main_arg1) (V c main_v32)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x256) zero_offsets]
  obtain ⟨-, -, -, -, e4, e5⟩ := idx_facts0 t
  funext j
  obtain ⟨p, e, rfl⟩ : ∃ (p : Fin 5000) (e : Fin 256), j = ix2 p e := ⟨j 0, j 1, eq_ix2 j⟩
  have hr : ((((cfg0.win 2).blk t).view.emb (ix2 p e)) 0).val = 5000 * t.val + p.val := by
    show win0_2.index t 0 * 5000 + 1 * p.val = _
    rw [e4]; omega
  have he : (((cfg0.win 2).blk t).view.emb (ix2 p e)) 1 = e := Fin.ext (by
    show win0_2.index t 1 * 256 + 1 * e.val = e.val
    rw [e5]; omega)
  show k0_pay1 (iblk0 V c 0 t) (iblk0 V c 1 t) (ix2 p e)
      = mmT (V c main_arg1) (V c main_v32) (((cfg0.win 2).blk t).view.emb (ix2 p e))
  refine (pay0_apply (iblk0 V c 0 t) (iblk0 V c 1 t) p e).trans ?_
  refine Eq.trans ?_ (mmT_at (V c main_arg1) (V c main_v32) (((cfg0.win 2).blk t).view.emb (ix2 p e)) _ e rfl he).symm
  refine Finset.sum_congr rfl fun k _ => ?_
  exact congrArg₂ (· * ·) (xblk0_apply V c t p k _ hr) (wblk0_apply V c t k e)

/-- An index of the result is among step t's rows iff each coordinate is in the block's range on its axis. -/
theorem mem_blk0 (t : Fin cfg0.N) (i : S50000x256.Idx) :
    i ∈ ((cfg0.win 2).blk t).view.set
      ↔ ∀ a : Fin 2, win0_2.index t a * S5000x256.size a ≤ (i a).val
          ∧ (i a).val < win0_2.index t a * S5000x256.size a + S5000x256.size a := by
  show i ∈ ((View.whole main_v33).slice (win0_2.rect t)).set ↔ _
  rw [View.set_slice_whole, Rect.mem_set_unit]
  exact Iff.rfl

/-- Every index of the result is written by some step: row r by step r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ 1 * 256 ≤ (i 1).val
      ∧ (i 1).val < win0_2.index ⟨(i 0).val / 5000, ht⟩ 1 * 256 + 256
    rw [e5]; omega

/-- After the ten steps the result array holds `mmT x w` of the two input arrays as the steps found them. -/
theorem region0_value (c : Dev nD) :
    (Cert.KernelIdeal.Gen.dat0 (F := Ideal) V c).arrAt 2 cfg0.N = mmT (V c main_arg1) (V c main_v32) :=
  (dat0 (F := Ideal) V c).arrAt_eq_of_cover 2 (mmT (V c main_arg1) (V c main_v32))
    (fun t _ => flushed0_eq V c t) cover0

end Cert.Bridge

end
-- ==== Proof.GcnRegion1.lean ====
/-
  The second tiled matrix product of the program computes the whole product.

  It is the first one again on other arrays: the product of a [50000, 256] matrix x with a [256, 256] matrix w in ten
  steps, step t reading rows 5000·t … 5000·t + 4999 of x and the whole of w and writing the same rows of the result,
  entry (p, e) being ∑ k < 256, x[5000·t + p, k] · w[k, e]. The one difference is in the body, which recasts BOTH
  blocks to their own shapes before the product; on the extended reals each recast is the identity, as is the change
  of number format, and the product accumulated into the zero matrix is the plain sum of products. So what step t
  writes is rows 5000·t … 5000·t + 4999 of `mmT x w`, row r is written by step r / 5000, and the result array ends
  holding `mmT x w`, whatever it held before.

  The lemmas come in the order of the first product's: the body's value at an entry; the block indices of the three
  windows at step t, decided over the ten steps; each input block read as entries of its array; what step t writes
  back; which indices step t's rows are; the cover; the result array. Reading `mmT` at an index of known coordinates,
  and the zero offsets, are the first product's lemmas.
-/
import proofs.«163565_j59923383714097_2_alg».proof.Proof.Gen.KernelIdeal.Frame
import proofs.«163565_j59923383714097_2_alg».proof.Proof.Spec
import proofs.«163565_j59923383714097_2_alg».proof.Proof.LibPlainMatmul
import proofs.«163565_j59923383714097_2_alg».proof.Proof.GcnRegion0
import Idealize.ShloMosaic.Lib.Pipeline.Value

noncomputable section

namespace Cert.Bridge

open Idealize.ShloMosaic Idealize.ShloMosaic.TcCoe Idealize.ShloMosaic.ValueIdx Cert.KernelIdeal Cert.KernelIdeal.Gen

/-- The body's value at entry (p, e), from a [5000, 256] block and a [256, 256] block: ∑ k, x0[p, k] · x1[k, e]. -/
theorem pay1_apply (x0 : Vec Ideal S5000x256 .f32) (x1 : Vec Ideal S256x256 .f32) (p : Fin 5000) (e : Fin 256) :
    k1_pay1 (F := Ideal) x0 x1 (ix2 p e) = ∑ k : Fin 256, x0 (ix2 p k) * x1 (ix2 k e) := by
  unfold k1_pay1
  rw [shapeCast_self, shapeCast_self]
  exact matmul_plain_zero_apply dot_S5000x256_S256x256_S5000x256_1_0_0_1_n_n rfl none _ _ p e

/-- The block indices at step t: (t, 0) for x and for the result, (0, 0) for w. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Entry (p, k) of x's block at step t is entry (5000·t + p, k) of x. -/
theorem xblk1_apply (c : Dev nD) (t : Fin cfg1.N) (p : Fin 5000) (k : Fin 256) (r : Fin 50000)
    (hr : r.val = 5000 * t.val + p.val) :
    (iblk1 (F := Ideal) V c 0 t : Vec Ideal S5000x256 .f32) (ix2 p k)
      = (V c main_v80 : S50000x256.Idx → EReal) (ix2 r k) := by
  obtain ⟨e0, e1, -⟩ := idx_facts1 t
  unfold iblk1
  rw [View.read_apply]
  show (V c main_v80 : S50000x256.Idx → EReal) _ = V c main_v80 _
  congr 1
  funext a
  apply Fin.ext
  match a with
  | ⟨0, _⟩ => show win1_0.index t 0 * 5000 + 1 * p.val = r.val; rw [e0, hr]; omega
  | ⟨1, _⟩ => show win1_0.index t 1 * 256 + 1 * k.val = k.val; rw [e1]; omega

/-- Entry (k, e) of w's block at any step is entry (k, e) of w. -/
theorem wblk1_apply (c : Dev nD) (t : Fin cfg1.N) (k : Fin 256) (e : Fin 256) :
    (iblk1 (F := Ideal) V c 1 t : Vec Ideal S256x256 .f32) (ix2 k e)
      = (V c main_v82 : S256x256.Idx → EReal) (ix2 k e) := by
  obtain ⟨-, -, e2, e3, -⟩ := idx_facts1 t
  unfold iblk1
  rw [View.read_apply]
  show (V c main_v82 : S256x256.Idx → EReal) _ = V c main_v82 _
  congr 1
  funext a
  apply Fin.ext
  match a with
  | ⟨0, _⟩ => show win1_1.index t 0 * 256 + 1 * k.val = k.val; rw [e2]; omega
  | ⟨1, _⟩ => show win1_1.index t 1 * 256 + 1 * e.val = e.val; rw [e3]; omega

/-- What step t writes back is rows 5000·t … 5000·t + 4999 of `mmT x w`. -/
theorem flushed1_eq (c : Dev nD) (t : Fin cfg1.N) :
    (dat1 (F := Ideal) V c).flushed 2 t
      = ((cfg1.win 2).blk t).view.read (Elt Ideal) (mmT (V c main_v80) (V c main_v82)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  obtain ⟨-, -, -, -, e4, e5⟩ := idx_facts1 t
  funext j
  obtain ⟨p, e, rfl⟩ : ∃ (p : Fin 5000) (e : Fin 256), j = ix2 p e := ⟨j 0, j 1, eq_ix2 j⟩
  have hr : ((((cfg1.win 2).blk t).view.emb (ix2 p e)) 0).val = 5000 * t.val + p.val := by
    show win1_2.index t 0 * 5000 + 1 * p.val = _
    rw [e4]; omega
  have he : (((cfg1.win 2).blk t).view.emb (ix2 p e)) 1 = e := Fin.ext (by
    show win1_2.index t 1 * 256 + 1 * e.val = e.val
    rw [e5]; omega)
  show k1_pay1 (iblk1 V c 0 t) (iblk1 V c 1 t) (ix2 p e)
      = mmT (V c main_v80) (V c main_v82) (((cfg1.win 2).blk t).view.emb (ix2 p e))
  refine (pay1_apply (iblk1 V c 0 t) (iblk1 V c 1 t) p e).trans ?_
  refine Eq.trans ?_ (mmT_at (V c main_v80) (V c main_v82) (((cfg1.win 2).blk t).view.emb (ix2 p e)) _ e rfl he).symm
  refine Finset.sum_congr rfl fun k _ => ?_
  exact congrArg₂ (· * ·) (xblk1_apply V c t p k _ hr) (wblk1_apply V c t k e)

/-- An index of the result is among step t's rows iff each coordinate is in the block's range on its axis. -/
theorem mem_blk1 (t : Fin cfg1.N) (i : S50000x256.Idx) :
    i ∈ ((cfg1.win 2).blk t).view.set
      ↔ ∀ a : Fin 2, win1_2.index t a * S5000x256.size a ≤ (i a).val
          ∧ (i a).val < win1_2.index t a * S5000x256.size a + S5000x256.size a := by
  show i ∈ ((View.whole main_v83).slice (win1_2.rect t)).set ↔ _
  rw [View.set_slice_whole, Rect.mem_set_unit]
  exact Iff.rfl

/-- Every index of the result is written by some step: row r by step r / 5000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  have ht : (i 0).val / 5000 < cfg1.N := by rw [hN]; omega
  obtain ⟨-, -, -, -, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ 0 * 5000 ≤ (i 0).val
      ∧ (i 0).val < win1_2.index ⟨(i 0).val / 5000, ht⟩ 0 * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ 1 * 256 ≤ (i 1).val
      ∧ (i 1).val < win1_2.index ⟨(i 0).val / 5000, ht⟩ 1 * 256 + 256
    rw [e5]; omega

/-- After the ten steps the result array holds `mmT x w` of the two input arrays as the steps found them. -/
theorem region1_value (c : Dev nD) :
    (Cert.KernelIdeal.Gen.dat1 (F := Ideal) V c).arrAt 2 cfg1.N = mmT (V c main_v80) (V c main_v82) :=
  (dat1 (F := Ideal) V c).arrAt_eq_of_cover 2 (mmT (V c main_v80) (V c main_v82))
    (fun t _ => flushed1_eq V c t) cover1

end Cert.Bridge

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«163565_j59923383714097_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.EdgeRows.lean ====
/-
  The edge predictor's body on one block of 4000 edges, read row by row on the extended reals.

  The body takes the two blocks of endpoint features xs, xd ∈ EReal^(4000 × 256) and the weights, and computes
  h₁ = max(xs·W1a + xd·W1b + b₁, 0), h₂ = max(h₁·W₂ + b₂, 0), h₃ = max(h₂·W₃ + b₃, 0) and out = h₃·W₄ + b₄, each
  product a plain row-by-column matrix product into a zero accumulator, each bias a vector recast as one row and
  repeated over the 4000 rows, each maximum taken entrywise against the zero constant. Changes of float format are
  the identity on the extended reals, and a recast to the same shape changes nothing. Every operation acts on each
  row of its left operand separately, so row p of the result is the one-edge function `mlpRow` of rows p of xs and
  xd: the same sums and maxima, term by term, with no finiteness used.
-/
import proofs.«163565_j59923383714097_2_alg».proof.Proof.Gen.KernelIdeal.Skeleton
import proofs.«163565_j59923383714097_2_alg».proof.Proof.Spec
import proofs.«163565_j59923383714097_2_alg».proof.Proof.LibHostDenseRows
import Idealize.ShloMosaic.Lib.Pipeline.Value

noncomputable section

namespace Cert.Bridge

open Idealize.ShloMosaic Idealize.ShloMosaic.ValueIdx Cert.LibDenseRows Cert.LibHostDenseRows
open Cert.KernelIdeal Cert.KernelIdeal.Gen

/-- A layer x ↦ x·W + b whose weight matrix passes through a change of float format and whose bias is a vector
    recast as one row: row `r` of the result is `dense W b` of row `r` of x. -/
theorem rows_dense_cast {M K N : ℕ} {φ₁ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ .f32) (b : FVec Ideal ⟨1, ![N]⟩ .f32)
    (hlt : FTy.bits .bf16 < FTy.bits .f32)
    (hc : (⟨1, ![N]⟩ : Shape).ShapeCasts ⟨2, ![1, N]⟩) (hb : (⟨2, ![1, N]⟩ : Shape).Broadcasts ⟨2, ![M, N]⟩) (r : Fin M) :
    rows (addf (matmul d prec x (truncf .bf16 w hlt) (constant (F := Ideal) ⟨2, ![M, N]⟩ .f32 0x00000000#32))
        (broadcastTo ⟨2, ![M, N]⟩ (shapeCast ⟨2, ![1, N]⟩ b hc) hb)) r
      = dense (rows w) (vec b) (rows x r) :=
  (rows_matmul_bias d hd prec x (truncf .bf16 w hlt) (shapeCast ⟨2, ![1, N]⟩ b hc) hb r).trans
    (congrArg (fun v => dense (rows w) v (rows x r)) (rows_shapeCast_vec b hc))

/-- The entrywise maximum with the zero constant, followed by a change of float format: ReLU of every row. -/
theorem rows_relu_cast {M N : ℕ} (v : FVec Ideal ⟨2, ![M, N]⟩ .f32) (hlt : FTy.bits .bf16 < FTy.bits .f32) (r : Fin M) :
    rows (truncf .bf16 (maximumf v (broadcast ⟨2, ![M, N]⟩ (Scalar.ofBits (F := Ideal) .f32 0x00000000#32))) hlt) r
      = relu (rows v r) :=
  rows_max_zero v r

/-- The first layer before its ReLU: two products, of the two endpoint blocks with their two weight matrices, added,
    plus the bias row. Row `r` is xs[r]·W1a + xd[r]·W1b + b. -/
theorem rows_two_products {M K N : ℕ} {φ₁ : FTy} (d : DotDims ⟨2, ![M, K]⟩ ⟨2, ![K, N]⟩ ⟨2, ![M, N]⟩)
    (hd : d = DotDims.plain M K N) (prec : Option ContractPrecision)
    (xa xb : FVec Ideal ⟨2, ![M, K]⟩ φ₁) (wa wb : FVec Ideal ⟨2, ![K, N]⟩ .f32) (b : FVec Ideal ⟨1, ![N]⟩ .f32)
    (hx : (⟨2, ![M, K]⟩ : Shape).ShapeCasts ⟨2, ![M, K]⟩) (hw : (⟨2, ![K, N]⟩ : Shape).ShapeCasts ⟨2, ![K, N]⟩)
    (hlt : FTy.bits .bf16 < FTy.bits .f32)
    (hc : (⟨1, ![N]⟩ : Shape).ShapeCasts ⟨2, ![1, N]⟩) (hb : (⟨2, ![1, N]⟩ : Shape).Broadcasts ⟨2, ![M, N]⟩) (r : Fin M) :
    rows (addf
        (addf
          (matmul d prec (shapeCast ⟨2, ![M, K]⟩ xa hx) (truncf .bf16 (shapeCast ⟨2, ![K, N]⟩ wa hw) hlt)
            (constant (F := Ideal) ⟨2, ![M, N]⟩ .f32 0x00000000#32))
          (matmul d prec (shapeCast ⟨2, ![M, K]⟩ xb hx) (truncf .bf16 (shapeCast ⟨2, ![K, N]⟩ wb hw) hlt)
            (constant (F := Ideal) ⟨2, ![M, N]⟩ .f32 0x00000000#32)))
        (broadcastTo ⟨2, ![M, N]⟩ (shapeCast ⟨2, ![1, N]⟩ b hc) hb)) r
      = fun e => matvec (rows wa) (rows xa r) e + matvec (rows wb) (rows xb r) e + vec b e := by
  rw [shapeCast_self xa hx, shapeCast_self xb hx, shapeCast_self wa hw, shapeCast_self wb hw]
  refine (rows_add_broadcast_row _ (shapeCast ⟨2, ![1, N]⟩ b hc) hb r).trans (funext fun e => ?_)
  show rows (matmul d prec xa (truncf .bf16 wa hlt) (constant (F := Ideal) ⟨2, ![M, N]⟩ .f32 0x00000000#32)) r e
        + rows (matmul d prec xb (truncf .bf16 wb hlt) (constant (F := Ideal) ⟨2, ![M, N]⟩ .f32 0x00000000#32)) r e
        + rows (shapeCast ⟨2, ![1, N]⟩ b hc) (0 : Fin 1) e
      = matvec (rows wa) (rows xa r) e + matvec (rows wb) (rows xb r) e + vec b e
  rw [rows_matmul_zero d hd prec xa (truncf .bf16 wa hlt) r, rows_matmul_zero d hd prec xb (truncf .bf16 wb hlt) r,
    rows_shapeCast_vec b hc]
  rfl

/-- THE BODY ON ONE BLOCK, ROW BY ROW: row `p` of what the body stores is the edge predictor of rows `p` of the two
    endpoint blocks. -/
theorem edge_rows (x0 x1 : Vec Ideal S4000x256 .bf16) (x2 x3 : Vec Ideal S256x512 .f32) (x4 : Vec Ideal S512 .f32)
    (x5 : Vec Ideal S512x256 .f32) (x6 : Vec Ideal S256 .f32) (x7 : Vec Ideal S256x128 .f32) (x8 : Vec Ideal S128 .f32)
    (x9 : Vec Ideal S128x1 .f32) (x10 : Vec Ideal S1 .f32) (p : Fin 4000) :
    rows (k2_pay1 (k2_pay2 x0 x1 x2 x3 x4 x5 x6 x7 x8) (Scalar.ofBits .f32 0x00000000#32) x9 x10) p
      = mlpRow (rows x2) (rows x3) (vec x4) (rows x5) (vec x6) (rows x7) (vec x8) (rows x9) (vec x10) (rows x0 p) (rows x1 p) := by
  unfold k2_pay1 k2_pay2 mlpRow
  dsimp only
  refine (rows_dense_cast _ rfl none _ x9 x10 _ _ _ p).trans ?_
  refine congrArg (dense (rows x9) (vec x10)) ?_
  refine (rows_relu_cast _ _ p).trans ?_
  refine congrArg relu ?_
  refine (rows_dense_cast _ rfl none _ x7 x8 _ _ _ p).trans ?_
  refine congrArg (dense (rows x7) (vec x8)) ?_
  refine (rows_relu_cast _ _ p).trans ?_
  refine congrArg relu ?_
  refine (rows_dense_cast _ rfl none _ x5 x6 _ _ _ p).trans ?_
  refine congrArg (dense (rows x5) (vec x6)) ?_
  refine (rows_relu_cast _ _ p).trans ?_
  refine congrArg relu ?_
  exact rows_two_products _ rfl none x0 x1 x2 x3 x4 _ _ _ _ _ p

end Cert.Bridge

end
-- ==== Proof.EdgeRegion.lean ====
/-
  The edge predictor's region, from blocks to the whole array.

  The region runs its body at 125 points. At point t the two endpoint windows hold rows 4000·t … 4000·t + 3999 of the
  two [500000, 256] feature arrays, the nine weight and bias windows hold their whole arrays, and the output window's
  block is written back to rows 4000·t … 4000·t + 3999 of the [500000, 1] result. Row p of the block the body leaves
  is the one-edge function of rows p of the two endpoint blocks, that is of rows 4000·t + p of the two feature arrays,
  so the block written back at t is block t of the whole-array function `mlpT`. Row r of the result lies in the
  block of point r / 4000, so the 125 blocks cover the array, which therefore ends holding `mlpT` of the arrays as
  the region found them.
-/
import proofs.«163565_j59923383714097_2_alg».proof.Proof.Gen.KernelIdeal.Frame
import proofs.«163565_j59923383714097_2_alg».proof.Proof.EdgeRows
import Idealize.ShloMosaic.Lib.Pipeline.Value

noncomputable section

namespace Cert.Bridge

open Idealize.ShloMosaic Idealize.ShloMosaic.TcCoe Idealize.ShloMosaic.ValueIdx Cert.LibDenseRows
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the two endpoint windows and the output window are at block t along the rows and
    block 0 along the columns. -/
theorem edge_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0 :=
  (by decide +kernel : ∀ t : Fin grid2.N, _)

/-- Every weight and bias window is at block 0 on every axis, at every point. -/
theorem weight_index_facts : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = 0 ∧ win2_9.index t (1 : Fin 2) = 0
    ∧ win2_10.index t (0 : Fin 1) = 0 :=
  (by decide +kernel : ∀ t : Fin grid2.N, _)

/-! ## Each window's block at a point, as entries of its array -/

/-- A weight or bias window's block is its whole array, at every point. -/
theorem edge_block_2 (c : Dev nD) (t : Fin cfg2.N) : (iblk2 V c 2 t : Vec Ideal S256x512 .f32) = V c main_v146 := by
  funext y
  show V c main_v146 (((cfg2.win 2).blk t).view.emb y) = V c main_v146 y
  refine congrArg (V c main_v146) (funext fun a => Fin.ext ?_)
  have hw := weight_index_facts t
  match a with
  | ⟨0, _⟩ => show win2_2.index t (0 : Fin 2) * 256 + 1 * (y 0).val = (y 0).val; rw [hw.1]; omega
  | ⟨1, _⟩ => show win2_2.index t (1 : Fin 2) * 512 + 1 * (y 1).val = (y 1).val; rw [hw.2.1]; omega

theorem edge_block_3 (c : Dev nD) (t : Fin cfg2.N) : (iblk2 V c 3 t : Vec Ideal S256x512 .f32) = V c main_v147 := by
  funext y
  show V c main_v147 (((cfg2.win 3).blk t).view.emb y) = V c main_v147 y
  refine congrArg (V c main_v147) (funext fun a => Fin.ext ?_)
  have hw := weight_index_facts t
  match a with
  | ⟨0, _⟩ => show win2_3.index t (0 : Fin 2) * 256 + 1 * (y 0).val = (y 0).val; rw [hw.2.2.1]; omega
  | ⟨1, _⟩ => show win2_3.index t (1 : Fin 2) * 512 + 1 * (y 1).val = (y 1).val; rw [hw.2.2.2.1]; omega

theorem edge_block_4 (c : Dev nD) (t : Fin cfg2.N) : (iblk2 V c 4 t : Vec Ideal S512 .f32) = V c main_arg7 := by
  funext y
  show V c main_arg7 (((cfg2.win 4).blk t).view.emb y) = V c main_arg7 y
  refine congrArg (V c main_arg7) (funext fun a => Fin.ext ?_)
  have hw := weight_index_facts t
  match a with
  | ⟨0, _⟩ => show win2_4.index t (0 : Fin 1) * 512 + 1 * (y 0).val = (y 0).val; rw [hw.2.2.2.2.1]; omega

theorem edge_block_5 (c : Dev nD) (t : Fin cfg2.N) : (iblk2 V c 5 t : Vec Ideal S512x256 .f32) = V c main_arg8 := by
  funext y
  show V c main_arg8 (((cfg2.win 5).blk t).view.emb y) = V c main_arg8 y
  refine congrArg (V c main_arg8) (funext fun a => Fin.ext ?_)
  have hw := weight_index_facts t
  match a with
  | ⟨0, _⟩ => show win2_5.index t (0 : Fin 2) * 512 + 1 * (y 0).val = (y 0).val; rw [hw.2.2.2.2.2.1]; omega
  | ⟨1, _⟩ => show win2_5.index t (1 : Fin 2) * 256 + 1 * (y 1).val = (y 1).val; rw [hw.2.2.2.2.2.2.1]; omega

theorem edge_block_6 (c : Dev nD) (t : Fin cfg2.N) : (iblk2 V c 6 t : Vec Ideal S256 .f32) = V c main_arg9 := by
  funext y
  show V c main_arg9 (((cfg2.win 6).blk t).view.emb y) = V c main_arg9 y
  refine congrArg (V c main_arg9) (funext fun a => Fin.ext ?_)
  have hw := weight_index_facts t
  match a with
  | ⟨0, _⟩ => show win2_6.index t (0 : Fin 1) * 256 + 1 * (y 0).val = (y 0).val; rw [hw.2.2.2.2.2.2.2.1]; omega

theorem edge_block_7 (c : Dev nD) (t : Fin cfg2.N) : (iblk2 V c 7 t : Vec Ideal S256x128 .f32) = V c main_arg10 := by
  funext y
  show V c main_arg10 (((cfg2.win 7).blk t).view.emb y) = V c main_arg10 y
  refine congrArg (V c main_arg10) (funext fun a => Fin.ext ?_)
  have hw := weight_index_facts t
  match a with
  | ⟨0, _⟩ => show win2_7.index t (0 : Fin 2) * 256 + 1 * (y 0).val = (y 0).val; rw [hw.2.2.2.2.2.2.2.2.1]; omega
  | ⟨1, _⟩ => show win2_7.index t (1 : Fin 2) * 128 + 1 * (y 1).val = (y 1).val; rw [hw.2.2.2.2.2.2.2.2.2.1]; omega

theorem edge_block_8 (c : Dev nD) (t : Fin cfg2.N) : (iblk2 V c 8 t : Vec Ideal S128 .f32) = V c main_arg11 := by
  funext y
  show V c main_arg11 (((cfg2.win 8).blk t).view.emb y) = V c main_arg11 y
  refine congrArg (V c main_arg11) (funext fun a => Fin.ext ?_)
  have hw := weight_index_facts t
  match a with
  | ⟨0, _⟩ => show win2_8.index t (0 : Fin 1) * 128 + 1 * (y 0).val = (y 0).val; rw [hw.2.2.2.2.2.2.2.2.2.2.1]; omega

theorem edge_block_9 (c : Dev nD) (t : Fin cfg2.N) : (iblk2 V c 9 t : Vec Ideal S128x1 .f32) = V c main_arg12 := by
  funext y
  show V c main_arg12 (((cfg2.win 9).blk t).view.emb y) = V c main_arg12 y
  refine congrArg (V c main_arg12) (funext fun a => Fin.ext ?_)
  have hw := weight_index_facts t
  match a with
  | ⟨0, _⟩ => show win2_9.index t (0 : Fin 2) * 128 + 1 * (y 0).val = (y 0).val; rw [hw.2.2.2.2.2.2.2.2.2.2.2.1]; omega
  | ⟨1, _⟩ => show win2_9.index t (1 : Fin 2) * 1 + 1 * (y 1).val = (y 1).val; rw [hw.2.2.2.2.2.2.2.2.2.2.2.2.1]; omega

theorem edge_block_10 (c : Dev nD) (t : Fin cfg2.N) : (iblk2 V c 10 t : Vec Ideal S1 .f32) = V c main_arg13 := by
  funext y
  show V c main_arg13 (((cfg2.win 10).blk t).view.emb y) = V c main_arg13 y
  refine congrArg (V c main_arg13) (funext fun a => Fin.ext ?_)
  have hw := weight_index_facts t
  match a with
  | ⟨0, _⟩ => show win2_10.index t (0 : Fin 1) * 1 + 1 * (y 0).val = (y 0).val; rw [hw.2.2.2.2.2.2.2.2.2.2.2.2.2]; omega

/-- Row p of the first endpoint window's block at point t is row 4000·t + p of its array. -/
theorem edge_block_0 (c : Dev nD) (t : Fin cfg2.N) (p : Fin 4000) (k : Fin 256) (r : Fin 500000)
    (hr : r.val = 4000 * t.val + p.val) :
    (iblk2 V c 0 t : Vec Ideal S4000x256 .bf16) (ix2 p k) = V c main_v138 (ix2 r k) := by
  show V c main_v138 (((cfg2.win 0).blk t).view.emb (ix2 p k)) = V c main_v138 (ix2 r k)
  refine congrArg (V c main_v138) (funext fun a => Fin.ext ?_)
  obtain ⟨e0, e1, -⟩ := edge_index_facts t
  match a with
  | ⟨0, _⟩ => show win2_0.index t (0 : Fin 2) * 4000 + 1 * p.val = r.val; rw [e0, hr]; omega
  | ⟨1, _⟩ => show win2_0.index t (1 : Fin 2) * 256 + 1 * k.val = k.val; rw [e1]; omega

/-- The same for the second endpoint window. -/
theorem edge_block_1 (c : Dev nD) (t : Fin cfg2.N) (p : Fin 4000) (k : Fin 256) (r : Fin 500000)
    (hr : r.val = 4000 * t.val + p.val) :
    (iblk2 V c 1 t : Vec Ideal S4000x256 .bf16) (ix2 p k) = V c main_v145 (ix2 r k) := by
  show V c main_v145 (((cfg2.win 1).blk t).view.emb (ix2 p k)) = V c main_v145 (ix2 r k)
  refine congrArg (V c main_v145) (funext fun a => Fin.ext ?_)
  obtain ⟨-, -, e0, e1, -⟩ := edge_index_facts t
  match a with
  | ⟨0, _⟩ => show win2_1.index t (0 : Fin 2) * 4000 + 1 * p.val = r.val; rw [e0, hr]; omega
  | ⟨1, _⟩ => show win2_1.index t (1 : Fin 2) * 256 + 1 * k.val = k.val; rw [e1]; omega

/-! ## The block written back at a point -/

/-- One entry of the body's block, over any blocks that are rows 4000·tv … of the two feature arrays and the whole
    weight and bias arrays: entry (p, z) is the whole-array function at (4000·tv + p, z). -/
theorem edge_block_entry (a0 a1 : (⟨2, ![500000, 256]⟩ : Shape).Idx → EReal) (w1a w1b : (⟨2, ![256, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 128]⟩ : Shape).Idx → EReal)
    (b3 : (⟨1, ![128]⟩ : Shape).Idx → EReal) (w4 : (⟨2, ![128, 1]⟩ : Shape).Idx → EReal)
    (b4 : (⟨1, ![1]⟩ : Shape).Idx → EReal)
    (x0 x1 : Vec Ideal S4000x256 .bf16) (x2 x3 : Vec Ideal S256x512 .f32) (x4 : Vec Ideal S512 .f32)
    (x5 : Vec Ideal S512x256 .f32) (x6 : Vec Ideal S256 .f32) (x7 : Vec Ideal S256x128 .f32) (x8 : Vec Ideal S128 .f32)
    (x9 : Vec Ideal S128x1 .f32) (x10 : Vec Ideal S1 .f32) (tv : ℕ)
    (h0 : ∀ (p : Fin 4000) (k : Fin 256) (r : Fin 500000), r.val = 4000 * tv + p.val → x0 (ix2 p k) = a0 (ix2 r k))
    (h1 : ∀ (p : Fin 4000) (k : Fin 256) (r : Fin 500000), r.val = 4000 * tv + p.val → x1 (ix2 p k) = a1 (ix2 r k))
    (h2 : x2 = w1a) (h3 : x3 = w1b) (h4 : x4 = b1) (h5 : x5 = w2) (h6 : x6 = b2) (h7 : x7 = w3) (h8 : x8 = b3)
    (h9 : x9 = w4) (h10 : x10 = b4)
    (p : Fin 4000) (z : Fin 1) (r : Fin 500000) (hr : r.val = 4000 * tv + p.val) :
    k2_pay1 (k2_pay2 x0 x1 x2 x3 x4 x5 x6 x7 x8) (Scalar.ofBits .f32 0x00000000#32) x9 x10 (ix2 p z)
      = mlpT a0 a1 w1a w1b b1 w2 b2 w3 b3 w4 b4 (ix2 r z) := by
  subst h2 h3 h4 h5 h6 h7 h8 h9 h10
  rw [mlpT_apply]
  show rows (k2_pay1 (k2_pay2 x0 x1 x2 x3 x4 x5 x6 x7 x8) (Scalar.ofBits .f32 0x00000000#32) x9 x10) p z = _
  rw [edge_rows x0 x1 x2 x3 x4 x5 x6 x7 x8 x9 x10 p,
    show rows x0 p = rows a0 r from funext fun k => h0 p k r hr,
    show rows x1 p = rows a1 r from funext fun k => h1 p k r hr]

/-- WHAT POINT t WRITES BACK is block t of the whole-array edge predictor of the arrays as the region finds them. -/
theorem edge_flushed (c : Dev nD) (t : Fin cfg2.N) :
    (dat2 (F := Ideal) V c).flushed 11 t = ((cfg2.win 11).blk t).view.read (Elt Ideal)
      (mlpT (V c main_v138) (V c main_v145) (V c main_v146) (V c main_v147) (V c main_arg7) (V c main_arg8) (V c main_arg9)
            (V c main_arg10) (V c main_arg11) (V c main_arg12) (V c main_arg13)) := by
  show (cfg2.win 11).cut (grid2.coords t) ((dat2 V c).after 11 t) = _
  rw [after2_11]
  unfold out2_11
  rw [View.canon_unit_zero zeros2]
  simp only [View.ld_unit_zero (S := S4000x256) zeros2, View.ld_unit_zero (S := S256x512) zeros2,
    View.ld_unit_zero (S := S512x256) zeros2, View.ld_unit_zero (S := S256x128) zeros2, View.ld_unit_zero (S := S128x1) zeros2,
    View.ld_unit_zero (S := S512) zeros1, View.ld_unit_zero (S := S256) zeros1, View.ld_unit_zero (S := S128) zeros1,
    View.ld_unit_zero (S := S1) zeros1]
  funext j
  obtain ⟨p, z, rfl⟩ : ∃ (p : Fin 4000) (z : Fin 1), j = ix2 p z := ⟨j 0, j 1, eq_ix2 j⟩
  have hN : cfg2.N = 125 := N_2
  have ht : t.val < 125 := hN ▸ t.isLt
  have hemb : ((cfg2.win 11).blk t).view.emb (ix2 p z) = ix2 (⟨4000 * t.val + p.val, by have := p.isLt; omega⟩ : Fin 500000) z := by
    obtain ⟨-, -, -, -, e0, e1⟩ := edge_index_facts t
    refine funext fun a => Fin.ext ?_
    match a with
    | ⟨0, _⟩ => show win2_11.index t (0 : Fin 2) * 4000 + 1 * p.val = 4000 * t.val + p.val; rw [e0]; omega
    | ⟨1, _⟩ => show win2_11.index t (1 : Fin 2) * 1 + 1 * z.val = z.val; rw [e1]; omega
  show k2_pay1 (k2_pay2 (iblk2 V c 0 t) (iblk2 V c 1 t) (iblk2 V c 2 t) (iblk2 V c 3 t) (iblk2 V c 4 t) (iblk2 V c 5 t)
        (iblk2 V c 6 t) (iblk2 V c 7 t) (iblk2 V c 8 t)) (Scalar.ofBits .f32 0x00000000#32) (iblk2 V c 9 t) (iblk2 V c 10 t) (ix2 p z)
      = mlpT (V c main_v138) (V c main_v145) (V c main_v146) (V c main_v147) (V c main_arg7) (V c main_arg8) (V c main_arg9)
          (V c main_arg10) (V c main_arg11) (V c main_arg12) (V c main_arg13) (((cfg2.win 11).blk t).view.emb (ix2 p z))
  rw [hemb]
  exact edge_block_entry (V c main_v138) (V c main_v145) (V c main_v146) (V c main_v147) (V c main_arg7) (V c main_arg8)
    (V c main_arg9) (V c main_arg10) (V c main_arg11) (V c main_arg12) (V c main_arg13)
    (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) t.val
    (fun p k r hr => edge_block_0 V c t p k r hr) (fun p k r hr => edge_block_1 V c t p k r hr)
    (edge_block_2 V c t) (edge_block_3 V c t) (edge_block_4 V c t) (edge_block_5 V c t) (edge_block_6 V c t)
    (edge_block_7 V c t) (edge_block_8 V c t) (edge_block_9 V c t) (edge_block_10 V c t)
    p z _ rfl

/-! ## The blocks cover the array -/

/-- An index of the result array is in point t's block iff each coordinate is in the block's range on its axis. -/
theorem edge_mem_blk (t : Fin cfg2.N) (i : S500000x1.Idx) :
    i ∈ ((cfg2.win 11).blk t).view.set ↔ ∀ a : Fin 2, win2_11.index t a * S4000x1.size a ≤ (i a).val
      ∧ (i a).val < win2_11.index t a * S4000x1.size a + S4000x1.size a := by
  show i ∈ ((View.whole main_v148).slice (win2_11.rect t)).set ↔ _
  rw [View.set_slice_whole, Rect.mem_set_unit]
  exact Iff.rfl

/-- Row r of the result lies in the block of point r / 4000, which is written back. -/
theorem edge_cover (i : S500000x1.Idx) :
    ∃ t : Fin cfg2.N, (cfg2.win 11).flush t = true ∧ i ∈ ((cfg2.win 11).blk t).view.set := by
  have hN : cfg2.N = 125 := N_2
  have hi0 : (i 0).val < 500000 := (i 0).isLt
  have hi1 : (i 1).val < 1 := (i 1).isLt
  let t : Fin cfg2.N := ⟨(i 0).val / 4000, by rw [hN]; omega⟩
  have htv : t.val = (i 0).val / 4000 := rfl
  obtain ⟨-, -, -, -, e0, e1⟩ := edge_index_facts t
  refine ⟨t, flush2_11 t, ?_⟩
  rw [edge_mem_blk]
  intro a
  match a with
  | ⟨0, _⟩ =>
    show win2_11.index t (0 : Fin 2) * 4000 ≤ (i 0).val ∧ (i 0).val < win2_11.index t (0 : Fin 2) * 4000 + 4000
    rw [e0, htv]; omega
  | ⟨1, _⟩ =>
    show win2_11.index t (1 : Fin 2) * 1 ≤ (i 1).val ∧ (i 1).val < win2_11.index t (1 : Fin 2) * 1 + 1
    rw [e1]; omega

/-! ## The array after the region -/

/-- THE RESULT ARRAY after the region's 125 points is the edge predictor, row by row, of the eleven arrays as the region
    found them. -/
theorem region2_value (V : (c : Dev nD) → (b : Ref sig .tc) → Buf (Elt Ideal) ((c : Thread nD τ).loc b)) (c : Dev nD) :
    (Cert.KernelIdeal.Gen.dat2 (F := Ideal) V c).arrAt 11 cfg2.N
      = mlpT (V c main_v138) (V c main_v145) (V c main_v146) (V c main_v147) (V c main_arg7) (V c main_arg8) (V c main_arg9)
          (V c main_arg10) (V c main_arg11) (V c main_arg12) (V c main_arg13) :=
  (dat2 (F := Ideal) V c).arrAt_eq_of_cover 11 _ (fun t _ => edge_flushed V c t) edge_cover

end Cert.Bridge

end
-- ==== Proof.KValue.lean ====
/-
  The idealized kernel's result buffer, read back through the run.

  The run's fold is read boundary by boundary. After the first stretch of host operations the buffers hold the
  edge-list stages and slab 0 of the weights; the first pipeline leaves the product `mmT` of the node features with
  that slab in its output array and touches nothing else that is read later; the second stretch turns it into the
  first layer's output and cuts slab 1; the second pipeline leaves the second product; the third stretch turns that
  into the second layer's output, gathers it at the sources and at the targets, and cuts the first predictor weight in
  two; the third pipeline leaves the edge predictor `mlpT` of these. An array no segment writes is carried through
  every boundary unchanged. Composed, the result buffer holds `resultK` of the fourteen argument arrays.
-/
import proofs.«163565_j59923383714097_2_alg».proof.Proof.Gen.KernelIdeal.Frame
import proofs.«163565_j59923383714097_2_alg».proof.Proof.KStage0
import proofs.«163565_j59923383714097_2_alg».proof.Proof.KStage1
import proofs.«163565_j59923383714097_2_alg».proof.Proof.KStage2
import proofs.«163565_j59923383714097_2_alg».proof.Proof.Compose
import proofs.«163565_j59923383714097_2_alg».proof.Proof.GcnRegion0
import proofs.«163565_j59923383714097_2_alg».proof.Proof.GcnRegion1
import proofs.«163565_j59923383714097_2_alg».proof.Proof.EdgeRegion

set_option maxRecDepth 16384

noncomputable section

namespace Cert.Bridge

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

theorem w3_v1 : W3 m ρ c (Proc.devRef .tc main_v1) = srcT (F := Ideal) (m ((c : Thread nD τ).loc main_arg0)) := k0_v1 (W0 m ρ c)
theorem w3_v3 : W3 m ρ c (Proc.devRef .tc main_v3) = dstT (F := Ideal) (m ((c : Thread nD τ).loc main_arg0)) := k0_v3 (W0 m ρ c)
theorem w3_v5 : W3 m ρ c (Proc.devRef .tc main_v5) = (srcLoopsT (F := Ideal) (srcT (F := Ideal) (m ((c : Thread nD τ).loc main_arg0)))) := k0_v5 (W0 m ρ c)
theorem w3_v6 : W3 m ρ c (Proc.devRef .tc main_v6) = (dstLoopsT (F := Ideal) (dstT (F := Ideal) (m ((c : Thread nD τ).loc main_arg0)))) := k0_v6 (W0 m ρ c)
theorem w3_v30 : W3 m ρ c (Proc.devRef .tc main_v30) = (coefT (F := Ideal) (srcLoopsT (F := Ideal) (srcT (F := Ideal) (m ((c : Thread nD τ).loc main_arg0)))) (dstLoopsT (F := Ideal) (dstT (F := Ideal) (m ((c : Thread nD τ).loc main_arg0))))) := k0_v30 (W0 m ρ c)
theorem w3_v32 : W3 m ρ c (Proc.devRef .tc main_v32) = ws0T (F := Ideal) (m ((c : Thread nD τ).loc main_arg2)) := k0_v32 (W0 m ρ c)
theorem w3_arg1 : W3 m ρ c (Proc.devRef .tc main_arg1) = (m ((c : Thread nD τ).loc main_arg1)) := k0_arg1 (W0 m ρ c)
theorem w3_arg2 : W3 m ρ c (Proc.devRef .tc main_arg2) = (m ((c : Thread nD τ).loc main_arg2)) := k0_arg2 (W0 m ρ c)
theorem w3_arg3 : W3 m ρ c (Proc.devRef .tc main_arg3) = (m ((c : Thread nD τ).loc main_arg3)) := k0_arg3 (W0 m ρ c)
theorem w3_arg4 : W3 m ρ c (Proc.devRef .tc main_arg4) = (m ((c : Thread nD τ).loc main_arg4)) := k0_arg4 (W0 m ρ c)
theorem w3_arg5 : W3 m ρ c (Proc.devRef .tc main_arg5) = (m ((c : Thread nD τ).loc main_arg5)) := k0_arg5 (W0 m ρ c)
theorem w3_arg6 : W3 m ρ c (Proc.devRef .tc main_arg6) = (m ((c : Thread nD τ).loc main_arg6)) := k0_arg6 (W0 m ρ c)
theorem w3_arg7 : W3 m ρ c (Proc.devRef .tc main_arg7) = (m ((c : Thread nD τ).loc main_arg7)) := k0_arg7 (W0 m ρ c)
theorem w3_arg8 : W3 m ρ c (Proc.devRef .tc main_arg8) = (m ((c : Thread nD τ).loc main_arg8)) := k0_arg8 (W0 m ρ c)
theorem w3_arg9 : W3 m ρ c (Proc.devRef .tc main_arg9) = (m ((c : Thread nD τ).loc main_arg9)) := k0_arg9 (W0 m ρ c)
theorem w3_arg10 : W3 m ρ c (Proc.devRef .tc main_arg10) = (m ((c : Thread nD τ).loc main_arg10)) := k0_arg10 (W0 m ρ c)
theorem w3_arg11 : W3 m ρ c (Proc.devRef .tc main_arg11) = (m ((c : Thread nD τ).loc main_arg11)) := k0_arg11 (W0 m ρ c)
theorem w3_arg12 : W3 m ρ c (Proc.devRef .tc main_arg12) = (m ((c : Thread nD τ).loc main_arg12)) := k0_arg12 (W0 m ρ c)
theorem w3_arg13 : W3 m ρ c (Proc.devRef .tc main_arg13) = (m ((c : Thread nD τ).loc main_arg13)) := k0_arg13 (W0 m ρ c)

theorem w4_v33 : W4 m ρ c (Proc.devRef .tc main_v33) = (mmT (m ((c : Thread nD τ).loc main_arg1)) (ws0T (F := Ideal) (m ((c : Thread nD τ).loc main_arg2)))) := by
  refine (W4_arr m ρ c 2).trans ?_
  rw [region0_value (V3 m ρ) c]
  show mmT (W3 m ρ c (Proc.devRef .tc main_arg1)) (W3 m ρ c (Proc.devRef .tc main_v32)) = _
  rw [w3_arg1, w3_v32]
theorem w4_v1 : W4 m ρ c (Proc.devRef .tc main_v1) = srcT (F := Ideal) (m ((c : Thread nD τ).loc main_arg0)) := (W4_of_ne m ρ c main_v1 (by decide)).trans (w3_v1 m ρ c)
theorem w4_v3 : W4 m ρ c (Proc.devRef .tc main_v3) = dstT (F := Ideal) (m ((c : Thread nD τ).loc main_arg0)) := (W4_of_ne m ρ c main_v3 (by decide)).trans (w3_v3 m ρ c)
theorem w4_v5 : W4 m ρ c (Proc.devRef .tc main_v5) = (srcLoopsT (F := Ideal) (srcT (F := Ideal) (m ((c : Thread nD τ).loc main_arg0)))) := (W4_of_ne m ρ c main_v5 (by decide)).trans (w3_v5 m ρ c)
theorem w4_v6 : W4 m ρ c (Proc.devRef .tc main_v6) = (dstLoopsT (F := Ideal) (dstT (F := Ideal) (m ((c : Thread nD τ).loc main_arg0)))) := (W4_of_ne m ρ c main_v6 (by decide)).trans (w3_v6 m ρ c)
theorem w4_v30 : W4 m ρ c (Proc.devRef .tc main_v30) = (coefT (F := Ideal) (srcLoopsT (F := Ideal) (srcT (F := Ideal) (m ((c : Thread nD τ).loc main_arg0)))) (dstLoopsT (F := Ideal) (dstT (F := Ideal) (m ((c : Thread nD τ).loc main_arg0))))) := (W4_of_ne m ρ c main_v30 (by decide)).trans (w3_v30 m ρ c)
theorem w4_arg2 : W4 m ρ c (Proc.devRef .tc main_arg2) = (m ((c : Thread nD τ).loc main_arg2)) := (W4_of_ne m ρ c main_arg2 (by decide)).trans (w3_arg2 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)

theorem w7_v80 : W7 m ρ c (Proc.devRef .tc main_v80) = (layer0T (F := Ideal) (mmT (m ((c : Thread nD τ).loc main_arg1)) (ws0T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) := by
  refine (k1_v80 (W4 m ρ c)).trans ?_
  rw [w4_v33, w4_v5, w4_v6, w4_v30, w4_arg3, w4_arg4, w4_arg5]
theorem w7_v82 : W7 m ρ c (Proc.devRef .tc main_v82) = ws1T (F := Ideal) (m ((c : Thread nD τ).loc main_arg2)) := by
  refine (k1_v82 (W4 m ρ c)).trans ?_
  rw [w4_arg2]
theorem w7_v1 : W7 m ρ c (Proc.devRef .tc main_v1) = srcT (F := Ideal) (m ((c : Thread nD τ).loc main_arg0)) := (k1_v1 (W4 m ρ c)).trans (w4_v1 m ρ c)
theorem w7_v3 : W7 m ρ c (Proc.devRef .tc main_v3) = dstT (F := Ideal) (m ((c : Thread nD τ).loc main_arg0)) := (k1_v3 (W4 m ρ c)).trans (w4_v3 m ρ c)
theorem w7_v5 : W7 m ρ c (Proc.devRef .tc main_v5) = (srcLoopsT (F := Ideal) (srcT (F := Ideal) (m ((c : Thread nD τ).loc main_arg0)))) := (k1_v5 (W4 m ρ c)).trans (w4_v5 m ρ c)
theorem w7_v6 : W7 m ρ c (Proc.devRef .tc main_v6) = (dstLoopsT (F := Ideal) (dstT (F := Ideal) (m ((c : Thread nD τ).loc main_arg0)))) := (k1_v6 (W4 m ρ c)).trans (w4_v6 m ρ c)
theorem w7_v30 : W7 m ρ c (Proc.devRef .tc main_v30) = (coefT (F := Ideal) (srcLoopsT (F := Ideal) (srcT (F := Ideal) (m ((c : Thread nD τ).loc main_arg0)))) (dstLoopsT (F := Ideal) (dstT (F := Ideal) (m ((c : Thread nD τ).loc main_arg0))))) := (k1_v30 (W4 m ρ c)).trans (w4_v30 m ρ c)
theorem w7_arg3 : W7 m ρ c (Proc.devRef .tc main_arg3) = (m ((c : Thread nD τ).loc main_arg3)) := (k1_arg3 (W4 m ρ c)).trans (w4_arg3 m ρ c)
theorem w7_arg4 : W7 m ρ c (Proc.devRef .tc main_arg4) = (m ((c : Thread nD τ).loc main_arg4)) := (k1_arg4 (W4 m ρ c)).trans (w4_arg4 m ρ c)
theorem w7_arg5 : W7 m ρ c (Proc.devRef .tc main_arg5) = (m ((c : Thread nD τ).loc main_arg5)) := (k1_arg5 (W4 m ρ c)).trans (w4_arg5 m ρ c)
theorem w7_arg6 : W7 m ρ c (Proc.devRef .tc main_arg6) = (m ((c : Thread nD τ).loc main_arg6)) := (k1_arg6 (W4 m ρ c)).trans (w4_arg6 m ρ c)
theorem w7_arg7 : W7 m ρ c (Proc.devRef .tc main_arg7) = (m ((c : Thread nD τ).loc main_arg7)) := (k1_arg7 (W4 m ρ c)).trans (w4_arg7 m ρ c)
theorem w7_arg8 : W7 m ρ c (Proc.devRef .tc main_arg8) = (m ((c : Thread nD τ).loc main_arg8)) := (k1_arg8 (W4 m ρ c)).trans (w4_arg8 m ρ c)
theorem w7_arg9 : W7 m ρ c (Proc.devRef .tc main_arg9) = (m ((c : Thread nD τ).loc main_arg9)) := (k1_arg9 (W4 m ρ c)).trans (w4_arg9 m ρ c)
theorem w7_arg10 : W7 m ρ c (Proc.devRef .tc main_arg10) = (m ((c : Thread nD τ).loc main_arg10)) := (k1_arg10 (W4 m ρ c)).trans (w4_arg10 m ρ c)
theorem w7_arg11 : W7 m ρ c (Proc.devRef .tc main_arg11) = (m ((c : Thread nD τ).loc main_arg11)) := (k1_arg11 (W4 m ρ c)).trans (w4_arg11 m ρ c)
theorem w7_arg12 : W7 m ρ c (Proc.devRef .tc main_arg12) = (m ((c : Thread nD τ).loc main_arg12)) := (k1_arg12 (W4 m ρ c)).trans (w4_arg12 m ρ c)
theorem w7_arg13 : W7 m ρ c (Proc.devRef .tc main_arg13) = (m ((c : Thread nD τ).loc main_arg13)) := (k1_arg13 (W4 m ρ c)).trans (w4_arg13 m ρ c)

theorem w8_v83 : W8 m ρ c (Proc.devRef .tc main_v83) = (mmT (layer0T (F := Ideal) (mmT (m ((c : Thread nD τ).loc main_arg1)) (ws0T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) (ws1T (F := Ideal) (m ((c : Thread nD τ).loc main_arg2)))) := by
  refine (W8_arr m ρ c 2).trans ?_
  rw [region1_value (V7 m ρ) c]
  show mmT (W7 m ρ c (Proc.devRef .tc main_v80)) (W7 m ρ c (Proc.devRef .tc main_v82)) = _
  rw [w7_v80, w7_v82]
theorem w8_v1 : W8 m ρ c (Proc.devRef .tc main_v1) = srcT (F := Ideal) (m ((c : Thread nD τ).loc main_arg0)) := (W8_of_ne m ρ c main_v1 (by decide)).trans (w7_v1 m ρ c)
theorem w8_v3 : W8 m ρ c (Proc.devRef .tc main_v3) = dstT (F := Ideal) (m ((c : Thread nD τ).loc main_arg0)) := (W8_of_ne m ρ c main_v3 (by decide)).trans (w7_v3 m ρ c)
theorem w8_v5 : W8 m ρ c (Proc.devRef .tc main_v5) = (srcLoopsT (F := Ideal) (srcT (F := Ideal) (m ((c : Thread nD τ).loc main_arg0)))) := (W8_of_ne m ρ c main_v5 (by decide)).trans (w7_v5 m ρ c)
theorem w8_v6 : W8 m ρ c (Proc.devRef .tc main_v6) = (dstLoopsT (F := Ideal) (dstT (F := Ideal) (m ((c : Thread nD τ).loc main_arg0)))) := (W8_of_ne m ρ c main_v6 (by decide)).trans (w7_v6 m ρ c)
theorem w8_v30 : W8 m ρ c (Proc.devRef .tc main_v30) = (coefT (F := Ideal) (srcLoopsT (F := Ideal) (srcT (F := Ideal) (m ((c : Thread nD τ).loc main_arg0)))) (dstLoopsT (F := Ideal) (dstT (F := Ideal) (m ((c : Thread nD τ).loc main_arg0))))) := (W8_of_ne m ρ c main_v30 (by decide)).trans (w7_v30 m ρ c)
theorem w8_arg3 : W8 m ρ c (Proc.devRef .tc main_arg3) = (m ((c : Thread nD τ).loc main_arg3)) := (W8_of_ne m ρ c main_arg3 (by decide)).trans (w7_arg3 m ρ c)
theorem w8_arg4 : W8 m ρ c (Proc.devRef .tc main_arg4) = (m ((c : Thread nD τ).loc main_arg4)) := (W8_of_ne m ρ c main_arg4 (by decide)).trans (w7_arg4 m ρ c)
theorem w8_arg5 : W8 m ρ c (Proc.devRef .tc main_arg5) = (m ((c : Thread nD τ).loc main_arg5)) := (W8_of_ne m ρ c main_arg5 (by decide)).trans (w7_arg5 m ρ c)
theorem w8_arg6 : W8 m ρ c (Proc.devRef .tc main_arg6) = (m ((c : Thread nD τ).loc main_arg6)) := (W8_of_ne m ρ c main_arg6 (by decide)).trans (w7_arg6 m ρ c)
theorem w8_arg7 : W8 m ρ c (Proc.devRef .tc main_arg7) = (m ((c : Thread nD τ).loc main_arg7)) := (W8_of_ne m ρ c main_arg7 (by decide)).trans (w7_arg7 m ρ c)
theorem w8_arg8 : W8 m ρ c (Proc.devRef .tc main_arg8) = (m ((c : Thread nD τ).loc main_arg8)) := (W8_of_ne m ρ c main_arg8 (by decide)).trans (w7_arg8 m ρ c)
theorem w8_arg9 : W8 m ρ c (Proc.devRef .tc main_arg9) = (m ((c : Thread nD τ).loc main_arg9)) := (W8_of_ne m ρ c main_arg9 (by decide)).trans (w7_arg9 m ρ c)
theorem w8_arg10 : W8 m ρ c (Proc.devRef .tc main_arg10) = (m ((c : Thread nD τ).loc main_arg10)) := (W8_of_ne m ρ c main_arg10 (by decide)).trans (w7_arg10 m ρ c)
theorem w8_arg11 : W8 m ρ c (Proc.devRef .tc main_arg11) = (m ((c : Thread nD τ).loc main_arg11)) := (W8_of_ne m ρ c main_arg11 (by decide)).trans (w7_arg11 m ρ c)
theorem w8_arg12 : W8 m ρ c (Proc.devRef .tc main_arg12) = (m ((c : Thread nD τ).loc main_arg12)) := (W8_of_ne m ρ c main_arg12 (by decide)).trans (w7_arg12 m ρ c)
theorem w8_arg13 : W8 m ρ c (Proc.devRef .tc main_arg13) = (m ((c : Thread nD τ).loc main_arg13)) := (W8_of_ne m ρ c main_arg13 (by decide)).trans (w7_arg13 m ρ c)

theorem w11_v138 : W11 m ρ c (Proc.devRef .tc main_v138) = xsT (F := Ideal) (layer1T (F := Ideal) (mmT (layer0T (F := Ideal) (mmT (m ((c : Thread nD τ).loc main_arg1)) (ws0T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) (ws1T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) (srcT (F := Ideal) (m ((c : Thread nD τ).loc main_arg0))) := by
  refine (k2_v138 (W8 m ρ c)).trans ?_
  rw [w8_v83, w8_v5, w8_v6, w8_v30, w8_arg3, w8_arg4, w8_arg5, w8_v1]
theorem w11_v145 : W11 m ρ c (Proc.devRef .tc main_v145) = xdT (F := Ideal) (layer1T (F := Ideal) (mmT (layer0T (F := Ideal) (mmT (m ((c : Thread nD τ).loc main_arg1)) (ws0T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) (ws1T (F := Ideal) (m ((c : Thread nD τ).loc main_arg2)))) (srcLoopsT (F := Ideal) (srcT (F := Ideal) (m ((c : Thread nD τ).loc main_arg0)))) (dstLoopsT (F := Ideal) (dstT (F := Ideal) (m ((c : Thread nD τ).loc main_arg0)))) (coefT (F := Ideal) (srcLoopsT (F := Ideal) (srcT (F := Ideal) (m ((c : Thread nD τ).loc main_arg0)))) (dstLoopsT (F := Ideal) (dstT (F := Ideal) (m ((c : Thread nD τ).loc main_arg0))))) (m ((c : Thread nD τ).loc main_arg3)) (m ((c : Thread nD τ).loc main_arg4)) (m ((c : Thread nD τ).loc main_arg5))) (dstT (F := Ideal) (m ((c : Thread nD τ).loc main_arg0))) := by
  refine (k2_v145 (W8 m ρ c)).trans ?_
  rw [w8_v83, w8_v5, w8_v6, w8_v30, w8_arg3, w8_arg4, w8_arg5, w8_v3]
theorem w11_v146 : W11 m ρ c (Proc.devRef .tc main_v146) = w1aT (F := Ideal) (m ((c : Thread nD τ).loc main_arg6)) := by
  refine (k2_v146 (W8 m ρ c)).trans ?_
  rw [w8_arg6]
theorem w11_v147 : W11 m ρ c (Proc.devRef .tc main_v147) = w1bT (F := Ideal) (m ((c : Thread nD τ).loc main_arg6)) := by
  refine (k2_v147 (W8 m ρ c)).trans ?_
  rw [w8_arg6]
theorem w11_arg7 : W11 m ρ c (Proc.devRef .tc main_arg7) = (m ((c : Thread nD τ).loc main_arg7)) := (k2_arg7 (W8 m ρ c)).trans (w8_arg7 m ρ c)
theorem w11_arg8 : W11 m ρ c (Proc.devRef .tc main_arg8) = (m ((c : Thread nD τ).loc main_arg8)) := (k2_arg8 (W8 m ρ c)).trans (w8_arg8 m ρ c)
theorem w11_arg9 : W11 m ρ c (Proc.devRef .tc main_arg9) = (m ((c : Thread nD τ).loc main_arg9)) := (k2_arg9 (W8 m ρ c)).trans (w8_arg9 m ρ c)
theorem w11_arg10 : W11 m ρ c (Proc.devRef .tc main_arg10) = (m ((c : Thread nD τ).loc main_arg10)) := (k2_arg10 (W8 m ρ c)).trans (w8_arg10 m ρ c)
theorem w11_arg11 : W11 m ρ c (Proc.devRef .tc main_arg11) = (m ((c : Thread nD τ).loc main_arg11)) := (k2_arg11 (W8 m ρ c)).trans (w8_arg11 m ρ c)
theorem w11_arg12 : W11 m ρ c (Proc.devRef .tc main_arg12) = (m ((c : Thread nD τ).loc main_arg12)) := (k2_arg12 (W8 m ρ c)).trans (w8_arg12 m ρ c)
theorem w11_arg13 : W11 m ρ c (Proc.devRef .tc main_arg13) = (m ((c : Thread nD τ).loc main_arg13)) := (k2_arg13 (W8 m ρ c)).trans (w8_arg13 m ρ c)

/-- The result buffer after the whole run: the edge predictor on the two-layer node features of the argument arrays. -/
theorem kernel_value : W12 m ρ c (Proc.devRef .tc main_v148)
    = resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W12_arr m ρ c 11).trans ?_
  rw [region2_value (V11 m ρ) c]
  show mlpT (W11 m ρ c (Proc.devRef .tc main_v138)) (W11 m ρ c (Proc.devRef .tc main_v145)) (W11 m ρ c (Proc.devRef .tc main_v146)) (W11 m ρ c (Proc.devRef .tc main_v147)) (W11 m ρ c (Proc.devRef .tc main_arg7)) (W11 m ρ c (Proc.devRef .tc main_arg8)) (W11 m ρ c (Proc.devRef .tc main_arg9)) (W11 m ρ c (Proc.devRef .tc main_arg10)) (W11 m ρ c (Proc.devRef .tc main_arg11)) (W11 m ρ c (Proc.devRef .tc main_arg12)) (W11 m ρ c (Proc.devRef .tc main_arg13)) = _
  rw [w11_v138, w11_v145, w11_v146, w11_v147, w11_arg7, w11_arg8, w11_arg9, w11_arg10, w11_arg11, w11_arg12, w11_arg13]
  rfl

end Cert.Bridge

end
-- ==== Proof.RefOpsSplit.lean ====
/-
  The reference's 205 host operations cut into six consecutive runs, in order: the two endpoint vectors of the edge
  list with the node indices; the self-loops, the normalisation coefficients, slab 0 of the weights and the first host
  product; the first layer, slab 1 and the second host product; the second layer; the two gathers of the node features;
  the edge predictor. The cuts fall where a later run reads only finished buffers, and where a concatenation's
  operands are buffers of an earlier run.
-/
import proofs.«163565_j59923383714097_2_alg».proof.Proof.RefRun

set_option maxRecDepth 16384

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Operations 1 … 5: the two endpoint vectors of the edge list and the node indices 0 … 49999. -/
abbrev rc1a : List (HloOp τ sig (Elt F)) :=
  [ unary main_arg0 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg0 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_v4 (iotaInDim S50000 32 0) ]

/-- Operations 6 … 44: the endpoints with self-loops, the normalisation coefficients, slab 0 of the weights and the first host product. -/
abbrev rc1b : List (HloOp τ sig (Elt F)) :=
  [ binary main_v1 main_v4 main_v5 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    binary main_v3 main_v4 main_v6 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    nullary main_cst (constant S_ .f32 0x3F800000#32),
    unary main_cst main_v7 (broadcastInDim S550000 ![] bcast_S_S550000 : (⟨S_, .f32⟩ : BufTy).Contents (Elt F) → (⟨S550000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S550000x1 ![0] bcast_S550000_S550000x1_0 : (⟨S550000, .i32⟩ : BufTy).Contents (Elt F) → (⟨S550000x1, .i32⟩ : BufTy).Contents (Elt F)),
    ternary main_v8 main_v9 main_v7 main_v10 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S550000 ![] bcast_S_S550000 : (⟨S_, .i32⟩ : BufTy).Contents (Elt F) → (⟨S550000, .i32⟩ : BufTy).Contents (Elt F)),
    binary main_v5 main_v15 main_v16 (cmpi .slt : (⟨S550000, .i32⟩ : BufTy).Contents (Elt F) → (⟨S550000, .i32⟩ : BufTy).Contents (Elt F) → (⟨S550000, .i1⟩ : BufTy).Contents (Elt F)),
    nullary main_c_3 (constantI S_ 32 50000#32),
    unary main_c_3 main_v17 (broadcastInDim S550000 ![] bcast_S_S550000 : (⟨S_, .i32⟩ : BufTy).Contents (Elt F) → (⟨S550000, .i32⟩ : BufTy).Contents (Elt F)),
    binary main_v5 main_v17 main_v18 (addi : (⟨S550000, .i32⟩ : BufTy).Contents (Elt F) → (⟨S550000, .i32⟩ : BufTy).Contents (Elt F) → (⟨S550000, .i32⟩ : BufTy).Contents (Elt F)),
    ternary main_v16 main_v18 main_v5 main_v19 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v19 main_v20 (broadcastInDim S550000x1 ![0] bcast_S550000_S550000x1_0 : (⟨S550000, .i32⟩ : BufTy).Contents (Elt F) → (⟨S550000x1, .i32⟩ : BufTy).Contents (Elt F)),
    binary main_v14 main_v20 main_v21 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    nullary main_c_4 (constantI S_ 32 0#32),
    unary main_c_4 main_v22 (broadcastInDim S550000 ![] bcast_S_S550000 : (⟨S_, .i32⟩ : BufTy).Contents (Elt F) → (⟨S550000, .i32⟩ : BufTy).Contents (Elt F)),
    binary main_v6 main_v22 main_v23 (cmpi .slt : (⟨S550000, .i32⟩ : BufTy).Contents (Elt F) → (⟨S550000, .i32⟩ : BufTy).Contents (Elt F) → (⟨S550000, .i1⟩ : BufTy).Contents (Elt F)),
    nullary main_c_5 (constantI S_ 32 50000#32),
    unary main_c_5 main_v24 (broadcastInDim S550000 ![] bcast_S_S550000 : (⟨S_, .i32⟩ : BufTy).Contents (Elt F) → (⟨S550000, .i32⟩ : BufTy).Contents (Elt F)),
    binary main_v6 main_v24 main_v25 (addi : (⟨S550000, .i32⟩ : BufTy).Contents (Elt F) → (⟨S550000, .i32⟩ : BufTy).Contents (Elt F) → (⟨S550000, .i32⟩ : BufTy).Contents (Elt F)),
    ternary main_v23 main_v25 main_v6 main_v26 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v26 main_v27 (broadcastInDim S550000x1 ![0] bcast_S550000_S550000x1_0 : (⟨S550000, .i32⟩ : BufTy).Contents (Elt F) → (⟨S550000x1, .i32⟩ : BufTy).Contents (Elt F)),
    binary main_v14 main_v27 main_v28 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v21 main_v28 main_v29 (mulf : (⟨S550000, .f32⟩ : BufTy).Contents (Elt F) → (⟨S550000, .f32⟩ : BufTy).Contents (Elt F) → (⟨S550000, .f32⟩ : BufTy).Contents (Elt F)),
    unary main_v29 main_v30 (broadcastInDim S550000x1 ![0] bcast_S550000_S550000x1_0 : (⟨S550000, .f32⟩ : BufTy).Contents (Elt F) → (⟨S550000x1, .f32⟩ : BufTy).Contents (Elt F)),
    unary main_arg2 main_v31 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v31 main_v32 rfl shapeCasts_S1x256x256_S256x256,
    binary main_arg1 main_v32 main_v33 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 45 … 104: the first layer after its product, slab 1 of the weights and the second host product. -/
abbrev rc2 : List (HloOp τ sig (Elt F)) :=
  [ nullary main_c_6 (constantI S_ 32 0#32),
    unary main_c_6 main_v34 (broadcastInDim S550000 ![] bcast_S_S550000 : (⟨S_, .i32⟩ : BufTy).Contents (Elt F) → (⟨S550000, .i32⟩ : BufTy).Contents (Elt F)),
    binary main_v5 main_v34 main_v35 (cmpi .slt : (⟨S550000, .i32⟩ : BufTy).Contents (Elt F) → (⟨S550000, .i32⟩ : BufTy).Contents (Elt F) → (⟨S550000, .i1⟩ : BufTy).Contents (Elt F)),
    nullary main_c_7 (constantI S_ 32 50000#32),
    unary main_c_7 main_v36 (broadcastInDim S550000 ![] bcast_S_S550000 : (⟨S_, .i32⟩ : BufTy).Contents (Elt F) → (⟨S550000, .i32⟩ : BufTy).Contents (Elt F)),
    binary main_v5 main_v36 main_v37 (addi : (⟨S550000, .i32⟩ : BufTy).Contents (Elt F) → (⟨S550000, .i32⟩ : BufTy).Contents (Elt F) → (⟨S550000, .i32⟩ : BufTy).Contents (Elt F)),
    ternary main_v35 main_v37 main_v5 main_v38 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v38 main_v39 (broadcastInDim S550000x1 ![0] bcast_S550000_S550000x1_0 : (⟨S550000, .i32⟩ : BufTy).Contents (Elt F) → (⟨S550000x1, .i32⟩ : BufTy).Contents (Elt F)),
    binary main_v33 main_v39 main_v40 ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)),
    unary main_v30 main_v41 (broadcastInDim S550000x256 ![0, 1] bcast_S550000x1_S550000x256_0_1 : (⟨S550000x1, .f32⟩ : BufTy).Contents (Elt F) → (⟨S550000x256, .f32⟩ : BufTy).Contents (Elt F)),
    binary main_v40 main_v41 main_v42 (mulf : (⟨S550000x256, .f32⟩ : BufTy).Contents (Elt F) → (⟨S550000x256, .f32⟩ : BufTy).Contents (Elt F) → (⟨S550000x256, .f32⟩ : BufTy).Contents (Elt F)),
    nullary main_cst_8 (constant S_ .f32 0x00000000#32),
    unary main_cst_8 main_v43 (broadcastInDim S50000x256 ![] bcast_S_S50000x256 : (⟨S_, .f32⟩ : BufTy).Contents (Elt F) → (⟨S50000x256, .f32⟩ : BufTy).Contents (Elt F)),
    unary main_v6 main_v44 (broadcastInDim S550000x1 ![0] bcast_S550000_S550000x1_0 : (⟨S550000, .i32⟩ : BufTy).Contents (Elt F) → (⟨S550000x1, .i32⟩ : BufTy).Contents (Elt F)),
    ternary main_v43 main_v44 main_v42 main_v45 ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)),
    unary main_arg3 main_v46 ((extractStridedSlice S1x256 ![0, 0] · slices_S2x256_S1x256_0_0) : (⟨S2x256, .f32⟩ : BufTy).Contents (Elt F) → (⟨S1x256, .f32⟩ : BufTy).Contents (Elt F)),
    reshape main_v46 main_v47 rfl shapeCasts_S1x256_S256,
    unary main_v47 main_v48 (broadcastInDim S1x256 ![1] bcast_S256_S1x256_1 : (⟨S256, .f32⟩ : BufTy).Contents (Elt F) → (⟨S1x256, .f32⟩ : BufTy).Contents (Elt F)),
    unary main_v48 main_v49 (broadcastInDim S50000x256 ![0, 1] bcast_S1x256_S50000x256_0_1 : (⟨S1x256, .f32⟩ : BufTy).Contents (Elt F) → (⟨S50000x256, .f32⟩ : BufTy).Contents (Elt F)),
    binary main_v45 main_v49 main_v50 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x00000000#32),
    binary main_v50 main_cst_9 main_v51 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_10 (constant S_ .f32 0x47435000#32),
    unary main_cst_10 main_v52 (broadcastInDim S256 ![] bcast_S_S256 : (⟨S_, .f32⟩ : BufTy).Contents (Elt F) → (⟨S256, .f32⟩ : BufTy).Contents (Elt F)),
    binary main_v51 main_v52 main_v53 (Host.divf : (⟨S256, .f32⟩ : BufTy).Contents (Elt F) → (⟨S256, .f32⟩ : BufTy).Contents (Elt F) → (⟨S256, .f32⟩ : BufTy).Contents (Elt F)),
    unary main_v53 main_v54 (broadcastInDim S1x256 ![1] bcast_S256_S1x256_1 : (⟨S256, .f32⟩ : BufTy).Contents (Elt F) → (⟨S1x256, .f32⟩ : BufTy).Contents (Elt F)),
    unary main_v54 main_v55 (broadcastInDim S50000x256 ![0, 1] bcast_S1x256_S50000x256_0_1 : (⟨S1x256, .f32⟩ : BufTy).Contents (Elt F) → (⟨S50000x256, .f32⟩ : BufTy).Contents (Elt F)),
    binary main_v50 main_v55 main_v56 (subf : (⟨S50000x256, .f32⟩ : BufTy).Contents (Elt F) → (⟨S50000x256, .f32⟩ : BufTy).Contents (Elt F) → (⟨S50000x256, .f32⟩ : BufTy).Contents (Elt F)),
    binary main_v56 main_v56 main_v57 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x00000000#32),
    binary main_v57 main_cst_11 main_v58 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_12 (constant S_ .f32 0x47435000#32),
    unary main_cst_12 main_v59 (broadcastInDim S256 ![] bcast_S_S256 : (⟨S_, .f32⟩ : BufTy).Contents (Elt F) → (⟨S256, .f32⟩ : BufTy).Contents (Elt F)),
    binary main_v58 main_v59 main_v60 (Host.divf : (⟨S256, .f32⟩ : BufTy).Contents (Elt F) → (⟨S256, .f32⟩ : BufTy).Contents (Elt F) → (⟨S256, .f32⟩ : BufTy).Contents (Elt F)),
    unary main_v53 main_v61 (broadcastInDim S1x256 ![1] bcast_S256_S1x256_1 : (⟨S256, .f32⟩ : BufTy).Contents (Elt F) → (⟨S1x256, .f32⟩ : BufTy).Contents (Elt F)),
    unary main_v61 main_v62 (broadcastInDim S50000x256 ![0, 1] bcast_S1x256_S50000x256_0_1 : (⟨S1x256, .f32⟩ : BufTy).Contents (Elt F) → (⟨S50000x256, .f32⟩ : BufTy).Contents (Elt F)),
    binary main_v50 main_v62 main_v63 (subf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3727C5AC#32),
    unary main_cst_13 main_v64 (broadcastInDim S256 ![] bcast_S_S256 : (⟨S_, .f32⟩ : BufTy).Contents (Elt F) → (⟨S256, .f32⟩ : BufTy).Contents (Elt F)),
    binary main_v60 main_v64 main_v65 (addf : (⟨S256, .f32⟩ : BufTy).Contents (Elt F) → (⟨S256, .f32⟩ : BufTy).Contents (Elt F) → (⟨S256, .f32⟩ : BufTy).Contents (Elt F)),
    unary main_v65 main_v66 (Host.rsqrt : (⟨S256, .f32⟩ : BufTy).Contents (Elt F) → (⟨S256, .f32⟩ : BufTy).Contents (Elt F)),
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S50000x256 ![0, 1] bcast_S1x256_S50000x256_0_1 : (⟨S1x256, .f32⟩ : BufTy).Contents (Elt F) → (⟨S50000x256, .f32⟩ : BufTy).Contents (Elt F)),
    binary main_v63 main_v68 main_v69 (mulf : (⟨S50000x256, .f32⟩ : BufTy).Contents (Elt F) → (⟨S50000x256, .f32⟩ : BufTy).Contents (Elt F) → (⟨S50000x256, .f32⟩ : BufTy).Contents (Elt F)),
    unary main_arg4 main_v70 ((extractStridedSlice S1x256 ![0, 0] · slices_S2x256_S1x256_0_0) : (⟨S2x256, .f32⟩ : BufTy).Contents (Elt F) → (⟨S1x256, .f32⟩ : BufTy).Contents (Elt F)),
    reshape main_v70 main_v71 rfl shapeCasts_S1x256_S256,
    unary main_v71 main_v72 (broadcastInDim S1x256 ![1] bcast_S256_S1x256_1 : (⟨S256, .f32⟩ : BufTy).Contents (Elt F) → (⟨S1x256, .f32⟩ : BufTy).Contents (Elt F)),
    unary main_v72 main_v73 (broadcastInDim S50000x256 ![0, 1] bcast_S1x256_S50000x256_0_1 : (⟨S1x256, .f32⟩ : BufTy).Contents (Elt F) → (⟨S50000x256, .f32⟩ : BufTy).Contents (Elt F)),
    binary main_v69 main_v73 main_v74 (mulf : (⟨S50000x256, .f32⟩ : BufTy).Contents (Elt F) → (⟨S50000x256, .f32⟩ : BufTy).Contents (Elt F) → (⟨S50000x256, .f32⟩ : BufTy).Contents (Elt F)),
    unary main_arg5 main_v75 ((extractStridedSlice S1x256 ![0, 0] · slices_S2x256_S1x256_0_0) : (⟨S2x256, .f32⟩ : BufTy).Contents (Elt F) → (⟨S1x256, .f32⟩ : BufTy).Contents (Elt F)),
    reshape main_v75 main_v76 rfl shapeCasts_S1x256_S256,
    unary main_v76 main_v77 (broadcastInDim S1x256 ![1] bcast_S256_S1x256_1 : (⟨S256, .f32⟩ : BufTy).Contents (Elt F) → (⟨S1x256, .f32⟩ : BufTy).Contents (Elt F)),
    unary main_v77 main_v78 (broadcastInDim S50000x256 ![0, 1] bcast_S1x256_S50000x256_0_1 : (⟨S1x256, .f32⟩ : BufTy).Contents (Elt F) → (⟨S50000x256, .f32⟩ : BufTy).Contents (Elt F)),
    binary main_v74 main_v78 main_v79 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v79) (TRef.of (T := ⟨S50000x256, .f32⟩) main_call1_v0) (TRef.of (T := ⟨S50000x256, .f32⟩) main_v80) maximumf,
    unary main_arg2 main_v81 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v81 main_v82 rfl shapeCasts_S1x256x256_S256x256,
    binary main_v80 main_v82 main_v83 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 105 … 161: the second layer after its product. -/
abbrev rc3 : List (HloOp τ sig (Elt F)) :=
  [ nullary main_c_14 (constantI S_ 32 0#32),
    unary main_c_14 main_v84 (broadcastInDim S550000 ![] bcast_S_S550000 : (⟨S_, .i32⟩ : BufTy).Contents (Elt F) → (⟨S550000, .i32⟩ : BufTy).Contents (Elt F)),
    binary main_v5 main_v84 main_v85 (cmpi .slt : (⟨S550000, .i32⟩ : BufTy).Contents (Elt F) → (⟨S550000, .i32⟩ : BufTy).Contents (Elt F) → (⟨S550000, .i1⟩ : BufTy).Contents (Elt F)),
    nullary main_c_15 (constantI S_ 32 50000#32),
    unary main_c_15 main_v86 (broadcastInDim S550000 ![] bcast_S_S550000 : (⟨S_, .i32⟩ : BufTy).Contents (Elt F) → (⟨S550000, .i32⟩ : BufTy).Contents (Elt F)),
    binary main_v5 main_v86 main_v87 (addi : (⟨S550000, .i32⟩ : BufTy).Contents (Elt F) → (⟨S550000, .i32⟩ : BufTy).Contents (Elt F) → (⟨S550000, .i32⟩ : BufTy).Contents (Elt F)),
    ternary main_v85 main_v87 main_v5 main_v88 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v88 main_v89 (broadcastInDim S550000x1 ![0] bcast_S550000_S550000x1_0 : (⟨S550000, .i32⟩ : BufTy).Contents (Elt F) → (⟨S550000x1, .i32⟩ : BufTy).Contents (Elt F)),
    binary main_v83 main_v89 main_v90 ((fun x i => Host.gather gather_S50000x256_S550000x1_S550000x256_1_0_n_n_0_1_1256 x i) : (⟨S50000x256, .f32⟩ : BufTy).Contents (Elt F) → (⟨S550000x1, .i32⟩ : BufTy).Contents (Elt F) → (⟨S550000x256, .f32⟩ : BufTy).Contents (Elt F)),
    unary main_v30 main_v91 (broadcastInDim S550000x256 ![0, 1] bcast_S550000x1_S550000x256_0_1 : (⟨S550000x1, .f32⟩ : BufTy).Contents (Elt F) → (⟨S550000x256, .f32⟩ : BufTy).Contents (Elt F)),
    binary main_v90 main_v91 main_v92 (mulf : (⟨S550000x256, .f32⟩ : BufTy).Contents (Elt F) → (⟨S550000x256, .f32⟩ : BufTy).Contents (Elt F) → (⟨S550000x256, .f32⟩ : BufTy).Contents (Elt F)),
    nullary main_cst_16 (constant S_ .f32 0x00000000#32),
    unary main_cst_16 main_v93 (broadcastInDim S50000x256 ![] bcast_S_S50000x256 : (⟨S_, .f32⟩ : BufTy).Contents (Elt F) → (⟨S50000x256, .f32⟩ : BufTy).Contents (Elt F)),
    unary main_v6 main_v94 (broadcastInDim S550000x1 ![0] bcast_S550000_S550000x1_0 : (⟨S550000, .i32⟩ : BufTy).Contents (Elt F) → (⟨S550000x1, .i32⟩ : BufTy).Contents (Elt F)),
    ternary main_v93 main_v94 main_v92 main_v95 ((fun x i u => Host.scatterAdd scatter_S50000x256_S550000x1_S550000x256_1_0_0_1 x i u) : (⟨S50000x256, .f32⟩ : BufTy).Contents (Elt F) → (⟨S550000x1, .i32⟩ : BufTy).Contents (Elt F) → (⟨S550000x256, .f32⟩ : BufTy).Contents (Elt F) → (⟨S50000x256, .f32⟩ : BufTy).Contents (Elt F)),
    unary main_arg3 main_v96 ((extractStridedSlice S1x256 ![1, 0] · slices_S2x256_S1x256_1_0) : (⟨S2x256, .f32⟩ : BufTy).Contents (Elt F) → (⟨S1x256, .f32⟩ : BufTy).Contents (Elt F)),
    reshape main_v96 main_v97 rfl shapeCasts_S1x256_S256,
    unary main_v97 main_v98 (broadcastInDim S1x256 ![1] bcast_S256_S1x256_1 : (⟨S256, .f32⟩ : BufTy).Contents (Elt F) → (⟨S1x256, .f32⟩ : BufTy).Contents (Elt F)),
    unary main_v98 main_v99 (broadcastInDim S50000x256 ![0, 1] bcast_S1x256_S50000x256_0_1 : (⟨S1x256, .f32⟩ : BufTy).Contents (Elt F) → (⟨S50000x256, .f32⟩ : BufTy).Contents (Elt F)),
    binary main_v95 main_v99 main_v100 (addf : (⟨S50000x256, .f32⟩ : BufTy).Contents (Elt F) → (⟨S50000x256, .f32⟩ : BufTy).Contents (Elt F) → (⟨S50000x256, .f32⟩ : BufTy).Contents (Elt F)),
    nullary main_cst_17 (constant S_ .f32 0x00000000#32),
    binary main_v100 main_cst_17 main_v101 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_18 (constant S_ .f32 0x47435000#32),
    unary main_cst_18 main_v102 (broadcastInDim S256 ![] bcast_S_S256 : (⟨S_, .f32⟩ : BufTy).Contents (Elt F) → (⟨S256, .f32⟩ : BufTy).Contents (Elt F)),
    binary main_v101 main_v102 main_v103 (Host.divf : (⟨S256, .f32⟩ : BufTy).Contents (Elt F) → (⟨S256, .f32⟩ : BufTy).Contents (Elt F) → (⟨S256, .f32⟩ : BufTy).Contents (Elt F)),
    unary main_v103 main_v104 (broadcastInDim S1x256 ![1] bcast_S256_S1x256_1 : (⟨S256, .f32⟩ : BufTy).Contents (Elt F) → (⟨S1x256, .f32⟩ : BufTy).Contents (Elt F)),
    unary main_v104 main_v105 (broadcastInDim S50000x256 ![0, 1] bcast_S1x256_S50000x256_0_1 : (⟨S1x256, .f32⟩ : BufTy).Contents (Elt F) → (⟨S50000x256, .f32⟩ : BufTy).Contents (Elt F)),
    binary main_v100 main_v105 main_v106 (subf : (⟨S50000x256, .f32⟩ : BufTy).Contents (Elt F) → (⟨S50000x256, .f32⟩ : BufTy).Contents (Elt F) → (⟨S50000x256, .f32⟩ : BufTy).Contents (Elt F)),
    binary main_v106 main_v106 main_v107 (mulf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x00000000#32),
    binary main_v107 main_cst_19 main_v108 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_20 (constant S_ .f32 0x47435000#32),
    unary main_cst_20 main_v109 (broadcastInDim S256 ![] bcast_S_S256 : (⟨S_, .f32⟩ : BufTy).Contents (Elt F) → (⟨S256, .f32⟩ : BufTy).Contents (Elt F)),
    binary main_v108 main_v109 main_v110 (Host.divf : (⟨S256, .f32⟩ : BufTy).Contents (Elt F) → (⟨S256, .f32⟩ : BufTy).Contents (Elt F) → (⟨S256, .f32⟩ : BufTy).Contents (Elt F)),
    unary main_v103 main_v111 (broadcastInDim S1x256 ![1] bcast_S256_S1x256_1 : (⟨S256, .f32⟩ : BufTy).Contents (Elt F) → (⟨S1x256, .f32⟩ : BufTy).Contents (Elt F)),
    unary main_v111 main_v112 (broadcastInDim S50000x256 ![0, 1] bcast_S1x256_S50000x256_0_1 : (⟨S1x256, .f32⟩ : BufTy).Contents (Elt F) → (⟨S50000x256, .f32⟩ : BufTy).Contents (Elt F)),
    binary main_v100 main_v112 main_v113 (subf : (⟨S50000x256, .f32⟩ : BufTy).Contents (Elt F) → (⟨S50000x256, .f32⟩ : BufTy).Contents (Elt F) → (⟨S50000x256, .f32⟩ : BufTy).Contents (Elt F)),
    nullary main_cst_21 (constant S_ .f32 0x3727C5AC#32),
    unary main_cst_21 main_v114 (broadcastInDim S256 ![] bcast_S_S256 : (⟨S_, .f32⟩ : BufTy).Contents (Elt F) → (⟨S256, .f32⟩ : BufTy).Contents (Elt F)),
    binary main_v110 main_v114 main_v115 (addf : (⟨S256, .f32⟩ : BufTy).Contents (Elt F) → (⟨S256, .f32⟩ : BufTy).Contents (Elt F) → (⟨S256, .f32⟩ : BufTy).Contents (Elt F)),
    unary main_v115 main_v116 (Host.rsqrt : (⟨S256, .f32⟩ : BufTy).Contents (Elt F) → (⟨S256, .f32⟩ : BufTy).Contents (Elt F)),
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S50000x256 ![0, 1] bcast_S1x256_S50000x256_0_1 : (⟨S1x256, .f32⟩ : BufTy).Contents (Elt F) → (⟨S50000x256, .f32⟩ : BufTy).Contents (Elt F)),
    binary main_v113 main_v118 main_v119 (mulf : (⟨S50000x256, .f32⟩ : BufTy).Contents (Elt F) → (⟨S50000x256, .f32⟩ : BufTy).Contents (Elt F) → (⟨S50000x256, .f32⟩ : BufTy).Contents (Elt F)),
    unary main_arg4 main_v120 ((extractStridedSlice S1x256 ![1, 0] · slices_S2x256_S1x256_1_0) : (⟨S2x256, .f32⟩ : BufTy).Contents (Elt F) → (⟨S1x256, .f32⟩ : BufTy).Contents (Elt F)),
    reshape main_v120 main_v121 rfl shapeCasts_S1x256_S256,
    unary main_v121 main_v122 (broadcastInDim S1x256 ![1] bcast_S256_S1x256_1 : (⟨S256, .f32⟩ : BufTy).Contents (Elt F) → (⟨S1x256, .f32⟩ : BufTy).Contents (Elt F)),
    unary main_v122 main_v123 (broadcastInDim S50000x256 ![0, 1] bcast_S1x256_S50000x256_0_1 : (⟨S1x256, .f32⟩ : BufTy).Contents (Elt F) → (⟨S50000x256, .f32⟩ : BufTy).Contents (Elt F)),
    binary main_v119 main_v123 main_v124 (mulf : (⟨S50000x256, .f32⟩ : BufTy).Contents (Elt F) → (⟨S50000x256, .f32⟩ : BufTy).Contents (Elt F) → (⟨S50000x256, .f32⟩ : BufTy).Contents (Elt F)),
    unary main_arg5 main_v125 ((extractStridedSlice S1x256 ![1, 0] · slices_S2x256_S1x256_1_0) : (⟨S2x256, .f32⟩ : BufTy).Contents (Elt F) → (⟨S1x256, .f32⟩ : BufTy).Contents (Elt F)),
    reshape main_v125 main_v126 rfl shapeCasts_S1x256_S256,
    unary main_v126 main_v127 (broadcastInDim S1x256 ![1] bcast_S256_S1x256_1 : (⟨S256, .f32⟩ : BufTy).Contents (Elt F) → (⟨S1x256, .f32⟩ : BufTy).Contents (Elt F)),
    unary main_v127 main_v128 (broadcastInDim S50000x256 ![0, 1] bcast_S1x256_S50000x256_0_1 : (⟨S1x256, .f32⟩ : BufTy).Contents (Elt F) → (⟨S50000x256, .f32⟩ : BufTy).Contents (Elt F)),
    binary main_v124 main_v128 main_v129 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v129) (TRef.of (T := ⟨S50000x256, .f32⟩) main_call2_v0) (TRef.of (T := ⟨S50000x256, .f32⟩) main_v130) maximumf ]

/-- Operations 162 … 179: the node features gathered at the sources and at the targets. -/
abbrev rc4a : List (HloOp τ sig (Elt F)) :=
  [ nullary main_c_22 (constantI S_ 32 0#32),
    unary main_c_22 main_v131 (broadcastInDim S500000 ![] bcast_S_S500000 : (⟨S_, .i32⟩ : BufTy).Contents (Elt F) → (⟨S500000, .i32⟩ : BufTy).Contents (Elt F)),
    binary main_v1 main_v131 main_v132 (cmpi .slt : (⟨S500000, .i32⟩ : BufTy).Contents (Elt F) → (⟨S500000, .i32⟩ : BufTy).Contents (Elt F) → (⟨S500000, .i1⟩ : BufTy).Contents (Elt F)),
    nullary main_c_23 (constantI S_ 32 50000#32),
    unary main_c_23 main_v133 (broadcastInDim S500000 ![] bcast_S_S500000 : (⟨S_, .i32⟩ : BufTy).Contents (Elt F) → (⟨S500000, .i32⟩ : BufTy).Contents (Elt F)),
    binary main_v1 main_v133 main_v134 (addi : (⟨S500000, .i32⟩ : BufTy).Contents (Elt F) → (⟨S500000, .i32⟩ : BufTy).Contents (Elt F) → (⟨S500000, .i32⟩ : BufTy).Contents (Elt F)),
    ternary main_v132 main_v134 main_v1 main_v135 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v135 main_v136 (broadcastInDim S500000x1 ![0] bcast_S500000_S500000x1_0 : (⟨S500000, .i32⟩ : BufTy).Contents (Elt F) → (⟨S500000x1, .i32⟩ : BufTy).Contents (Elt F)),
    binary main_v130 main_v136 main_v137 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)),
    nullary main_c_24 (constantI S_ 32 0#32),
    unary main_c_24 main_v138 (broadcastInDim S500000 ![] bcast_S_S500000 : (⟨S_, .i32⟩ : BufTy).Contents (Elt F) → (⟨S500000, .i32⟩ : BufTy).Contents (Elt F)),
    binary main_v3 main_v138 main_v139 (cmpi .slt : (⟨S500000, .i32⟩ : BufTy).Contents (Elt F) → (⟨S500000, .i32⟩ : BufTy).Contents (Elt F) → (⟨S500000, .i1⟩ : BufTy).Contents (Elt F)),
    nullary main_c_25 (constantI S_ 32 50000#32),
    unary main_c_25 main_v140 (broadcastInDim S500000 ![] bcast_S_S500000 : (⟨S_, .i32⟩ : BufTy).Contents (Elt F) → (⟨S500000, .i32⟩ : BufTy).Contents (Elt F)),
    binary main_v3 main_v140 main_v141 (addi : (⟨S500000, .i32⟩ : BufTy).Contents (Elt F) → (⟨S500000, .i32⟩ : BufTy).Contents (Elt F) → (⟨S500000, .i32⟩ : BufTy).Contents (Elt F)),
    ternary main_v139 main_v141 main_v3 main_v142 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v142 main_v143 (broadcastInDim S500000x1 ![0] bcast_S500000_S500000x1_0 : (⟨S500000, .i32⟩ : BufTy).Contents (Elt F) → (⟨S500000x1, .i32⟩ : BufTy).Contents (Elt F)),
    binary main_v130 main_v143 main_v144 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)) ]

/-- Operations 180 … 205: the edge predictor. -/
abbrev rc4b : List (HloOp τ sig (Elt F)) :=
  [ binary main_v137 main_v144 main_v145 ((fun a b => concatenate S500000x512 1 [⟨S500000x256, a⟩, ⟨S500000x256, b⟩] concatenates_S500000x256_S500000x256_S500000x512_d1) : (⟨S500000x256, .f32⟩ : BufTy).Contents (Elt F) → (⟨S500000x256, .f32⟩ : BufTy).Contents (Elt F) → (⟨S500000x512, .f32⟩ : BufTy).Contents (Elt F)),
    binary main_v145 main_arg6 main_v146 ((fun l r => Host.dotGeneral dot_S500000x512_S512x512_S500000x512_1_0_0_1_n_n none l r) : (⟨S500000x512, .f32⟩ : BufTy).Contents (Elt F) → (⟨S512x512, .f32⟩ : BufTy).Contents (Elt F) → (⟨S500000x512, .f32⟩ : BufTy).Contents (Elt F)),
    unary main_arg7 main_v147 (broadcastInDim S1x512 ![1] bcast_S512_S1x512_1 : (⟨S512, .f32⟩ : BufTy).Contents (Elt F) → (⟨S1x512, .f32⟩ : BufTy).Contents (Elt F)),
    unary main_v147 main_v148 (broadcastInDim S500000x512 ![0, 1] bcast_S1x512_S500000x512_0_1 : (⟨S1x512, .f32⟩ : BufTy).Contents (Elt F) → (⟨S500000x512, .f32⟩ : BufTy).Contents (Elt F)),
    binary main_v146 main_v148 main_v149 (addf : (⟨S500000x512, .f32⟩ : BufTy).Contents (Elt F) → (⟨S500000x512, .f32⟩ : BufTy).Contents (Elt F) → (⟨S500000x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x512, .f32⟩) main_call3_v0) (broadcastInDim S500000x512 ![] bcast_S_S500000x512),
    TRef.binary (TRef.of (T := ⟨S500000x512, .f32⟩) main_v149) (TRef.of (T := ⟨S500000x512, .f32⟩) main_call3_v0) (TRef.of (T := ⟨S500000x512, .f32⟩) main_v150) maximumf,
    binary main_v150 main_arg8 main_v151 ((fun l r => Host.dotGeneral dot_S500000x512_S512x256_S500000x256_1_0_0_1_n_n none l r) : (⟨S500000x512, .f32⟩ : BufTy).Contents (Elt F) → (⟨S512x256, .f32⟩ : BufTy).Contents (Elt F) → (⟨S500000x256, .f32⟩ : BufTy).Contents (Elt F)),
    unary main_arg9 main_v152 (broadcastInDim S1x256 ![1] bcast_S256_S1x256_1 : (⟨S256, .f32⟩ : BufTy).Contents (Elt F) → (⟨S1x256, .f32⟩ : BufTy).Contents (Elt F)),
    unary main_v152 main_v153 (broadcastInDim S500000x256 ![0, 1] bcast_S1x256_S500000x256_0_1 : (⟨S1x256, .f32⟩ : BufTy).Contents (Elt F) → (⟨S500000x256, .f32⟩ : BufTy).Contents (Elt F)),
    binary main_v151 main_v153 main_v154 (addf : (⟨S500000x256, .f32⟩ : BufTy).Contents (Elt F) → (⟨S500000x256, .f32⟩ : BufTy).Contents (Elt F) → (⟨S500000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x256, .f32⟩) main_call4_v0) (broadcastInDim S500000x256 ![] bcast_S_S500000x256),
    TRef.binary (TRef.of (T := ⟨S500000x256, .f32⟩) main_v154) (TRef.of (T := ⟨S500000x256, .f32⟩) main_call4_v0) (TRef.of (T := ⟨S500000x256, .f32⟩) main_v155) maximumf,
    binary main_v155 main_arg10 main_v156 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg11 main_v157 (broadcastInDim S1x128 ![1] bcast_S128_S1x128_1 : (⟨S128, .f32⟩ : BufTy).Contents (Elt F) → (⟨S1x128, .f32⟩ : BufTy).Contents (Elt F)),
    unary main_v157 main_v158 (broadcastInDim S500000x128 ![0, 1] bcast_S1x128_S500000x128_0_1 : (⟨S1x128, .f32⟩ : BufTy).Contents (Elt F) → (⟨S500000x128, .f32⟩ : BufTy).Contents (Elt F)),
    binary main_v156 main_v158 main_v159 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S500000x128, .f32⟩) main_call5_v0) (broadcastInDim S500000x128 ![] bcast_S_S500000x128),
    TRef.binary (TRef.of (T := ⟨S500000x128, .f32⟩) main_v159) (TRef.of (T := ⟨S500000x128, .f32⟩) main_call5_v0) (TRef.of (T := ⟨S500000x128, .f32⟩) main_v160) maximumf,
    binary main_v160 main_arg12 main_v161 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg13 main_v162 (broadcastInDim S1x1 ![1] bcast_S1_S1x1_1 : (⟨S1, .f32⟩ : BufTy).Contents (Elt F) → (⟨S1x1, .f32⟩ : BufTy).Contents (Elt F)),
    unary main_v162 main_v163 (broadcastInDim S500000x1 ![0, 1] bcast_S1x1_S500000x1_0_1 : (⟨S1x1, .f32⟩ : BufTy).Contents (Elt F) → (⟨S500000x1, .f32⟩ : BufTy).Contents (Elt F)),
    binary main_v161 main_v163 main_v164 (addf : (⟨S500000x1, .f32⟩ : BufTy).Contents (Elt F) → (⟨S500000x1, .f32⟩ : BufTy).Contents (Elt F) → (⟨S500000x1, .f32⟩ : BufTy).Contents (Elt F)) ]

set_option maxHeartbeats 4000000 in
/-- The 205 operations are the six runs one after the other. -/
theorem ops_split : (Cert.ReferenceIdeal.ValueP.ops (F := F)) = rc1a ++ (rc1b ++ (rc2 ++ (rc3 ++ (rc4a ++ rc4b)))) := rfl

/-- The fold over a concatenation is the fold over the second list from the fold over the first. -/
theorem after_append :
    ∀ (l₁ l₂ : List (HloOp τ sig (Elt F))) (V : Valuation τ sig (Elt F)), after (l₁ ++ l₂) V = after l₂ (after l₁ V)
  | [], _, _ => rfl
  | op :: l, l₂, V => after_append l l₂ (op.result V)

end Cert.Bridge

end
-- ==== Proof.RChunk1.lean ====
/-
  The reference's first two runs of host operations, from ANY buffer contents: the endpoint vectors and the node
  indices; then the endpoints with self-loops (the concatenation of two buffers of the first run), the normalisation
  coefficients, slab 0 of the weights and the first host product. The argument arrays are carried through.
-/
import proofs.«163565_j59923383714097_2_alg».proof.Proof.RefOpsSplit
import proofs.«163565_j59923383714097_2_alg».proof.Proof.Compose
import Idealize.ShloMosaic.Lib.StableHlo.Run

set_option maxRecDepth 16384

noncomputable section

namespace Cert.Bridge

open Idealize.ShloMosaic Idealize.ShloMosaic.StableHlo Cert.ReferenceIdeal Cert.ReferenceIdeal.Gen

theorem c1a_v1 (V : Valuation τ sig (Elt Ideal)) :
    after (rc1a (F := Ideal)) V (Proc.devRef .tc main_v1) = srcRT (F := Ideal) (V (Proc.devRef .tc main_arg0)) := by
  simp only [rc1a]
  after_results_simp <;> rfl
theorem c1a_v3 (V : Valuation τ sig (Elt Ideal)) :
    after (rc1a (F := Ideal)) V (Proc.devRef .tc main_v3) = dstRT (F := Ideal) (V (Proc.devRef .tc main_arg0)) := by
  simp only [rc1a]
  after_results_simp <;> rfl
theorem c1a_v4 (V : Valuation τ sig (Elt Ideal)) :
    after (rc1a (F := Ideal)) V (Proc.devRef .tc main_v4) = iotaInDim Cert.ReferenceIdeal.S50000 32 0 := by
  simp only [rc1a]
  after_results_simp <;> rfl
theorem c1a_arg1 (V : Valuation τ sig (Elt Ideal)) :
    after (rc1a (F := Ideal)) V (Proc.devRef .tc main_arg1) = V (Proc.devRef .tc main_arg1) := by
  simp only [rc1a]
  after_results_simp <;> rfl
theorem c1a_arg2 (V : Valuation τ sig (Elt Ideal)) :
    after (rc1a (F := Ideal)) V (Proc.devRef .tc main_arg2) = V (Proc.devRef .tc main_arg2) := by
  simp only [rc1a]
  after_results_simp <;> rfl
theorem c1a_arg3 (V : Valuation τ sig (Elt Ideal)) :
    after (rc1a (F := Ideal)) V (Proc.devRef .tc main_arg3) = V (Proc.devRef .tc main_arg3) := by
  simp only [rc1a]
  after_results_simp <;> rfl
theorem c1a_arg4 (V : Valuation τ sig (Elt Ideal)) :
    after (rc1a (F := Ideal)) V (Proc.devRef .tc main_arg4) = V (Proc.devRef .tc main_arg4) := by
  simp only [rc1a]
  after_results_simp <;> rfl
theorem c1a_arg5 (V : Valuation τ sig (Elt Ideal)) :
    after (rc1a (F := Ideal)) V (Proc.devRef .tc main_arg5) = V (Proc.devRef .tc main_arg5) := by
  simp only [rc1a]
  after_results_simp <;> rfl
theorem c1a_arg6 (V : Valuation τ sig (Elt Ideal)) :
    after (rc1a (F := Ideal)) V (Proc.devRef .tc main_arg6) = V (Proc.devRef .tc main_arg6) := by
  simp only [rc1a]
  after_results_simp <;> rfl
theorem c1a_arg7 (V : Valuation τ sig (Elt Ideal)) :
    after (rc1a (F := Ideal)) V (Proc.devRef .tc main_arg7) = V (Proc.devRef .tc main_arg7) := by
  simp only [rc1a]
  after_results_simp <;> rfl
theorem c1a_arg8 (V : Valuation τ sig (Elt Ideal)) :
    after (rc1a (F := Ideal)) V (Proc.devRef .tc main_arg8) = V (Proc.devRef .tc main_arg8) := by
  simp only [rc1a]
  after_results_simp <;> rfl
theorem c1a_arg9 (V : Valuation τ sig (Elt Ideal)) :
    after (rc1a (F := Ideal)) V (Proc.devRef .tc main_arg9) = V (Proc.devRef .tc main_arg9) := by
  simp only [rc1a]
  after_results_simp <;> rfl
theorem c1a_arg10 (V : Valuation τ sig (Elt Ideal)) :
    after (rc1a (F := Ideal)) V (Proc.devRef .tc main_arg10) = V (Proc.devRef .tc main_arg10) := by
  simp only [rc1a]
  after_results_simp <;> rfl
theorem c1a_arg11 (V : Valuation τ sig (Elt Ideal)) :
    after (rc1a (F := Ideal)) V (Proc.devRef .tc main_arg11) = V (Proc.devRef .tc main_arg11) := by
  simp only [rc1a]
  after_results_simp <;> rfl
theorem c1a_arg12 (V : Valuation τ sig (Elt Ideal)) :
    after (rc1a (F := Ideal)) V (Proc.devRef .tc main_arg12) = V (Proc.devRef .tc main_arg12) := by
  simp only [rc1a]
  after_results_simp <;> rfl
theorem c1a_arg13 (V : Valuation τ sig (Elt Ideal)) :
    after (rc1a (F := Ideal)) V (Proc.devRef .tc main_arg13) = V (Proc.devRef .tc main_arg13) := by
  simp only [rc1a]
  after_results_simp <;> rfl
theorem c1b_v5 (V : Valuation τ sig (Elt Ideal)) :
    after (rc1b (F := Ideal)) V (Proc.devRef .tc main_v5) = concatenate Cert.ReferenceIdeal.S550000 0 [⟨Cert.ReferenceIdeal.S500000, (V (Proc.devRef .tc main_v1))⟩, ⟨Cert.ReferenceIdeal.S50000, (V (Proc.devRef .tc main_v4))⟩] concatenates_S500000_S50000_S550000_d0 := by
  simp only [rc1b]
  after_results_simp <;> rfl
theorem c1b_v6 (V : Valuation τ sig (Elt Ideal)) :
    after (rc1b (F := Ideal)) V (Proc.devRef .tc main_v6) = concatenate Cert.ReferenceIdeal.S550000 0 [⟨Cert.ReferenceIdeal.S500000, (V (Proc.devRef .tc main_v3))⟩, ⟨Cert.ReferenceIdeal.S50000, (V (Proc.devRef .tc main_v4))⟩] concatenates_S500000_S50000_S550000_d0 := by
  simp only [rc1b]
  after_results_simp <;> rfl
/-- The coefficients, for any float values (the operations of the float type are not opened). -/
theorem c1b_v30 {F : FTy → Type} [FloatOps F] (V : Valuation τ sig (Elt F)) :
    after (rc1b (F := F)) V (Proc.devRef .tc main_v30)
      = coefRT (F := F) (concatenate Cert.ReferenceIdeal.S550000 0 [⟨Cert.ReferenceIdeal.S500000, (V (Proc.devRef .tc main_v1))⟩, ⟨Cert.ReferenceIdeal.S50000, (V (Proc.devRef .tc main_v4))⟩] concatenates_S500000_S50000_S550000_d0) (concatenate Cert.ReferenceIdeal.S550000 0 [⟨Cert.ReferenceIdeal.S500000, (V (Proc.devRef .tc main_v3))⟩, ⟨Cert.ReferenceIdeal.S50000, (V (Proc.devRef .tc main_v4))⟩] concatenates_S500000_S50000_S550000_d0) := by
  simp only [rc1b]
  after_results_simp <;> rfl
theorem c1b_v33 (V : Valuation τ sig (Elt Ideal)) :
    after (rc1b (F := Ideal)) V (Proc.devRef .tc main_v33) = hostProd (V (Proc.devRef .tc main_arg1)) (ws0RT (F := Ideal) (V (Proc.devRef .tc main_arg2))) := by
  simp only [rc1b]
  after_results_simp <;> rfl
theorem c1b_v1 (V : Valuation τ sig (Elt Ideal)) :
    after (rc1b (F := Ideal)) V (Proc.devRef .tc main_v1) = V (Proc.devRef .tc main_v1) := by
  simp only [rc1b]
  after_results_simp <;> rfl
theorem c1b_v3 (V : Valuation τ sig (Elt Ideal)) :
    after (rc1b (F := Ideal)) V (Proc.devRef .tc main_v3) = V (Proc.devRef .tc main_v3) := by
  simp only [rc1b]
  after_results_simp <;> rfl
theorem c1b_arg2 (V : Valuation τ sig (Elt Ideal)) :
    after (rc1b (F := Ideal)) V (Proc.devRef .tc main_arg2) = V (Proc.devRef .tc main_arg2) := by
  simp only [rc1b]
  after_results_simp <;> rfl
theorem c1b_arg3 (V : Valuation τ sig (Elt Ideal)) :
    after (rc1b (F := Ideal)) V (Proc.devRef .tc main_arg3) = V (Proc.devRef .tc main_arg3) := by
  simp only [rc1b]
  after_results_simp <;> rfl
theorem c1b_arg4 (V : Valuation τ sig (Elt Ideal)) :
    after (rc1b (F := Ideal)) V (Proc.devRef .tc main_arg4) = V (Proc.devRef .tc main_arg4) := by
  simp only [rc1b]
  after_results_simp <;> rfl
theorem c1b_arg5 (V : Valuation τ sig (Elt Ideal)) :
    after (rc1b (F := Ideal)) V (Proc.devRef .tc main_arg5) = V (Proc.devRef .tc main_arg5) := by
  simp only [rc1b]
  after_results_simp <;> rfl
theorem c1b_arg6 (V : Valuation τ sig (Elt Ideal)) :
    after (rc1b (F := Ideal)) V (Proc.devRef .tc main_arg6) = V (Proc.devRef .tc main_arg6) := by
  simp only [rc1b]
  after_results_simp <;> rfl
theorem c1b_arg7 (V : Valuation τ sig (Elt Ideal)) :
    after (rc1b (F := Ideal)) V (Proc.devRef .tc main_arg7) = V (Proc.devRef .tc main_arg7) := by
  simp only [rc1b]
  after_results_simp <;> rfl
theorem c1b_arg8 (V : Valuation τ sig (Elt Ideal)) :
    after (rc1b (F := Ideal)) V (Proc.devRef .tc main_arg8) = V (Proc.devRef .tc main_arg8) := by
  simp only [rc1b]
  after_results_simp <;> rfl
theorem c1b_arg9 (V : Valuation τ sig (Elt Ideal)) :
    after (rc1b (F := Ideal)) V (Proc.devRef .tc main_arg9) = V (Proc.devRef .tc main_arg9) := by
  simp only [rc1b]
  after_results_simp <;> rfl
theorem c1b_arg10 (V : Valuation τ sig (Elt Ideal)) :
    after (rc1b (F := Ideal)) V (Proc.devRef .tc main_arg10) = V (Proc.devRef .tc main_arg10) := by
  simp only [rc1b]
  after_results_simp <;> rfl
theorem c1b_arg11 (V : Valuation τ sig (Elt Ideal)) :
    after (rc1b (F := Ideal)) V (Proc.devRef .tc main_arg11) = V (Proc.devRef .tc main_arg11) := by
  simp only [rc1b]
  after_results_simp <;> rfl
theorem c1b_arg12 (V : Valuation τ sig (Elt Ideal)) :
    after (rc1b (F := Ideal)) V (Proc.devRef .tc main_arg12) = V (Proc.devRef .tc main_arg12) := by
  simp only [rc1b]
  after_results_simp <;> rfl
theorem c1b_arg13 (V : Valuation τ sig (Elt Ideal)) :
    after (rc1b (F := Ideal)) V (Proc.devRef .tc main_arg13) = V (Proc.devRef .tc main_arg13) := by
  simp only [rc1b]
  after_results_simp <;> rfl

end Cert.Bridge

end
-- ==== Proof.RChunk2.lean ====
/-
  The reference's third run of host operations — the first layer after its product, slab 1 of the weights and the
  second host product — from ANY buffer contents: what it leaves in the buffers read later, and what is carried through.
-/
import proofs.«163565_j59923383714097_2_alg».proof.Proof.RefOpsSplit
import proofs.«163565_j59923383714097_2_alg».proof.Proof.Compose
import Idealize.ShloMosaic.Lib.StableHlo.Run

set_option maxRecDepth 16384

noncomputable section

namespace Cert.Bridge

open Idealize.ShloMosaic Idealize.ShloMosaic.StableHlo Cert.ReferenceIdeal Cert.ReferenceIdeal.Gen

theorem c2_v83 (V : Valuation τ sig (Elt Ideal)) :
    after (rc2 (F := Ideal)) V (Proc.devRef .tc main_v83) = hostProd (layer0RT (F := Ideal) (V (Proc.devRef .tc main_v33)) (V (Proc.devRef .tc main_v5)) (V (Proc.devRef .tc main_v6)) (V (Proc.devRef .tc main_v30)) (V (Proc.devRef .tc main_arg3)) (V (Proc.devRef .tc main_arg4)) (V (Proc.devRef .tc main_arg5))) (ws1RT (F := Ideal) (V (Proc.devRef .tc main_arg2))) := by
  simp only [rc2]
  after_results_simp <;> rfl
theorem c2_v1 (V : Valuation τ sig (Elt Ideal)) :
    after (rc2 (F := Ideal)) V (Proc.devRef .tc main_v1) = V (Proc.devRef .tc main_v1) := by
  simp only [rc2]
  after_results_simp <;> rfl
theorem c2_v3 (V : Valuation τ sig (Elt Ideal)) :
    after (rc2 (F := Ideal)) V (Proc.devRef .tc main_v3) = V (Proc.devRef .tc main_v3) := by
  simp only [rc2]
  after_results_simp <;> rfl
theorem c2_v5 (V : Valuation τ sig (Elt Ideal)) :
    after (rc2 (F := Ideal)) V (Proc.devRef .tc main_v5) = V (Proc.devRef .tc main_v5) := by
  simp only [rc2]
  after_results_simp <;> rfl
theorem c2_v6 (V : Valuation τ sig (Elt Ideal)) :
    after (rc2 (F := Ideal)) V (Proc.devRef .tc main_v6) = V (Proc.devRef .tc main_v6) := by
  simp only [rc2]
  after_results_simp <;> rfl
theorem c2_v30 (V : Valuation τ sig (Elt Ideal)) :
    after (rc2 (F := Ideal)) V (Proc.devRef .tc main_v30) = V (Proc.devRef .tc main_v30) := by
  simp only [rc2]
  after_results_simp <;> rfl
theorem c2_arg3 (V : Valuation τ sig (Elt Ideal)) :
    after (rc2 (F := Ideal)) V (Proc.devRef .tc main_arg3) = V (Proc.devRef .tc main_arg3) := by
  simp only [rc2]
  after_results_simp <;> rfl
theorem c2_arg4 (V : Valuation τ sig (Elt Ideal)) :
    after (rc2 (F := Ideal)) V (Proc.devRef .tc main_arg4) = V (Proc.devRef .tc main_arg4) := by
  simp only [rc2]
  after_results_simp <;> rfl
theorem c2_arg5 (V : Valuation τ sig (Elt Ideal)) :
    after (rc2 (F := Ideal)) V (Proc.devRef .tc main_arg5) = V (Proc.devRef .tc main_arg5) := by
  simp only [rc2]
  after_results_simp <;> rfl
theorem c2_arg6 (V : Valuation τ sig (Elt Ideal)) :
    after (rc2 (F := Ideal)) V (Proc.devRef .tc main_arg6) = V (Proc.devRef .tc main_arg6) := by
  simp only [rc2]
  after_results_simp <;> rfl
theorem c2_arg7 (V : Valuation τ sig (Elt Ideal)) :
    after (rc2 (F := Ideal)) V (Proc.devRef .tc main_arg7) = V (Proc.devRef .tc main_arg7) := by
  simp only [rc2]
  after_results_simp <;> rfl
theorem c2_arg8 (V : Valuation τ sig (Elt Ideal)) :
    after (rc2 (F := Ideal)) V (Proc.devRef .tc main_arg8) = V (Proc.devRef .tc main_arg8) := by
  simp only [rc2]
  after_results_simp <;> rfl
theorem c2_arg9 (V : Valuation τ sig (Elt Ideal)) :
    after (rc2 (F := Ideal)) V (Proc.devRef .tc main_arg9) = V (Proc.devRef .tc main_arg9) := by
  simp only [rc2]
  after_results_simp <;> rfl
theorem c2_arg10 (V : Valuation τ sig (Elt Ideal)) :
    after (rc2 (F := Ideal)) V (Proc.devRef .tc main_arg10) = V (Proc.devRef .tc main_arg10) := by
  simp only [rc2]
  after_results_simp <;> rfl
theorem c2_arg11 (V : Valuation τ sig (Elt Ideal)) :
    after (rc2 (F := Ideal)) V (Proc.devRef .tc main_arg11) = V (Proc.devRef .tc main_arg11) := by
  simp only [rc2]
  after_results_simp <;> rfl
theorem c2_arg12 (V : Valuation τ sig (Elt Ideal)) :
    after (rc2 (F := Ideal)) V (Proc.devRef .tc main_arg12) = V (Proc.devRef .tc main_arg12) := by
  simp only [rc2]
  after_results_simp <;> rfl
theorem c2_arg13 (V : Valuation τ sig (Elt Ideal)) :
    after (rc2 (F := Ideal)) V (Proc.devRef .tc main_arg13) = V (Proc.devRef .tc main_arg13) := by
  simp only [rc2]
  after_results_simp <;> rfl

end Cert.Bridge

end
-- ==== Proof.RChunk3.lean ====
/-
  The reference's fourth run of host operations — the second layer after its product — from ANY buffer contents.
-/
import proofs.«163565_j59923383714097_2_alg».proof.Proof.RefOpsSplit
import proofs.«163565_j59923383714097_2_alg».proof.Proof.Compose
import Idealize.ShloMosaic.Lib.StableHlo.Run

set_option maxRecDepth 16384

noncomputable section

namespace Cert.Bridge

open Idealize.ShloMosaic Idealize.ShloMosaic.StableHlo Cert.ReferenceIdeal Cert.ReferenceIdeal.Gen

theorem c3_v130 (V : Valuation τ sig (Elt Ideal)) :
    after (rc3 (F := Ideal)) V (Proc.devRef .tc main_v130) = layer1RT (F := Ideal) (V (Proc.devRef .tc main_v83)) (V (Proc.devRef .tc main_v5)) (V (Proc.devRef .tc main_v6)) (V (Proc.devRef .tc main_v30)) (V (Proc.devRef .tc main_arg3)) (V (Proc.devRef .tc main_arg4)) (V (Proc.devRef .tc main_arg5)) := by
  simp only [rc3]
  after_results_simp <;> rfl
theorem c3_v1 (V : Valuation τ sig (Elt Ideal)) :
    after (rc3 (F := Ideal)) V (Proc.devRef .tc main_v1) = V (Proc.devRef .tc main_v1) := by
  simp only [rc3]
  after_results_simp <;> rfl
theorem c3_v3 (V : Valuation τ sig (Elt Ideal)) :
    after (rc3 (F := Ideal)) V (Proc.devRef .tc main_v3) = V (Proc.devRef .tc main_v3) := by
  simp only [rc3]
  after_results_simp <;> rfl
theorem c3_arg6 (V : Valuation τ sig (Elt Ideal)) :
    after (rc3 (F := Ideal)) V (Proc.devRef .tc main_arg6) = V (Proc.devRef .tc main_arg6) := by
  simp only [rc3]
  after_results_simp <;> rfl
theorem c3_arg7 (V : Valuation τ sig (Elt Ideal)) :
    after (rc3 (F := Ideal)) V (Proc.devRef .tc main_arg7) = V (Proc.devRef .tc main_arg7) := by
  simp only [rc3]
  after_results_simp <;> rfl
theorem c3_arg8 (V : Valuation τ sig (Elt Ideal)) :
    after (rc3 (F := Ideal)) V (Proc.devRef .tc main_arg8) = V (Proc.devRef .tc main_arg8) := by
  simp only [rc3]
  after_results_simp <;> rfl
theorem c3_arg9 (V : Valuation τ sig (Elt Ideal)) :
    after (rc3 (F := Ideal)) V (Proc.devRef .tc main_arg9) = V (Proc.devRef .tc main_arg9) := by
  simp only [rc3]
  after_results_simp <;> rfl
theorem c3_arg10 (V : Valuation τ sig (Elt Ideal)) :
    after (rc3 (F := Ideal)) V (Proc.devRef .tc main_arg10) = V (Proc.devRef .tc main_arg10) := by
  simp only [rc3]
  after_results_simp <;> rfl
theorem c3_arg11 (V : Valuation τ sig (Elt Ideal)) :
    after (rc3 (F := Ideal)) V (Proc.devRef .tc main_arg11) = V (Proc.devRef .tc main_arg11) := by
  simp only [rc3]
  after_results_simp <;> rfl
theorem c3_arg12 (V : Valuation τ sig (Elt Ideal)) :
    after (rc3 (F := Ideal)) V (Proc.devRef .tc main_arg12) = V (Proc.devRef .tc main_arg12) := by
  simp only [rc3]
  after_results_simp <;> rfl
theorem c3_arg13 (V : Valuation τ sig (Elt Ideal)) :
    after (rc3 (F := Ideal)) V (Proc.devRef .tc main_arg13) = V (Proc.devRef .tc main_arg13) := by
  simp only [rc3]
  after_results_simp <;> rfl

end Cert.Bridge

end
-- ==== Proof.RChunk4.lean ====
/-
  The reference's last two runs of host operations, from ANY buffer contents: the node features gathered at the
  sources and at the targets; then the edge predictor on these two buffers (their concatenation comes first).
-/
import proofs.«163565_j59923383714097_2_alg».proof.Proof.RefOpsSplit
import proofs.«163565_j59923383714097_2_alg».proof.Proof.Compose
import Idealize.ShloMosaic.Lib.StableHlo.Run

set_option maxRecDepth 16384

noncomputable section

namespace Cert.Bridge

open Idealize.ShloMosaic Idealize.ShloMosaic.StableHlo Cert.ReferenceIdeal Cert.ReferenceIdeal.Gen

theorem c4a_v137 (V : Valuation τ sig (Elt Ideal)) :
    after (rc4a (F := Ideal)) V (Proc.devRef .tc main_v137) = xsRT (F := Ideal) (V (Proc.devRef .tc main_v130)) (V (Proc.devRef .tc main_v1)) := by
  simp only [rc4a]
  after_results_simp <;> rfl
theorem c4a_v144 (V : Valuation τ sig (Elt Ideal)) :
    after (rc4a (F := Ideal)) V (Proc.devRef .tc main_v144) = xdRT (F := Ideal) (V (Proc.devRef .tc main_v130)) (V (Proc.devRef .tc main_v3)) := by
  simp only [rc4a]
  after_results_simp <;> rfl
theorem c4a_arg6 (V : Valuation τ sig (Elt Ideal)) :
    after (rc4a (F := Ideal)) V (Proc.devRef .tc main_arg6) = V (Proc.devRef .tc main_arg6) := by
  simp only [rc4a]
  after_results_simp <;> rfl
theorem c4a_arg7 (V : Valuation τ sig (Elt Ideal)) :
    after (rc4a (F := Ideal)) V (Proc.devRef .tc main_arg7) = V (Proc.devRef .tc main_arg7) := by
  simp only [rc4a]
  after_results_simp <;> rfl
theorem c4a_arg8 (V : Valuation τ sig (Elt Ideal)) :
    after (rc4a (F := Ideal)) V (Proc.devRef .tc main_arg8) = V (Proc.devRef .tc main_arg8) := by
  simp only [rc4a]
  after_results_simp <;> rfl
theorem c4a_arg9 (V : Valuation τ sig (Elt Ideal)) :
    after (rc4a (F := Ideal)) V (Proc.devRef .tc main_arg9) = V (Proc.devRef .tc main_arg9) := by
  simp only [rc4a]
  after_results_simp <;> rfl
theorem c4a_arg10 (V : Valuation τ sig (Elt Ideal)) :
    after (rc4a (F := Ideal)) V (Proc.devRef .tc main_arg10) = V (Proc.devRef .tc main_arg10) := by
  simp only [rc4a]
  after_results_simp <;> rfl
theorem c4a_arg11 (V : Valuation τ sig (Elt Ideal)) :
    after (rc4a (F := Ideal)) V (Proc.devRef .tc main_arg11) = V (Proc.devRef .tc main_arg11) := by
  simp only [rc4a]
  after_results_simp <;> rfl
theorem c4a_arg12 (V : Valuation τ sig (Elt Ideal)) :
    after (rc4a (F := Ideal)) V (Proc.devRef .tc main_arg12) = V (Proc.devRef .tc main_arg12) := by
  simp only [rc4a]
  after_results_simp <;> rfl
theorem c4a_arg13 (V : Valuation τ sig (Elt Ideal)) :
    after (rc4a (F := Ideal)) V (Proc.devRef .tc main_arg13) = V (Proc.devRef .tc main_arg13) := by
  simp only [rc4a]
  after_results_simp <;> rfl
theorem c4b_v164 (V : Valuation τ sig (Elt Ideal)) :
    after (rc4b (F := Ideal)) V (Proc.devRef .tc main_v164) = refTail (V (Proc.devRef .tc main_v137)) (V (Proc.devRef .tc main_v144)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [rc4b]
  after_results_simp <;> rfl

end Cert.Bridge

end
-- ==== Proof.RefBridge.lean ====
/-
  The two programs print the same host stages, each over its own copy of the shapes and dimension records; the copies
  are the same literals, so each stage of the reference IS the corresponding stage of the kernel's program.
-/
import proofs.«163565_j59923383714097_2_alg».proof.Proof.Stages
import proofs.«163565_j59923383714097_2_alg».proof.Proof.RefStages
import Idealize.ShloMosaic.PureOps.Ideal

set_option maxRecDepth 16384

noncomputable section

namespace Cert.Bridge

open Idealize.ShloMosaic

theorem srcRT_eq (arg0 : (⟨Cert.ReferenceIdeal.S2x500000, .i32⟩ : BufTy).Contents (Elt Ideal)) :
    srcRT (F := Ideal) arg0 = srcT (F := Ideal) arg0 := rfl

theorem dstRT_eq (arg0 : (⟨Cert.ReferenceIdeal.S2x500000, .i32⟩ : BufTy).Contents (Elt Ideal)) :
    dstRT (F := Ideal) arg0 = dstT (F := Ideal) arg0 := rfl

theorem srcLoopsRT_eq (v1 : (⟨Cert.ReferenceIdeal.S500000, .i32⟩ : BufTy).Contents (Elt Ideal)) :
    srcLoopsRT (F := Ideal) v1 = srcLoopsT (F := Ideal) v1 := rfl

theorem dstLoopsRT_eq (v3 : (⟨Cert.ReferenceIdeal.S500000, .i32⟩ : BufTy).Contents (Elt Ideal)) :
    dstLoopsRT (F := Ideal) v3 = dstLoopsT (F := Ideal) v3 := rfl

theorem coefRT_eq (v5 : (⟨Cert.ReferenceIdeal.S550000, .i32⟩ : BufTy).Contents (Elt Ideal)) (v6 : (⟨Cert.ReferenceIdeal.S550000, .i32⟩ : BufTy).Contents (Elt Ideal)) :
    coefRT (F := Ideal) v5 v6 = coefT (F := Ideal) v5 v6 := rfl

theorem ws0RT_eq (arg2 : (⟨Cert.ReferenceIdeal.S2x256x256, .f32⟩ : BufTy).Contents (Elt Ideal)) :
    ws0RT (F := Ideal) arg2 = ws0T (F := Ideal) arg2 := rfl

theorem layer0RT_eq (v33 : (⟨Cert.ReferenceIdeal.S50000x256, .f32⟩ : BufTy).Contents (Elt Ideal)) (v5 : (⟨Cert.ReferenceIdeal.S550000, .i32⟩ : BufTy).Contents (Elt Ideal)) (v6 : (⟨Cert.ReferenceIdeal.S550000, .i32⟩ : BufTy).Contents (Elt Ideal)) (v30 : (⟨Cert.ReferenceIdeal.S550000x1, .f32⟩ : BufTy).Contents (Elt Ideal)) (arg3 : (⟨Cert.ReferenceIdeal.S2x256, .f32⟩ : BufTy).Contents (Elt Ideal)) (arg4 : (⟨Cert.ReferenceIdeal.S2x256, .f32⟩ : BufTy).Contents (Elt Ideal)) (arg5 : (⟨Cert.ReferenceIdeal.S2x256, .f32⟩ : BufTy).Contents (Elt Ideal)) :
    layer0RT (F := Ideal) v33 v5 v6 v30 arg3 arg4 arg5 = layer0T (F := Ideal) v33 v5 v6 v30 arg3 arg4 arg5 := rfl

theorem ws1RT_eq (arg2 : (⟨Cert.ReferenceIdeal.S2x256x256, .f32⟩ : BufTy).Contents (Elt Ideal)) :
    ws1RT (F := Ideal) arg2 = ws1T (F := Ideal) arg2 := rfl

theorem layer1RT_eq (v83 : (⟨Cert.ReferenceIdeal.S50000x256, .f32⟩ : BufTy).Contents (Elt Ideal)) (v5 : (⟨Cert.ReferenceIdeal.S550000, .i32⟩ : BufTy).Contents (Elt Ideal)) (v6 : (⟨Cert.ReferenceIdeal.S550000, .i32⟩ : BufTy).Contents (Elt Ideal)) (v30 : (⟨Cert.ReferenceIdeal.S550000x1, .f32⟩ : BufTy).Contents (Elt Ideal)) (arg3 : (⟨Cert.ReferenceIdeal.S2x256, .f32⟩ : BufTy).Contents (Elt Ideal)) (arg4 : (⟨Cert.ReferenceIdeal.S2x256, .f32⟩ : BufTy).Contents (Elt Ideal)) (arg5 : (⟨Cert.ReferenceIdeal.S2x256, .f32⟩ : BufTy).Contents (Elt Ideal)) :
    layer1RT (F := Ideal) v83 v5 v6 v30 arg3 arg4 arg5 = layer1T (F := Ideal) v83 v5 v6 v30 arg3 arg4 arg5 := rfl

end Cert.Bridge

end
-- ==== Proof.RStage.lean ====
/-
  The reference's result buffer after its 205 host operations, as the composition of the stages.

  The operations are read in six runs of consecutive operations, each from ANY buffer contents: what a run leaves in
  the buffers later runs read is a stage function of what it found in the buffers it reads, and every other buffer is
  carried through. The reference's stages are the kernel program's stages (the same literals), so composed, the
  result buffer holds `resultR` of the fourteen argument arrays.
-/
import proofs.«163565_j59923383714097_2_alg».proof.Proof.RefOpsSplit
import proofs.«163565_j59923383714097_2_alg».proof.Proof.Compose
import proofs.«163565_j59923383714097_2_alg».proof.Proof.RChunk1
import proofs.«163565_j59923383714097_2_alg».proof.Proof.RChunk2
import proofs.«163565_j59923383714097_2_alg».proof.Proof.RChunk3
import proofs.«163565_j59923383714097_2_alg».proof.Proof.RChunk4
import proofs.«163565_j59923383714097_2_alg».proof.Proof.RefBridge
import Idealize.ShloMosaic.Lib.StableHlo.Run

set_option maxRecDepth 16384

noncomputable section

namespace Cert.Bridge

open Idealize.ShloMosaic Idealize.ShloMosaic.StableHlo Cert.ReferenceIdeal Cert.ReferenceIdeal.Gen

theorem ref_value (V : Valuation τ sig (Elt Ideal)) :
    after (Cert.ReferenceIdeal.ValueP.ops (F := Ideal)) V (Proc.devRef .tc main_v164)
      = resultR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  refine (congrArg (fun l => after l V (Proc.devRef .tc main_v164)) (ops_split (F := Ideal))).trans ?_
  show after (rc1a (F := Ideal) ++ (rc1b ++ (rc2 ++ (rc3 ++ (rc4a ++ rc4b))))) V (Proc.devRef .tc main_v164) = _
  rw [after_append, after_append, after_append, after_append, after_append]
  rw [c4b_v164]
  rw [c4a_v137, c4a_v144, c4a_arg6, c4a_arg7, c4a_arg8, c4a_arg9, c4a_arg10, c4a_arg11, c4a_arg12, c4a_arg13]
  rw [c3_v130, c3_v1, c3_v3, c3_arg6, c3_arg7, c3_arg8, c3_arg9, c3_arg10, c3_arg11, c3_arg12, c3_arg13]
  rw [c2_v83, c2_v5, c2_v6, c2_v30, c2_arg3, c2_arg4, c2_arg5, c2_v1, c2_v3, c2_arg6, c2_arg7, c2_arg8, c2_arg9, c2_arg10, c2_arg11, c2_arg12, c2_arg13]
  rw [c1b_v33, c1b_v5, c1b_v6, c1b_v30, c1b_arg3, c1b_arg4, c1b_arg5, c1b_arg2, c1b_v1, c1b_v3, c1b_arg6, c1b_arg7, c1b_arg8, c1b_arg9, c1b_arg10, c1b_arg11, c1b_arg12, c1b_arg13]
  rw [c1a_v1, c1a_v3, c1a_v4, c1a_arg1, c1a_arg2, c1a_arg3, c1a_arg4, c1a_arg5, c1a_arg6, c1a_arg7, c1a_arg8, c1a_arg9, c1a_arg10, c1a_arg11, c1a_arg12, c1a_arg13]
  rw [layer1RT_eq, layer0RT_eq, coefRT_eq, ws0RT_eq, ws1RT_eq, srcRT_eq, dstRT_eq]
  rfl

end Cert.Bridge

end
-- ==== Proof.RArgsA.lean ====
/-
  The reference's host operations leave its argument arrays as they were: none of the 205 operations writes one.
-/
import proofs.«163565_j59923383714097_2_alg».proof.Proof.RefRun
import Idealize.ShloMosaic.Lib.StableHlo.Run

set_option maxRecDepth 16384

noncomputable section

namespace Cert.Bridge

open Idealize.ShloMosaic Idealize.ShloMosaic.StableHlo Cert.ReferenceIdeal Cert.ReferenceIdeal.Gen

variable {F : FTy → Type} [FloatOps F]

set_option maxHeartbeats 20000000 in
theorem ref_arg0 (V : Valuation τ sig (Elt F)) :
    after (Cert.ReferenceIdeal.ValueP.ops (F := F)) V (Proc.devRef .tc main_arg0) = V (Proc.devRef .tc main_arg0) := by
  simp only [Cert.ReferenceIdeal.ValueP.ops]
  after_results_simp <;> rfl
set_option maxHeartbeats 20000000 in
theorem ref_arg1 (V : Valuation τ sig (Elt F)) :
    after (Cert.ReferenceIdeal.ValueP.ops (F := F)) V (Proc.devRef .tc main_arg1) = V (Proc.devRef .tc main_arg1) := by
  simp only [Cert.ReferenceIdeal.ValueP.ops]
  after_results_simp <;> rfl
set_option maxHeartbeats 20000000 in
theorem ref_arg2 (V : Valuation τ sig (Elt F)) :
    after (Cert.ReferenceIdeal.ValueP.ops (F := F)) V (Proc.devRef .tc main_arg2) = V (Proc.devRef .tc main_arg2) := by
  simp only [Cert.ReferenceIdeal.ValueP.ops]
  after_results_simp <;> rfl
set_option maxHeartbeats 20000000 in
theorem ref_arg3 (V : Valuation τ sig (Elt F)) :
    after (Cert.ReferenceIdeal.ValueP.ops (F := F)) V (Proc.devRef .tc main_arg3) = V (Proc.devRef .tc main_arg3) := by
  simp only [Cert.ReferenceIdeal.ValueP.ops]
  after_results_simp <;> rfl
set_option maxHeartbeats 20000000 in
theorem ref_arg4 (V : Valuation τ sig (Elt F)) :
    after (Cert.ReferenceIdeal.ValueP.ops (F := F)) V (Proc.devRef .tc main_arg4) = V (Proc.devRef .tc main_arg4) := by
  simp only [Cert.ReferenceIdeal.ValueP.ops]
  after_results_simp <;> rfl
set_option maxHeartbeats 20000000 in
theorem ref_arg5 (V : Valuation τ sig (Elt F)) :
    after (Cert.ReferenceIdeal.ValueP.ops (F := F)) V (Proc.devRef .tc main_arg5) = V (Proc.devRef .tc main_arg5) := by
  simp only [Cert.ReferenceIdeal.ValueP.ops]
  after_results_simp <;> rfl
set_option maxHeartbeats 20000000 in
theorem ref_arg6 (V : Valuation τ sig (Elt F)) :
    after (Cert.ReferenceIdeal.ValueP.ops (F := F)) V (Proc.devRef .tc main_arg6) = V (Proc.devRef .tc main_arg6) := by
  simp only [Cert.ReferenceIdeal.ValueP.ops]
  after_results_simp <;> rfl

end Cert.Bridge

end
-- ==== Proof.RArgsB.lean ====
/-
  The reference's host operations leave its argument arrays as they were: none of the 205 operations writes one.
-/
import proofs.«163565_j59923383714097_2_alg».proof.Proof.RefRun
import Idealize.ShloMosaic.Lib.StableHlo.Run

set_option maxRecDepth 16384

noncomputable section

namespace Cert.Bridge

open Idealize.ShloMosaic Idealize.ShloMosaic.StableHlo Cert.ReferenceIdeal Cert.ReferenceIdeal.Gen

variable {F : FTy → Type} [FloatOps F]

set_option maxHeartbeats 20000000 in
theorem ref_arg7 (V : Valuation τ sig (Elt F)) :
    after (Cert.ReferenceIdeal.ValueP.ops (F := F)) V (Proc.devRef .tc main_arg7) = V (Proc.devRef .tc main_arg7) := by
  simp only [Cert.ReferenceIdeal.ValueP.ops]
  after_results_simp <;> rfl
set_option maxHeartbeats 20000000 in
theorem ref_arg8 (V : Valuation τ sig (Elt F)) :
    after (Cert.ReferenceIdeal.ValueP.ops (F := F)) V (Proc.devRef .tc main_arg8) = V (Proc.devRef .tc main_arg8) := by
  simp only [Cert.ReferenceIdeal.ValueP.ops]
  after_results_simp <;> rfl
set_option maxHeartbeats 20000000 in
theorem ref_arg9 (V : Valuation τ sig (Elt F)) :
    after (Cert.ReferenceIdeal.ValueP.ops (F := F)) V (Proc.devRef .tc main_arg9) = V (Proc.devRef .tc main_arg9) := by
  simp only [Cert.ReferenceIdeal.ValueP.ops]
  after_results_simp <;> rfl
set_option maxHeartbeats 20000000 in
theorem ref_arg10 (V : Valuation τ sig (Elt F)) :
    after (Cert.ReferenceIdeal.ValueP.ops (F := F)) V (Proc.devRef .tc main_arg10) = V (Proc.devRef .tc main_arg10) := by
  simp only [Cert.ReferenceIdeal.ValueP.ops]
  after_results_simp <;> rfl
set_option maxHeartbeats 20000000 in
theorem ref_arg11 (V : Valuation τ sig (Elt F)) :
    after (Cert.ReferenceIdeal.ValueP.ops (F := F)) V (Proc.devRef .tc main_arg11) = V (Proc.devRef .tc main_arg11) := by
  simp only [Cert.ReferenceIdeal.ValueP.ops]
  after_results_simp <;> rfl
set_option maxHeartbeats 20000000 in
theorem ref_arg12 (V : Valuation τ sig (Elt F)) :
    after (Cert.ReferenceIdeal.ValueP.ops (F := F)) V (Proc.devRef .tc main_arg12) = V (Proc.devRef .tc main_arg12) := by
  simp only [Cert.ReferenceIdeal.ValueP.ops]
  after_results_simp <;> rfl
set_option maxHeartbeats 20000000 in
theorem ref_arg13 (V : Valuation τ sig (Elt F)) :
    after (Cert.ReferenceIdeal.ValueP.ops (F := F)) V (Proc.devRef .tc main_arg13) = V (Proc.devRef .tc main_arg13) := by
  simp only [Cert.ReferenceIdeal.ValueP.ops]
  after_results_simp <;> rfl

end Cert.Bridge

end
-- ==== Proof.HostProduct.lean ====
/-
  The host's product of a [50000, 256] matrix with a [256, 256] matrix, contracted row by column with no batch axes,
  is the whole-array product `mmT`: entry (r, e) is ∑ k < 256, x[r, k] · w[k, e].

  On the extended reals a host dot product is the plain sum of products over the one contracted axis, with nothing
  else added. The program's own dimension record carries the same six axis lists as the plain record for extents
  50000, 256, 256 and differs from it only in the proof of well-formedness it holds, so the two are equal by
  definition; the entrywise reading of a plain host product then gives the sum, and every index of a rank-two shape
  is the pair of its two coordinates.
-/
import proofs.«163565_j59923383714097_2_alg».proof.ReferenceIdeal
import proofs.«163565_j59923383714097_2_alg».proof.Proof.Spec
import proofs.«163565_j59923383714097_2_alg».proof.Proof.LibHostDenseRows

noncomputable section

namespace Cert.Bridge

open Idealize.ShloMosaic Idealize.ShloMosaic.ValueIdx

/-- The host product [50000, 256] × [256, 256] is `mmT`. -/
theorem hostDot_eq_mmT [Cert.ReferenceIdeal.Facts₀] (x : FVec Ideal Cert.ReferenceIdeal.S50000x256 .f32)
    (w : FVec Ideal Cert.ReferenceIdeal.S256x256 .f32) :
    Host.dotGeneral (F := Ideal) Cert.ReferenceIdeal.dot_S50000x256_S256x256_S50000x256_1_0_0_1_n_n none x w
      = mmT x w := by
  funext i
  rw [eq_ix2 i]
  exact Cert.LibHostDenseRows.hostDot_plain_apply
    Cert.ReferenceIdeal.dot_S50000x256_S256x256_S50000x256_1_0_0_1_n_n rfl none x w (i 0) (i 1)

end Cert.Bridge

end
-- ==== Proof.RefTailValue.lean ====
/-
  The reference's edge predictor equals the specification's edge predictor, edge by edge.

  The reference first joins the two endpoint feature matrices xs, xd (each [500000, 256]) side by side into one
  [500000, 512] matrix cat = [xs | xd], and multiplies it by the [512, 512] weight W₁. Entry (r, j) of that product is
      ∑ k < 512, cat[r, k] · W₁[k, j]
        = ∑ k < 256, xs[r, k] · W₁[k, j] + ∑ k < 256, xd[r, k] · W₁[256 + k, j],
  because cat[r, k] = xs[r, k] for k < 256 and cat[r, 256 + k] = xd[r, k], and a sum over 512 = 256 + 256 indices is
  the sum over the first 256 plus the sum over the last 256. The rows k < 256 of W₁ are its top [256, 512] slice and the
  rows 256 + k its bottom slice, so the first layer is xs·W₁ᵗᵒᵖ + xd·W₁ᵇᵒᵗ + b₁, which is how the specification spells
  it. The remaining layers are, row by row, a dense layer, the maximum with zero, a dense layer, the maximum with
  zero, and a last dense layer, exactly as in the specification. Only the splitting of a finite sum of extended reals
  is used; nothing needs to be finite.
-/
import proofs.«163565_j59923383714097_2_alg».proof.Proof.RefTail
import proofs.«163565_j59923383714097_2_alg».proof.Proof.Spec
import proofs.«163565_j59923383714097_2_alg».proof.Proof.LibHostDenseRows
import proofs.«163565_j59923383714097_2_alg».proof.Proof.Gen.KernelIdeal
import Idealize.ShloMosaic.Lib.Pipeline.Value

noncomputable section

namespace Cert.Bridge

open Idealize.ShloMosaic Idealize.ShloMosaic.ValueIdx Cert.LibDenseRows Cert.LibHostDenseRows

/-- The side-by-side concatenation [xs | xd] read at a column below 256 is xs at that column. -/
theorem cat_left (xs xd : (⟨2, ![500000, 256]⟩ : Shape).Idx → EReal)
    (h : Shape.Concatenates [(⟨2, ![500000, 256]⟩ : Shape), ⟨2, ![500000, 256]⟩] ⟨2, ![500000, 512]⟩ 1)
    (r : Fin 500000) (k : Fin 256) (c : Fin 512) (hc : c.val = k.val) :
    concatenate ⟨2, ![500000, 512]⟩ 1 [⟨⟨2, ![500000, 256]⟩, xs⟩, ⟨⟨2, ![500000, 256]⟩, xd⟩] h (ix2 r c) = xs (ix2 r k) :=
  concatenate_pair_apply_left 1 xs xd h _ rfl _ (fun b => by
    match b with
    | ⟨0, _⟩ => rfl
    | ⟨1, _⟩ => exact hc.symm)

/-- The side-by-side concatenation [xs | xd] read at column 256 + k is xd at column k. -/
theorem cat_right (xs xd : (⟨2, ![500000, 256]⟩ : Shape).Idx → EReal)
    (h : Shape.Concatenates [(⟨2, ![500000, 256]⟩ : Shape), ⟨2, ![500000, 256]⟩] ⟨2, ![500000, 512]⟩ 1)
    (r : Fin 500000) (k : Fin 256) (c : Fin 512) (hc : k.val + 256 = c.val) :
    concatenate ⟨2, ![500000, 512]⟩ 1 [⟨⟨2, ![500000, 256]⟩, xs⟩, ⟨⟨2, ![500000, 256]⟩, xd⟩] h (ix2 r c) = xd (ix2 r k) :=
  concatenate_pair_apply_right 1 xs xd h _ rfl rfl _
    (fun b hb => by
      match b with
      | ⟨0, _⟩ => rfl
      | ⟨1, _⟩ => exact absurd rfl hb)
    hc

/-- The top [256, 512] slice of a [512, 512] matrix read at (k, j) is the matrix at (k, j). -/
theorem slice_top (W : (⟨2, ![512, 512]⟩ : Shape).Idx → EReal)
    (h : (⟨2, ![512, 512]⟩ : Shape).Slices ![0, 0] ⟨2, ![256, 512]⟩) (k : Fin 256) (j : Fin 512) (c : Fin 512)
    (hc : c.val = k.val) :
    extractStridedSlice ⟨2, ![256, 512]⟩ ![0, 0] W h (ix2 k j) = W (ix2 c j) :=
  extractStridedSlice_apply ![0, 0] W h (ix2 k j) (ix2 c j) (fun a => by
    match a with
    | ⟨0, _⟩ => show c.val = 0 + k.val; omega
    | ⟨1, _⟩ => show j.val = 0 + j.val; omega)

/-- The bottom [256, 512] slice of a [512, 512] matrix read at (k, j) is the matrix at (256 + k, j). -/
theorem slice_bottom (W : (⟨2, ![512, 512]⟩ : Shape).Idx → EReal)
    (h : (⟨2, ![512, 512]⟩ : Shape).Slices ![256, 0] ⟨2, ![256, 512]⟩) (k : Fin 256) (j : Fin 512) (c : Fin 512)
    (hc : k.val + 256 = c.val) :
    extractStridedSlice ⟨2, ![256, 512]⟩ ![256, 0] W h (ix2 k j) = W (ix2 c j) :=
  extractStridedSlice_apply ![256, 0] W h (ix2 k j) (ix2 c j) (fun a => by
    match a with
    | ⟨0, _⟩ => show c.val = 256 + k.val; omega
    | ⟨1, _⟩ => show j.val = 0 + j.val; omega)

/-- Row r of the product of the column concatenation [xs | xd] with a [512, 512] matrix W: the sum over the 512
    columns splits into the first 256, which read xs against the top half of W, and the last 256, which read xd
    against the bottom half. Only the splitting of a finite sum is used. -/
theorem matvec_cat (xs xd : (⟨2, ![500000, 256]⟩ : Shape).Idx → EReal) (W : (⟨2, ![512, 512]⟩ : Shape).Idx → EReal)
    (hc : Shape.Concatenates [(⟨2, ![500000, 256]⟩ : Shape), ⟨2, ![500000, 256]⟩] ⟨2, ![500000, 512]⟩ 1)
    (h0 : (⟨2, ![512, 512]⟩ : Shape).Slices ![0, 0] ⟨2, ![256, 512]⟩)
    (h1 : (⟨2, ![512, 512]⟩ : Shape).Slices ![256, 0] ⟨2, ![256, 512]⟩) (r : Fin 500000) (j : Fin 512) :
    matvec (rows W) (rows (concatenate ⟨2, ![500000, 512]⟩ 1 [⟨⟨2, ![500000, 256]⟩, xs⟩, ⟨⟨2, ![500000, 256]⟩, xd⟩] hc) r) j
      = matvec (rows (extractStridedSlice ⟨2, ![256, 512]⟩ ![0, 0] W h0)) (rows xs r) j
        + matvec (rows (extractStridedSlice ⟨2, ![256, 512]⟩ ![256, 0] W h1)) (rows xd r) j := by
  show ∑ k : Fin 512, concatenate ⟨2, ![500000, 512]⟩ 1 [⟨⟨2, ![500000, 256]⟩, xs⟩, ⟨⟨2, ![500000, 256]⟩, xd⟩] hc (ix2 r k) * W (ix2 k j)
      = ∑ k : Fin 256, xs (ix2 r k) * extractStridedSlice ⟨2, ![256, 512]⟩ ![0, 0] W h0 (ix2 k j)
        + ∑ k : Fin 256, xd (ix2 r k) * extractStridedSlice ⟨2, ![256, 512]⟩ ![256, 0] W h1 (ix2 k j)
  refine (Fin.sum_univ_add (a := 256) (b := 256) (fun k : Fin 512 =>
    concatenate ⟨2, ![500000, 512]⟩ 1 [⟨⟨2, ![500000, 256]⟩, xs⟩, ⟨⟨2, ![500000, 256]⟩, xd⟩] hc (ix2 r k) * W (ix2 k j))).trans ?_
  congr 1
  · refine Finset.sum_congr rfl fun k _ => ?_
    show concatenate ⟨2, ![500000, 512]⟩ 1 [⟨⟨2, ![500000, 256]⟩, xs⟩, ⟨⟨2, ![500000, 256]⟩, xd⟩] hc (ix2 r (Fin.castAdd 256 k))
        * W (ix2 (Fin.castAdd 256 k) j) = _
    rw [cat_left xs xd hc r k (Fin.castAdd 256 k) rfl, slice_top W h0 k j (Fin.castAdd 256 k) rfl]
  · refine Finset.sum_congr rfl fun k _ => ?_
    show concatenate ⟨2, ![500000, 512]⟩ 1 [⟨⟨2, ![500000, 256]⟩, xs⟩, ⟨⟨2, ![500000, 256]⟩, xd⟩] hc (ix2 r (Fin.natAdd 256 k))
        * W (ix2 (Fin.natAdd 256 k) j) = _
    rw [cat_right xs xd hc r k (Fin.natAdd 256 k) (Nat.add_comm _ _), slice_bottom W h1 k j (Fin.natAdd 256 k) (Nat.add_comm _ _)]

section Tail

open Cert.ReferenceIdeal Cert.ReferenceIdeal.Gen

/-- Row r of the four layers applied to any [500000, 512] input: each layer is a plain product plus a broadcast bias,
    the first three followed by the maximum with zero, so on rows it is dense, relu, dense, relu, dense, relu, dense. -/
theorem rows_tail (c : FVec Ideal S500000x512 .f32) (W1 : FVec Ideal S512x512 .f32) (b1 : FVec Ideal S512 .f32)
    (W2 : FVec Ideal S512x256 .f32) (b2 : FVec Ideal S256 .f32) (W3 : FVec Ideal S256x128 .f32) (b3 : FVec Ideal S128 .f32)
    (W4 : FVec Ideal S128x1 .f32) (b4 : FVec Ideal S1 .f32) (r : Fin 500000) :
    rows (addf (Host.dotGeneral (F := Ideal) dot_S500000x128_S128x1_S500000x1_1_0_0_1_n_n none
        (maximumf (addf (Host.dotGeneral (F := Ideal) dot_S500000x256_S256x128_S500000x128_1_0_0_1_n_n none
          (maximumf (addf (Host.dotGeneral (F := Ideal) dot_S500000x512_S512x256_S500000x256_1_0_0_1_n_n none
            (maximumf (addf (Host.dotGeneral (F := Ideal) dot_S500000x512_S512x512_S500000x512_1_0_0_1_n_n none c W1)
                (broadcastInDim S500000x512 ![0, 1] bcast_S1x512_S500000x512_0_1 (broadcastInDim S1x512 ![1] bcast_S512_S1x512_1 b1)))
              (broadcastInDim S500000x512 ![] bcast_S_S500000x512 (constant (F := Ideal) S_ .f32 0x00000000#32))) W2)
              (broadcastInDim S500000x256 ![0, 1] bcast_S1x256_S500000x256_0_1 (broadcastInDim S1x256 ![1] bcast_S256_S1x256_1 b2)))
            (broadcastInDim S500000x256 ![] bcast_S_S500000x256 (constant (F := Ideal) S_ .f32 0x00000000#32))) W3)
            (broadcastInDim S500000x128 ![0, 1] bcast_S1x128_S500000x128_0_1 (broadcastInDim S1x128 ![1] bcast_S128_S1x128_1 b3)))
          (broadcastInDim S500000x128 ![] bcast_S_S500000x128 (constant (F := Ideal) S_ .f32 0x00000000#32))) W4)
        (broadcastInDim S500000x1 ![0, 1] bcast_S1x1_S500000x1_0_1 (broadcastInDim S1x1 ![1] bcast_S1_S1x1_1 b4))) r
      = dense (rows W4) (vec b4) (relu (dense (rows W3) (vec b3) (relu (dense (rows W2) (vec b2)
          (relu (dense (rows W1) (vec b1) (rows c r))))))) := by
  rw [rows_hostDense dot_S500000x128_S128x1_S500000x1_1_0_0_1_n_n rfl none, rows_max_zero_const,
    rows_hostDense dot_S500000x256_S256x128_S500000x128_1_0_0_1_n_n rfl none, rows_max_zero_const,
    rows_hostDense dot_S500000x512_S512x256_S500000x256_1_0_0_1_n_n rfl none, rows_max_zero_const,
    rows_hostDense dot_S500000x512_S512x512_S500000x512_1_0_0_1_n_n rfl none]

/-- Row r of the reference's edge predictor, with the concatenation still in place. -/
theorem rows_refTail (xs xd : FVec Ideal S500000x256 .f32) (W1 : FVec Ideal S512x512 .f32) (b1 : FVec Ideal S512 .f32)
    (W2 : FVec Ideal S512x256 .f32) (b2 : FVec Ideal S256 .f32) (W3 : FVec Ideal S256x128 .f32) (b3 : FVec Ideal S128 .f32)
    (W4 : FVec Ideal S128x1 .f32) (b4 : FVec Ideal S1 .f32) (r : Fin 500000) :
    rows (refTail xs xd W1 b1 W2 b2 W3 b3 W4 b4) r
      = dense (rows W4) (vec b4) (relu (dense (rows W3) (vec b3) (relu (dense (rows W2) (vec b2)
          (relu (dense (rows W1) (vec b1)
            (rows (concatenate S500000x512 1 [⟨S500000x256, xs⟩, ⟨S500000x256, xd⟩]
              concatenates_S500000x256_S500000x256_S500000x512_d1) r))))))) :=
  rows_tail _ W1 b1 W2 b2 W3 b3 W4 b4 r

end Tail

/-- The reference's edge predictor is the edge predictor of the specification, edge by edge, with the first layer's
    [512, 512] weight read as its top and bottom [256, 512] halves. -/
theorem refTail_eq (xs xd : FVec Ideal Cert.ReferenceIdeal.S500000x256 .f32) (W1 : FVec Ideal Cert.ReferenceIdeal.S512x512 .f32) (b1 : FVec Ideal Cert.ReferenceIdeal.S512 .f32) (W2 : FVec Ideal Cert.ReferenceIdeal.S512x256 .f32) (b2 : FVec Ideal Cert.ReferenceIdeal.S256 .f32) (W3 : FVec Ideal Cert.ReferenceIdeal.S256x128 .f32) (b3 : FVec Ideal Cert.ReferenceIdeal.S128 .f32) (W4 : FVec Ideal Cert.ReferenceIdeal.S128x1 .f32) (b4 : FVec Ideal Cert.ReferenceIdeal.S1 .f32) :
    refTail xs xd W1 b1 W2 b2 W3 b3 W4 b4
      = mlpT xs xd (extractStridedSlice Cert.KernelIdeal.S256x512 ![0, 0] W1 Cert.KernelIdeal.Facts₀.slices_S512x512_S256x512_0_0)
          (extractStridedSlice Cert.KernelIdeal.S256x512 ![256, 0] W1 Cert.KernelIdeal.Facts₀.slices_S512x512_S256x512_256_0) b1 W2 b2 W3 b3 W4 b4 := by
  funext i
  obtain ⟨r, z, rfl⟩ : ∃ (r : Fin 500000) (z : Fin 1), i = ix2 r z := ⟨i 0, i 1, eq_ix2 i⟩
  rw [mlpT_apply]
  refine (congrFun (rows_refTail xs xd W1 b1 W2 b2 W3 b3 W4 b4 r) z).trans ?_
  have h1 : dense (rows W1) (vec b1)
      (rows (concatenate Cert.ReferenceIdeal.S500000x512 1 [⟨Cert.ReferenceIdeal.S500000x256, xs⟩, ⟨Cert.ReferenceIdeal.S500000x256, xd⟩]
        Cert.ReferenceIdeal.Gen.concatenates_S500000x256_S500000x256_S500000x512_d1) r)
      = fun j => matvec (rows (extractStridedSlice Cert.KernelIdeal.S256x512 ![0, 0] W1 Cert.KernelIdeal.Facts₀.slices_S512x512_S256x512_0_0)) (rows xs r) j
          + matvec (rows (extractStridedSlice Cert.KernelIdeal.S256x512 ![256, 0] W1 Cert.KernelIdeal.Facts₀.slices_S512x512_S256x512_256_0)) (rows xd r) j
          + vec b1 j :=
    funext fun j => congrArg (· + vec b1 j) (matvec_cat xs xd W1 _ _ _ r j)
  rw [h1]
  rfl

end Cert.Bridge

end
-- ==== Proof.ResultEq.lean ====
/-
  The reference's result equals the idealized kernel's result, as functions of the fourteen argument arrays.

  The two compositions differ in three places only.
  * The dense product: the reference's host contraction of a [50000, 256] matrix with a [256, 256] matrix is the
    whole-array product entry by entry, so as functions of the two matrices they are the same function, and the node
    features built over either are the same array.
  * The two gathers of the node features at the edges' endpoints: one program first changes the float format of the
    features, which on the extended reals is the identity, and the gather itself only moves entries, so both programs
    gather the same entries.
  * The edge predictor: the reference's predictor on the two gathered matrices set side by side with the whole first
    weight is the specification's predictor on the two matrices with the top and bottom halves of that weight.
  The node features stay one opaque array throughout: nothing inside a layer is compared.
-/
import proofs.«163565_j59923383714097_2_alg».proof.Proof.Compose
import proofs.«163565_j59923383714097_2_alg».proof.Proof.HostProduct
import proofs.«163565_j59923383714097_2_alg».proof.Proof.RefTailValue

noncomputable section

namespace Cert.Bridge

open Idealize.ShloMosaic Cert.KernelIdeal Cert.KernelIdeal.Gen

/-- As functions of the two matrices, the host product and the whole-array product are the same. -/
theorem hostProd_eq_mmT :
    ((fun x w => hostProd x w) : (⟨S50000x256, .f32⟩ : BufTy).Contents (Elt Ideal) → (⟨S256x256, .f32⟩ : BufTy).Contents (Elt Ideal) → (⟨S50000x256, .f32⟩ : BufTy).Contents (Elt Ideal))
      = fun x w => mmT x w :=
  funext fun x => funext fun w => hostDot_eq_mmT x w

/-- The features gathered at the edges' sources are the same in both programs: the change of float format before the
    gather is the identity on the extended reals. -/
theorem xsRT_eq_xsT (v : (⟨S50000x256, .f32⟩ : BufTy).Contents (Elt Ideal)) (i : (⟨S500000, .i32⟩ : BufTy).Contents (Elt Ideal)) :
    xsRT (F := Ideal) v i = xsT (F := Ideal) v i := rfl

/-- The features gathered at the edges' targets are the same in both programs. -/
theorem xdRT_eq_xdT (v : (⟨S50000x256, .f32⟩ : BufTy).Contents (Elt Ideal)) (i : (⟨S500000, .i32⟩ : BufTy).Contents (Elt Ideal)) :
    xdRT (F := Ideal) v i = xdT (F := Ideal) v i := rfl

/-- The reference's result is the idealized kernel's result. -/
theorem resultR_eq_resultK (a0 : (⟨S2x500000, .i32⟩ : BufTy).Contents (Elt Ideal)) (a1 : (⟨S50000x256, .f32⟩ : BufTy).Contents (Elt Ideal)) (a2 : (⟨S2x256x256, .f32⟩ : BufTy).Contents (Elt Ideal)) (a3 : (⟨S2x256, .f32⟩ : BufTy).Contents (Elt Ideal)) (a4 : (⟨S2x256, .f32⟩ : BufTy).Contents (Elt Ideal)) (a5 : (⟨S2x256, .f32⟩ : BufTy).Contents (Elt Ideal)) (a6 : (⟨S512x512, .f32⟩ : BufTy).Contents (Elt Ideal)) (a7 : (⟨S512, .f32⟩ : BufTy).Contents (Elt Ideal)) (a8 : (⟨S512x256, .f32⟩ : BufTy).Contents (Elt Ideal)) (a9 : (⟨S256, .f32⟩ : BufTy).Contents (Elt Ideal)) (a10 : (⟨S256x128, .f32⟩ : BufTy).Contents (Elt Ideal)) (a11 : (⟨S128, .f32⟩ : BufTy).Contents (Elt Ideal)) (a12 : (⟨S128x1, .f32⟩ : BufTy).Contents (Elt Ideal)) (a13 : (⟨S1, .f32⟩ : BufTy).Contents (Elt Ideal)) :
    resultR a0 a1 a2 a3 a4 a5 a6 a7 a8 a9 a10 a11 a12 a13 = resultK a0 a1 a2 a3 a4 a5 a6 a7 a8 a9 a10 a11 a12 a13 := by
  have hnf : nodeFeat (fun x w => hostProd x w) a0 a1 a2 a3 a4 a5 = nodeFeat (fun x w => mmT x w) a0 a1 a2 a3 a4 a5 :=
    congrArg (fun mm => nodeFeat mm a0 a1 a2 a3 a4 a5) hostProd_eq_mmT
  unfold resultR resultK
  rw [hnf]
  generalize nodeFeat (fun x w => mmT x w) a0 a1 a2 a3 a4 a5 = nf
  refine (refTail_eq _ _ a6 a7 a8 a9 a10 a11 a12 a13).trans ?_
  rw [xsRT_eq_xsT, xdRT_eq_xdT]
  rfl

end Cert.Bridge

end
-- ==== Proof.Assemble.lean ====
/-
  The five claims.

  The three frames: the kernel's and the idealized kernel's are their launches over the segments of @main; the
  reference has no kernel, and its frame is its run — every buffer at the fold of its host operations — read at the
  argument arrays, which no operation writes. The idealization rewrote nothing. The value claim: from memories that
  agree on the arguments, the idealized kernel's result buffer ends at the edge predictor on the two-layer node
  features of the arguments, computed tile by tile, and the reference's at its own spelling of the same function —
  the dense products as host contractions, the two endpoint matrices side by side against the first weight whole —
  and the two spellings are one function of the arguments on the extended reals.
-/
import proofs.«163565_j59923383714097_2_alg».proof.Defs
import proofs.«163565_j59923383714097_2_alg».proof.Proof.Gen.Kernel
import proofs.«163565_j59923383714097_2_alg».proof.Proof.Gen.KernelIdeal
import proofs.«163565_j59923383714097_2_alg».proof.Proof.Gen.ReferenceIdeal
import proofs.«163565_j59923383714097_2_alg».proof.Proof.Gen.Pre_finite_inputs
import proofs.«163565_j59923383714097_2_alg».proof.Proof.Gen.Kernel.Frame
import proofs.«163565_j59923383714097_2_alg».proof.Proof.Gen.KernelIdeal.Frame
import proofs.«163565_j59923383714097_2_alg».proof.Proof.KRun
import proofs.«163565_j59923383714097_2_alg».proof.Proof.KValue
import proofs.«163565_j59923383714097_2_alg».proof.Proof.RefRun
import proofs.«163565_j59923383714097_2_alg».proof.Proof.RStage
import proofs.«163565_j59923383714097_2_alg».proof.Proof.RArgsA
import proofs.«163565_j59923383714097_2_alg».proof.Proof.RArgsB
import proofs.«163565_j59923383714097_2_alg».proof.Proof.ResultEq

set_option maxRecDepth 16384

noncomputable section

namespace Cert.Proof.Claims

open Idealize.ShloMosaic Idealize.ShloMosaic.TcCoe Idealize.ShloMosaic.StableHlo Idealize.SL.Sem Cert.Bridge

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c => ⟨(h c Cert.ReferenceIdeal.main_arg0).trans (ref_arg0 _),
      (h c Cert.ReferenceIdeal.main_arg1).trans (ref_arg1 _),
      (h c Cert.ReferenceIdeal.main_arg2).trans (ref_arg2 _),
      (h c Cert.ReferenceIdeal.main_arg3).trans (ref_arg3 _),
      (h c Cert.ReferenceIdeal.main_arg4).trans (ref_arg4 _),
      (h c Cert.ReferenceIdeal.main_arg5).trans (ref_arg5 _),
      (h c Cert.ReferenceIdeal.main_arg6).trans (ref_arg6 _),
      (h c Cert.ReferenceIdeal.main_arg7).trans (ref_arg7 _),
      (h c Cert.ReferenceIdeal.main_arg8).trans (ref_arg8 _),
      (h c Cert.ReferenceIdeal.main_arg9).trans (ref_arg9 _),
      (h c Cert.ReferenceIdeal.main_arg10).trans (ref_arg10 _),
      (h c Cert.ReferenceIdeal.main_arg11).trans (ref_arg11 _),
      (h c Cert.ReferenceIdeal.main_arg12).trans (ref_arg12 _),
      (h c Cert.ReferenceIdeal.main_arg13).trans (ref_arg13 _)⟩)
    (Cert.ReferenceIdeal.ValueP.run_fold (F := Ideal) m ρ)

theorem preserves : Cert.preserves_Kernel_KernelIdeal := trivial

theorem algebraic : Cert.algebraic_KernelIdeal_ReferenceIdeal := by
  intro m ρ m' ρ' _ hagree
  refine ⟨fun c => resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (kernel_value m ρ c), (h c).2⟩) (kernel_run (F := Ideal) m ρ)
  · refine (θ_run Cert.ReferenceIdeal.defs _ _).mono
      (fun r h c => ⟨?_, (h c Cert.ReferenceIdeal.main_arg0).trans (ref_arg0 _),
        (h c Cert.ReferenceIdeal.main_arg1).trans (ref_arg1 _),
        (h c Cert.ReferenceIdeal.main_arg2).trans (ref_arg2 _),
        (h c Cert.ReferenceIdeal.main_arg3).trans (ref_arg3 _),
        (h c Cert.ReferenceIdeal.main_arg4).trans (ref_arg4 _),
        (h c Cert.ReferenceIdeal.main_arg5).trans (ref_arg5 _),
        (h c Cert.ReferenceIdeal.main_arg6).trans (ref_arg6 _),
        (h c Cert.ReferenceIdeal.main_arg7).trans (ref_arg7 _),
        (h c Cert.ReferenceIdeal.main_arg8).trans (ref_arg8 _),
        (h c Cert.ReferenceIdeal.main_arg9).trans (ref_arg9 _),
        (h c Cert.ReferenceIdeal.main_arg10).trans (ref_arg10 _),
        (h c Cert.ReferenceIdeal.main_arg11).trans (ref_arg11 _),
        (h c Cert.ReferenceIdeal.main_arg12).trans (ref_arg12 _),
        (h c Cert.ReferenceIdeal.main_arg13).trans (ref_arg13 _)⟩)
      (Cert.ReferenceIdeal.ValueP.run_fold (F := Ideal) m' ρ')
    refine ((h c Cert.ReferenceIdeal.main_v164).trans (ref_value _)).trans ?_
    rw [resultR_eq_resultK]
    obtain ⟨h0, h1, h2, h3, h4, h5, h6, h7, h8, h9, h10, h11, h12, h13⟩ := hagree c
    rw [show (launchContents m' c (Proc.devRef .tc Cert.ReferenceIdeal.main_arg0)) = (m ((c.tc : Thread Cert.KernelIdeal.nD Cert.KernelIdeal.τ).loc Cert.KernelIdeal.main_arg0)) from h0,
      show (launchContents m' c (Proc.devRef .tc Cert.ReferenceIdeal.main_arg1)) = (m ((c.tc : Thread Cert.KernelIdeal.nD Cert.KernelIdeal.τ).loc Cert.KernelIdeal.main_arg1)) from h1,
      show (launchContents m' c (Proc.devRef .tc Cert.ReferenceIdeal.main_arg2)) = (m ((c.tc : Thread Cert.KernelIdeal.nD Cert.KernelIdeal.τ).loc Cert.KernelIdeal.main_arg2)) from h2,
      show (launchContents m' c (Proc.devRef .tc Cert.ReferenceIdeal.main_arg3)) = (m ((c.tc : Thread Cert.KernelIdeal.nD Cert.KernelIdeal.τ).loc Cert.KernelIdeal.main_arg3)) from h3,
      show (launchContents m' c (Proc.devRef .tc Cert.ReferenceIdeal.main_arg4)) = (m ((c.tc : Thread Cert.KernelIdeal.nD Cert.KernelIdeal.τ).loc Cert.KernelIdeal.main_arg4)) from h4,
      show (launchContents m' c (Proc.devRef .tc Cert.ReferenceIdeal.main_arg5)) = (m ((c.tc : Thread Cert.KernelIdeal.nD Cert.KernelIdeal.τ).loc Cert.KernelIdeal.main_arg5)) from h5,
      show (launchContents m' c (Proc.devRef .tc Cert.ReferenceIdeal.main_arg6)) = (m ((c.tc : Thread Cert.KernelIdeal.nD Cert.KernelIdeal.τ).loc Cert.KernelIdeal.main_arg6)) from h6,
      show (launchContents m' c (Proc.devRef .tc Cert.ReferenceIdeal.main_arg7)) = (m ((c.tc : Thread Cert.KernelIdeal.nD Cert.KernelIdeal.τ).loc Cert.KernelIdeal.main_arg7)) from h7,
      show (launchContents m' c (Proc.devRef .tc Cert.ReferenceIdeal.main_arg8)) = (m ((c.tc : Thread Cert.KernelIdeal.nD Cert.KernelIdeal.τ).loc Cert.KernelIdeal.main_arg8)) from h8,
      show (launchContents m' c (Proc.devRef .tc Cert.ReferenceIdeal.main_arg9)) = (m ((c.tc : Thread Cert.KernelIdeal.nD Cert.KernelIdeal.τ).loc Cert.KernelIdeal.main_arg9)) from h9,
      show (launchContents m' c (Proc.devRef .tc Cert.ReferenceIdeal.main_arg10)) = (m ((c.tc : Thread Cert.KernelIdeal.nD Cert.KernelIdeal.τ).loc Cert.KernelIdeal.main_arg10)) from h10,
      show (launchContents m' c (Proc.devRef .tc Cert.ReferenceIdeal.main_arg11)) = (m ((c.tc : Thread Cert.KernelIdeal.nD Cert.KernelIdeal.τ).loc Cert.KernelIdeal.main_arg11)) from h11,
      show (launchContents m' c (Proc.devRef .tc Cert.ReferenceIdeal.main_arg12)) = (m ((c.tc : Thread Cert.KernelIdeal.nD Cert.KernelIdeal.τ).loc Cert.KernelIdeal.main_arg12)) from h12,
      show (launchContents m' c (Proc.devRef .tc Cert.ReferenceIdeal.main_arg13)) = (m ((c.tc : Thread Cert.KernelIdeal.nD Cert.KernelIdeal.τ).loc Cert.KernelIdeal.main_arg13)) from h13]

end Cert.Proof.Claims

end
-- ==== Proof.lean ====
/- The certificate's claim, assembled: the witnesses of the four programs' stated side conditions, the three
   frames, the (empty) idealization ledger, and the value claim of Proof/Assemble.lean. -/
import proofs.«163565_j59923383714097_2_alg».proof.Defs
import proofs.«163565_j59923383714097_2_alg».proof.Proof.Assemble
import proofs.«163565_j59923383714097_2_alg».proof.Proof.Gen.Kernel
import proofs.«163565_j59923383714097_2_alg».proof.Proof.Gen.KernelIdeal
import proofs.«163565_j59923383714097_2_alg».proof.Proof.Gen.ReferenceIdeal
import proofs.«163565_j59923383714097_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
